-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x128x152x272 : Shape := ⟨4, ![8, 128, 152, 272]⟩
abbrev S8x64 : Shape := ⟨2, ![8, 64]⟩
abbrev S_ : Shape := ⟨0, ![]⟩

class Facts : Prop where
  bcast_S_S8x128x152x272 : S_.BroadcastsInDim S8x128x152x272 (![] : Fin 0 → Fin S8x128x152x272.rank)
  reducesTo_S8x128x152x272_S_d0_1_2_3 : S8x128x152x272.ReducesTo [0, 1, 2, 3] S_
  h_S_ : 0 < S_.numel
  bcast_S_S8x64 : S_.BroadcastsInDim S8x64 (![] : Fin 0 → Fin S8x64.rank)
  reducesTo_S8x64_S_d0_1 : S8x64.ReducesTo [0, 1] S_
  reducesTo_S_S_d : S_.ReducesTo [] S_

variable [Facts]

def fn_part1 {F : FTy → Type} [FloatOps F] (main_arg3 : IVec S_ 32) (main_v10 : IVec S_ 1) (main_v15 : IVec S8x64 1) (main_c_5 : IVec S_ 1) : IVec S_ 1 :=
  let main_v16 : IVec S_ 1 := (fun x v => Host.reduce IntOp.andi x v reducesTo_S8x64_S_d0_1 h_S_) main_v15 main_c_5
  let main_v17 : IVec S_ 1 := andi main_v10 main_v16
  let main_c_6 : IVec S_ 32 := constantI S_ 32 10#32
  let main_v18 : IVec S_ 1 := cmpi .sge main_arg3 main_c_6
  let main_c_7 : IVec S_ 32 := constantI S_ 32 10#32
  let main_v19 : IVec S_ 1 := cmpi .sle main_arg3 main_c_7
  let main_v20 : IVec S_ 1 := andi main_v18 main_v19
  let main_c_8 : IVec S_ 1 := constantI S_ 1 1#1
  let main_v21 : IVec S_ 1 := (fun x v => Host.reduce IntOp.andi x v reducesTo_S_S_d h_S_) main_v20 main_c_8
  let main_v22 : IVec S_ 1 := andi main_v17 main_v21
  main_v22

def fn {F : FTy → Type} [FloatOps F] (main_arg0 : FVec F S8x128x152x272 .f32) (main_arg1 : IVec S8x64 32) (main_arg2 : IVec S8x64 32) (main_arg3 : IVec S_ 32) : IVec S_ 1 :=
  let main_v0 : FVec F S8x128x152x272 .f32 := Host.absf main_arg0
  let main_cst : FVec F S_ .f32 := constant S_ .f32 0x7F800000#32
  let main_v1 : FVec F S8x128x152x272 .f32 := broadcastInDim S8x128x152x272 ![] bcast_S_S8x128x152x272 main_cst
  let main_v2 : IVec S8x128x152x272 1 := cmpf .olt main_v0 main_v1
  let main_c : IVec S_ 1 := constantI S_ 1 1#1
  let main_v3 : IVec S_ 1 := (fun x v => Host.reduce IntOp.andi x v reducesTo_S8x128x152x272_S_d0_1_2_3 h_S_) main_v2 main_c
  let main_c_0 : IVec S_ 32 := constantI S_ 32 0#32
  let main_v4 : IVec S8x64 32 := broadcastInDim S8x64 ![] bcast_S_S8x64 main_c_0
  let main_v5 : IVec S8x64 1 := cmpi .sge main_arg1 main_v4
  let main_c_1 : IVec S_ 32 := constantI S_ 32 41343#32
  let main_v6 : IVec S8x64 32 := broadcastInDim S8x64 ![] bcast_S_S8x64 main_c_1
  let main_v7 : IVec S8x64 1 := cmpi .sle main_arg1 main_v6
  let main_v8 : IVec S8x64 1 := andi main_v5 main_v7
  let main_c_2 : IVec S_ 1 := constantI S_ 1 1#1
  let main_v9 : IVec S_ 1 := (fun x v => Host.reduce IntOp.andi x v reducesTo_S8x64_S_d0_1 h_S_) main_v8 main_c_2
  let main_v10 : IVec S_ 1 := andi main_v3 main_v9
  let main_c_3 : IVec S_ 32 := constantI S_ 32 1#32
  let main_v11 : IVec S8x64 32 := broadcastInDim S8x64 ![] bcast_S_S8x64 main_c_3
  let main_v12 : IVec S8x64 1 := cmpi .sge main_arg2 main_v11
  let main_c_4 : IVec S_ 32 := constantI S_ 32 1#32
  let main_v13 : IVec S8x64 32 := broadcastInDim S8x64 ![] bcast_S_S8x64 main_c_4
  let main_v14 : IVec S8x64 1 := cmpi .sle main_arg2 main_v13
  let main_v15 : IVec S8x64 1 := andi main_v12 main_v14
  let main_c_5 : IVec S_ 1 := constantI S_ 1 1#1
  fn_part1 (F := F) main_arg3 main_v10 main_v15 main_c_5
-- ==== Kernel.lean ====
abbrev S8x128x152x272 : Shape := ⟨4, ![8, 128, 152, 272]⟩
abbrev S8x64 : Shape := ⟨2, ![8, 64]⟩
abbrev S_ : Shape := ⟨0, ![]⟩
abbrev S8x152x272x128 : Shape := ⟨4, ![8, 152, 272, 128]⟩
abbrev S330752x128 : Shape := ⟨2, ![330752, 128]⟩
abbrev S512 : Shape := ⟨1, ![512]⟩
abbrev S512x128 : Shape := ⟨2, ![512, 128]⟩
abbrev S32 : Shape := ⟨1, ![32]⟩
abbrev S32x128 : Shape := ⟨2, ![32, 128]⟩
abbrev S1x1 : Shape := ⟨2, ![1, 1]⟩
abbrev S64x64 : Shape := ⟨2, ![64, 64]⟩
abbrev S64x128 : Shape := ⟨2, ![64, 128]⟩
abbrev S64 : Shape := ⟨1, ![64]⟩
abbrev S64x1 : Shape := ⟨2, ![64, 1]⟩
abbrev S1x64 : Shape := ⟨2, ![1, 64]⟩
abbrev S1 : Shape := ⟨1, ![1]⟩

abbrev nBuf : Table → Nat
  | .hbm => 12
  | .local .tc .vmem => 1
  | .local .tc .smem => 2
  | .local .scVector .vmem => 3
  | _ => 0

abbrev bufTy : (tb : Table) → Fin (nBuf tb) → BufTy
  | .hbm, ⟨0, _⟩ => ⟨S8x128x152x272, .f32⟩
  | .hbm, ⟨1, _⟩ => ⟨S8x64, .i32⟩
  | .hbm, ⟨2, _⟩ => ⟨S8x64, .i32⟩
  | .hbm, ⟨3, _⟩ => ⟨S_, .i32⟩
  | .hbm, ⟨4, _⟩ => ⟨S8x152x272x128, .f32⟩
  | .hbm, ⟨5, _⟩ => ⟨S330752x128, .f32⟩
  | .hbm, ⟨6, _⟩ => ⟨S512, .i32⟩
  | .hbm, ⟨7, _⟩ => ⟨S512x128, .f32⟩
  | .hbm, ⟨8, _⟩ => ⟨S_, .f32⟩
  | .hbm, ⟨9, _⟩ => ⟨S1x1, .f32⟩
  | .hbm, ⟨10, _⟩ => ⟨S1x1, .f32⟩
  | .hbm, ⟨11, _⟩ => ⟨S_, .f32⟩
  | .local .tc .vmem, ⟨0, _⟩ => ⟨S512x128, .f32⟩
  | .local .tc .smem, ⟨0, _⟩ => ⟨S1x1, .f32⟩
  | .local .tc .smem, ⟨1, _⟩ => ⟨S1x1, .f32⟩
  | .local .scVector .vmem, ⟨0, _⟩ => ⟨S32, .i32⟩
  | .local .scVector .vmem, ⟨1, _⟩ => ⟨S32, .i32⟩
  | .local .scVector .vmem, ⟨2, _⟩ => ⟨S32x128, .f32⟩
  | _, _ => ⟨S8x128x152x272, .f32⟩

abbrev bufScoped : (cs : CoreSpace) → Fin (nBuf (.local .tc cs)) → Bool
  | .vmem, ⟨0, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc1_stg1_0 : Ref sig .tc := ⟨.vmem, 0, rfl⟩
abbrev cc1_stg0_0 : Ref sig .tc := ⟨.smem, 0, rfl⟩
abbrev cc1_stg2_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c32_i32 : BitVec 32 := 32#32
  let v0 : BitVec 32 := Scalar.muli arg1 c32_i32
  ![v0.toNat]
def k0_off2 (i : grid0.Coords) : Fin 2 → Nat :=
  let arg1 : BitVec 32 := BitVec.ofNat 32 (i 1).val
  let c32_i32 : BitVec 32 := 32#32
  let v0 : BitVec 32 := Scalar.muli arg1 c32_i32
  let c0_i32_9_r1 : BitVec 32 := 0#32
  ![v0.toNat, 0]
abbrev grid1 : Pipeline.Grid := .none

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S8x128x152x272_S8x152x272x128_0_2_3_1 : S8x128x152x272.Transposes [0, 2, 3, 1] S8x152x272x128
  shapeCasts_S8x152x272x128_S330752x128 : S8x152x272x128.ShapeCasts S330752x128
  shapeCasts_S8x64_S512 : S8x64.ShapeCasts S512
  inb_S32_S32_0 : ∀ a, (![0] : Fin 1 → Nat) a + S32.size a ≤ S32.size a
  h_S32 : 0 < S32.numel
  shapeCasts_S32_S32 : S32.ShapeCasts S32
  inb_S330752x128_S330752x128_0_0 : ∀ a, (![0, 0] : Fin 2 → Nat) a + S330752x128.size a ≤ S330752x128.size a
  gathers_S330752x128_S32x128 : S330752x128.Gathers 0 S32x128
  bcast_S_S1x1 : S_.BroadcastsInDim S1x1 (![] : Fin 0 → Fin S1x1.rank)
  inb_S1x1_S1x1_0_0 : ∀ a, (![0, 0] : Fin 2 → Nat) a + S1x1.size a ≤ S1x1.size a
  numel1_S1x1 : S1x1.numel = 1
  iota_S64x64_d0_w32 : S64x64.Iotas .tc 32 [0]
  iota_S64x64_d1_w32 : S64x64.Iotas .tc 32 [1]
  inb_S512x128_S64x128_0_0 : ∀ a, (![0, 0] : Fin 2 → Nat) a + S64x128.size a ≤ S512x128.size a
  h_S64x128 : 0 < S64x128.numel
  shapeCasts_S64x128_S64x128 : S64x128.ShapeCasts S64x128
  reduces_S64x128_S64 : S64x128.Reduces [1] S64
  shapeCasts_S64_S64x1 : S64.ShapeCasts S64x1
  broadcasts_S64x1_S64x128 : S64x1.Broadcasts S64x128
  shapeCasts_S64_S1x64 : S64.ShapeCasts S1x64
  broadcasts_S64x1_S64x64 : S64x1.Broadcasts S64x64
  broadcasts_S1x64_S64x64 : S1x64.Broadcasts S64x64
  reduces_S64x64_S64 : S64x64.Reduces [1] S64
  reduces_S1x64_S1 : S1x64.Reduces [1] S1
  shapeCasts_S1_S1x1 : S1.ShapeCasts S1x1
  inpos_S1x1_p0_0 : ∀ a, (![0, 0] : Fin 2 → Nat) a < S1x1.size a
  inb_S512x128_S64x128_64_0 : ∀ a, (![64, 0] : Fin 2 → Nat) a + S64x128.size a ≤ S512x128.size a
  inb_S512x128_S64x128_128_0 : ∀ a, (![128, 0] : Fin 2 → Nat) a + S64x128.size a ≤ S512x128.size a
  inb_S512x128_S64x128_192_0 : ∀ a, (![192, 0] : Fin 2 → Nat) a + S64x128.size a ≤ S512x128.size a
  inb_S512x128_S64x128_256_0 : ∀ a, (![256, 0] : Fin 2 → Nat) a + S64x128.size a ≤ S512x128.size a
  inb_S512x128_S64x128_320_0 : ∀ a, (![320, 0] : Fin 2 → Nat) a + S64x128.size a ≤ S512x128.size a
  inb_S512x128_S64x128_384_0 : ∀ a, (![384, 0] : Fin 2 → Nat) a + S64x128.size a ≤ S512x128.size a
  inb_S512x128_S64x128_448_0 : ∀ a, (![448, 0] : Fin 2 → Nat) a + S64x128.size a ≤ S512x128.size a
  shapeCasts_S1x1_S_ : S1x1.ShapeCasts S_
  dot_S64x128_S64x128_S64x64_1_1_0_0_n_n_wf : DotDims.WF S64x128 S64x128 S64x64 [1] [1] [0] [0] [] []
  hcc0_scratch3 : 0 + S_.numel ≤ 6
  hcc0_scoped0 : 1 + S_.numel ≤ 6
  hcc0_scoped1 : 2 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32.size a ≤ S512.size a
  k0_off2_inb : ∀ i : grid0.Coords, ∀ a, (k0_off2 i) a + S32x128.size a ≤ S512x128.size a
  hstage1_0 : ∀ j, (stage1_0 j).IsWhole
  hstage1_1 : ∀ j, (stage1_1 j).IsWhole
  hstage1_2 : ∀ j, (stage1_2 j).IsWhole

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
def dot_S64x128_S64x128_S64x64_1_1_0_0_n_n : DotDims S64x128 S64x128 S64x64 where
  lhsContracting := [1]
  rhsContracting := [1]
  lhsNonContracting := [0]
  rhsNonContracting := [0]
  lhsBatch := []
  rhsBatch := []
  wf := dot_S64x128_S64x128_S64x64_1_1_0_0_n_n_wf

abbrev win1_0 : Pipeline.Window sig grid1 :=
  Pipeline.Window.whole (Memref.whole main_v5) false false (stage1_0 0) (sem1_0 0) (Memref.isWhole_whole _) (hstage1_0 0)

abbrev win1_1 : Pipeline.Window sig grid1 :=
  Pipeline.Window.whole (Memref.whole main_v3) false false (stage1_1 0) (sem1_1 0) (Memref.isWhole_whole _) (hstage1_1 0)

abbrev win1_2 : Pipeline.Window sig grid1 :=
  Pipeline.Window.whole (Memref.whole main_v6) true false (stage1_2 0) (sem1_2 0) (Memref.isWhole_whole _) (hstage1_2 0)

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x128x152x272 : Shape := ⟨4, ![8, 128, 152, 272]⟩
abbrev S8x64 : Shape := ⟨2, ![8, 64]⟩
abbrev S_ : Shape := ⟨0, ![]⟩
abbrev S8x152x272x128 : Shape := ⟨4, ![8, 152, 272, 128]⟩
abbrev S8x41344x128 : Shape := ⟨3, ![8, 41344, 128]⟩
abbrev S8x64x1 : Shape := ⟨3, ![8, 64, 1]⟩
abbrev S1 : Shape := ⟨1, ![1]⟩
abbrev S1x1x1 : Shape := ⟨3, ![1, 1, 1]⟩
abbrev S8x64x128 : Shape := ⟨3, ![8, 64, 128]⟩
abbrev S8x64x1x128 : Shape := ⟨4, ![8, 64, 1, 128]⟩
abbrev S8x1x64x128 : Shape := ⟨4, ![8, 1, 64, 128]⟩
abbrev S8x64x64x128 : Shape := ⟨4, ![8, 64, 64, 128]⟩
abbrev S8x64x64 : Shape := ⟨3, ![8, 64, 64]⟩
abbrev S64x64 : Shape := ⟨2, ![64, 64]⟩
abbrev S1x64x64 : Shape := ⟨3, ![1, 64, 64]⟩
abbrev S512 : Shape := ⟨1, ![512]⟩

abbrev nBuf : Space → Nat
  | .hbm => 76
  | .vmem => 0
  | .smem => 0
  | _ => 0

abbrev bufTy : (tb : Table) → Fin (tcTables nBuf tb) → BufTy
  | .hbm, ⟨0, _⟩ => ⟨S8x128x152x272, .f32⟩
  | .hbm, ⟨1, _⟩ => ⟨S8x64, .i32⟩
  | .hbm, ⟨2, _⟩ => ⟨S8x64, .i32⟩
  | .hbm, ⟨3, _⟩ => ⟨S_, .i32⟩
  | .hbm, ⟨4, _⟩ => ⟨S8x152x272x128, .f32⟩
  | .hbm, ⟨5, _⟩ => ⟨S8x41344x128, .f32⟩
  | .hbm, ⟨6, _⟩ => ⟨S8x64x1, .i32⟩
  | .hbm, ⟨7, _⟩ => ⟨S_, .i32⟩
  | .hbm, ⟨8, _⟩ => ⟨S8x64x1, .i32⟩
  | .hbm, ⟨9, _⟩ => ⟨S8x64x1, .i1⟩
  | .hbm, ⟨10, _⟩ => ⟨S_, .i32⟩
  | .hbm, ⟨11, _⟩ => ⟨S8x64x1, .i32⟩
  | .hbm, ⟨12, _⟩ => ⟨S8x64x1, .i32⟩
  | .hbm, ⟨13, _⟩ => ⟨S8x64x1, .i32⟩
  | .hbm, ⟨14, _⟩ => ⟨S1, .i32⟩
  | .hbm, ⟨15, _⟩ => ⟨S_, .i32⟩
  | .hbm, ⟨16, _⟩ => ⟨S8x64x1, .i32⟩
  | .hbm, ⟨17, _⟩ => ⟨S8x64x1, .i1⟩
  | .hbm, ⟨18, _⟩ => ⟨S1x1x1, .i32⟩
  | .hbm, ⟨19, _⟩ => ⟨S8x64x1, .i32⟩
  | .hbm, ⟨20, _⟩ => ⟨S8x64x1, .i1⟩
  | .hbm, ⟨21, _⟩ => ⟨S8x64x1, .i1⟩
  | .hbm, ⟨22, _⟩ => ⟨S_, .i1⟩
  | .hbm, ⟨23, _⟩ => ⟨S8x64, .i1⟩
  | .hbm, ⟨24, _⟩ => ⟨S8x64x128, .f32⟩
  | .hbm, ⟨25, _⟩ => ⟨S8x64x128, .i1⟩
  | .hbm, ⟨26, _⟩ => ⟨S_, .f32⟩
  | .hbm, ⟨27, _⟩ => ⟨S8x64x128, .f32⟩
  | .hbm, ⟨28, _⟩ => ⟨S8x64x128, .f32⟩
  | .hbm, ⟨29, _⟩ => ⟨S8x64x128, .f32⟩
  | .hbm, ⟨30, _⟩ => ⟨S_, .f32⟩
  | .hbm, ⟨31, _⟩ => ⟨S8x64, .f32⟩
  | .hbm, ⟨32, _⟩ => ⟨S8x64x1, .f32⟩
  | .hbm, ⟨33, _⟩ => ⟨S8x64x1, .f32⟩
  | .hbm, ⟨34, _⟩ => ⟨S_, .f32⟩
  | .hbm, ⟨35, _⟩ => ⟨S8x64x1, .f32⟩
  | .hbm, ⟨36, _⟩ => ⟨S8x64x1, .f32⟩
  | .hbm, ⟨37, _⟩ => ⟨S_, .f32⟩
  | .hbm, ⟨38, _⟩ => ⟨S8x64x128, .f32⟩
  | .hbm, ⟨39, _⟩ => ⟨S8x64x128, .f32⟩
  | .hbm, ⟨40, _⟩ => ⟨S8x64x128, .f32⟩
  | .hbm, ⟨41, _⟩ => ⟨S8x64x128, .f32⟩
  | .hbm, ⟨42, _⟩ => ⟨S8x64x1x128, .f32⟩
  | .hbm, ⟨43, _⟩ => ⟨S8x1x64x128, .f32⟩
  | .hbm, ⟨44, _⟩ => ⟨S8x64x64x128, .f32⟩
  | .hbm, ⟨45, _⟩ => ⟨S8x64x64x128, .f32⟩
  | .hbm, ⟨46, _⟩ => ⟨S8x64x64x128, .f32⟩
  | .hbm, ⟨47, _⟩ => ⟨S8x64x64x128, .f32⟩
  | .hbm, ⟨48, _⟩ => ⟨S_, .f32⟩
  | .hbm, ⟨49, _⟩ => ⟨S8x64x64, .f32⟩
  | .hbm, ⟨50, _⟩ => ⟨S64x64, .i32⟩
  | .hbm, ⟨51, _⟩ => ⟨S64x64, .i32⟩
  | .hbm, ⟨52, _⟩ => ⟨S_, .i32⟩
  | .hbm, ⟨53, _⟩ => ⟨S64x64, .i32⟩
  | .hbm, ⟨54, _⟩ => ⟨S64x64, .i32⟩
  | .hbm, ⟨55, _⟩ => ⟨S64x64, .i1⟩
  | .hbm, ⟨56, _⟩ => ⟨S1x64x64, .i1⟩
  | .hbm, ⟨57, _⟩ => ⟨S_, .f32⟩
  | .hbm, ⟨58, _⟩ => ⟨S_, .f32⟩
  | .hbm, ⟨59, _⟩ => ⟨S8x64x64, .i1⟩
  | .hbm, ⟨60, _⟩ => ⟨S8x64x64, .f32⟩
  | .hbm, ⟨61, _⟩ => ⟨S8x64x64, .f32⟩
  | .hbm, ⟨62, _⟩ => ⟨S8x64x64, .f32⟩
  | .hbm, ⟨63, _⟩ => ⟨S_, .f32⟩
  | .hbm, ⟨64, _⟩ => ⟨S8x64, .f32⟩
  | .hbm, ⟨65, _⟩ => ⟨S512, .f32⟩
  | .hbm, ⟨66, _⟩ => ⟨S_, .f32⟩
  | .hbm, ⟨67, _⟩ => ⟨S512, .f32⟩
  | .hbm, ⟨68, _⟩ => ⟨S512, .f32⟩
  | .hbm, ⟨69, _⟩ => ⟨S_, .f32⟩
  | .hbm, ⟨70, _⟩ => ⟨S512, .f32⟩
  | .hbm, ⟨71, _⟩ => ⟨S512, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S8x128x152x272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_c_2 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_3 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_1 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_2 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v28 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_v31 : Ref sig .tc := ⟨.hbm, 65, rfl⟩
abbrev main_cst_4 : Ref sig .tc := ⟨.hbm, 66, rfl⟩
abbrev main_v32 : Ref sig .tc := ⟨.hbm, 67, rfl⟩
abbrev main_v33 : Ref sig .tc := ⟨.hbm, 68, rfl⟩
abbrev main_cst_5 : Ref sig .tc := ⟨.hbm, 69, rfl⟩
abbrev main_v34 : Ref sig .tc := ⟨.hbm, 70, rfl⟩
abbrev main_v35 : Ref sig .tc := ⟨.hbm, 71, rfl⟩
abbrev main_cst_6 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩

abbrev nD : Nat := 1
abbrev τ : Topo := Topo.v7x

variable {F : FTy → Type} [FloatOps F]

class Facts₀ : Prop where
  transposes_S8x128x152x272_S8x152x272x128_0_2_3_1 : S8x128x152x272.Transposes [0, 2, 3, 1] S8x152x272x128
  shapeCasts_S8x152x272x128_S8x41344x128 : S8x152x272x128.ShapeCasts S8x41344x128
  bcast_S8x64_S8x64x1_0_1 : S8x64.BroadcastsInDim S8x64x1 (![0, 1] : Fin 2 → Fin S8x64x1.rank)
  bcast_S_S8x64x1 : S_.BroadcastsInDim S8x64x1 (![] : Fin 0 → Fin S8x64x1.rank)
  bcast_S1_S1x1x1_2 : S1.BroadcastsInDim S1x1x1 (![2] : Fin 1 → Fin S1x1x1.rank)
  bcast_S1x1x1_S8x64x1_0_1_2 : S1x1x1.BroadcastsInDim S8x64x1 (![0, 1, 2] : Fin 3 → Fin S8x64x1.rank)
  reducesTo_S8x64x1_S8x64_d2 : S8x64x1.ReducesTo [2] S8x64
  h_S_ : 0 < S_.numel
  bcast_S8x64_S8x64x128_0_1 : S8x64.BroadcastsInDim S8x64x128 (![0, 1] : Fin 2 → Fin S8x64x128.rank)
  bcast_S_S8x64x128 : S_.BroadcastsInDim S8x64x128 (![] : Fin 0 → Fin S8x64x128.rank)
  reducesTo_S8x64x128_S8x64_d2 : S8x64x128.ReducesTo [2] S8x64
  bcast_S8x64x1_S8x64x128_0_1_2 : S8x64x1.BroadcastsInDim S8x64x128 (![0, 1, 2] : Fin 3 → Fin S8x64x128.rank)
  bcast_S8x64x128_S8x64x1x128_0_1_3 : S8x64x128.BroadcastsInDim S8x64x1x128 (![0, 1, 3] : Fin 3 → Fin S8x64x1x128.rank)
  bcast_S8x64x128_S8x1x64x128_0_2_3 : S8x64x128.BroadcastsInDim S8x1x64x128 (![0, 2, 3] : Fin 3 → Fin S8x1x64x128.rank)
  bcast_S8x64x1x128_S8x64x64x128_0_1_2_3 : S8x64x1x128.BroadcastsInDim S8x64x64x128 (![0, 1, 2, 3] : Fin 4 → Fin S8x64x64x128.rank)
  bcast_S8x1x64x128_S8x64x64x128_0_1_2_3 : S8x1x64x128.BroadcastsInDim S8x64x64x128 (![0, 1, 2, 3] : Fin 4 → Fin S8x64x64x128.rank)
  reducesTo_S8x64x64x128_S8x64x64_d3 : S8x64x64x128.ReducesTo [3] S8x64x64
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S8x64x64_0_1_2 : S1x64x64.BroadcastsInDim S8x64x64 (![0, 1, 2] : Fin 3 → Fin S8x64x64.rank)
  bcast_S_S8x64x64 : S_.BroadcastsInDim S8x64x64 (![] : Fin 0 → Fin S8x64x64.rank)
  reducesTo_S8x64x64_S8x64_d2 : S8x64x64.ReducesTo [2] S8x64
  shapeCasts_S8x64_S512 : S8x64.ShapeCasts S512
  bcast_S_S512 : S_.BroadcastsInDim S512 (![] : Fin 0 → Fin S512.rank)
  reducesTo_S512_S_d0 : S512.ReducesTo [0] S_
  gather_S8x41344x128_S8x64x1_S8x64x128_2_1_0_0_1_2_11128_wf : GatherDims.WF S8x41344x128 S8x64x1 S8x64x128 [2] [1] [0] [1] [0] 2 ![1, 1, 128]

variable [Facts₀]

def gather_S8x41344x128_S8x64x1_S8x64x128_2_1_0_0_1_2_11128 : GatherDims S8x41344x128 S8x64x1 S8x64x128 where
  offsetDims := [2]
  collapsedSliceDims := [1]
  operandBatchingDims := [0]
  startIndicesBatchingDims := [0]
  startIndexMap := [1]
  indexVectorDim := 2
  sliceSizes := ![1, 1, 128]
  wf := gather_S8x41344x128_S8x64x1_S8x64x128_2_1_0_0_1_2_11128_wf

class Facts : Prop extends Facts₀ where

variable [Facts]
-- ==== Proof.KernelCtx.lean ====
/-
  The program as the launch theorem for a program with kernels on the vector subcores sees it, and the
  ghost state its proof is carried in: the launch handshakes' rounds, the rounds of the staging cells of
  the one pipelined kernel on the TensorCore, and the counters of the transfers the gather's tiles make
  and wait for themselves.
-/
import proofs.«212862_g50483045597572_cont_8to1c4_140_39_alg».proof.KernelIdeal
import proofs.«212862_g50483045597572_cont_8to1c4_140_39_alg».proof.Proof.Gen.KernelIdeal
import proofs.«212862_g50483045597572_cont_8to1c4_140_39_alg».proof.Proof.Gen.KernelIdeal.Skeleton
import proofs.«212862_g50483045597572_cont_8to1c4_140_39_alg».proof.Proof.Gen.KernelIdeal.Launch
import proofs.«212862_g50483045597572_cont_8to1c4_140_39_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Mine.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's staging cells' rounds. -/
abbrev UP : Type := URounds (GSem nD τ sig) Unit
/-- All three side by side; the counters last, where they are found by instance. -/
abbrev UU : Type := UH × (UP × Counters)

/-- The handshakes' component. -/
abbrev EH [FloatOps F] : Emb UH (MT nD τ sig (HIx 1) (Elt F) ℕ UU ℕ) := embL
/-- The staging cells' component. -/
def EP [FloatOps F] : Emb UP (MT nD τ sig (HIx 1) (Elt F) ℕ UU ℕ) :=
  (Emb.inl : Emb UP (UP × Counters)).trans embR

instance EP_landsIn [FloatOps F] : (EP (F := F)).LandsIn (upEmb : UEmb _ (MT nD τ sig (HIx 1) (Elt F) ℕ UU ℕ)) := by
  unfold EP; infer_instance

end Cert.Mine.KI

end
-- ==== Proof.TileDefs.lean ====
/-
  The gather's sixteen tiles: what each is handed, named. Tile `w` works on entries 32w … 32w+31 of the flat
  list of 512 positions and on rows 32w … 32w+31 of the result; all of them read the one table. Here are the
  arrays and the tile's own memory as the tile's program addresses them, its three semaphores and three
  buffers picked out of what a vector subcore owns, and the offset `41344 * (w / 2)` the tile adds to its
  positions (two consecutive tiles share an image).
-/
import proofs.«212862_g50483045597572_cont_8to1c4_140_39_alg».proof.Proof.KernelCtx
import Idealize.ShloMosaic.Lib.SparseCore.Ops
import Idealize.ShloMosaic.Lib.Pipeline.Value
import Idealize.ShloMosaic.Lib.WritesUnit

noncomputable section

namespace Cert.Mine.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays and the scratch, as the body table passes them -/

abbrev tLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

abbrev tblW : Memref sig .scVector .hbm S330752x128 .f32 := Memref.whole main_v1_scv
abbrev idxW : Memref sig .scVector .hbm S512 .i32 := Memref.whole main_v2_scv
abbrev outW : Memref sig .scVector .hbm S512x128 .f32 := Memref.whole main_v3_scv
abbrev sA : Memref sig .scVector .vmem S32 .i32 := Memref.whole cc0_scratch0
abbrev sB : Memref sig .scVector .vmem S32 .i32 := Memref.whole cc0_scratch1
abbrev sR : Memref sig .scVector .vmem S32x128 .f32 := Memref.whole cc0_scratch2

def coordsV (c : Fin (grid0.bound 0)) (s : Fin (grid0.bound 1)) : grid0.Coords :=
  fun | 0 => c | 1 => s | ⟨_ + 2, h⟩ => absurd h (Nat.not_lt.2 (Nat.le_add_left _ _))

variable (d : Dev nD) (L : grid0.Coords)

abbrev cV (L : grid0.Coords) : Fin τ.nSC := (L 0).castLE hcore0
abbrev jV (L : grid0.Coords) : Fin τ.nSub := (L 1).castLE hsub0

/-- Tile `L`'s 32 entries of the list, and its 32 rows of the result, sliced as the program slices them. -/
abbrev idxSl (L : grid0.Coords) : Memref sig .scVector .hbm S32 .i32 :=
  (idxW).slice (Rect.unit (s := S512) (k0_off1 L) S32.size (k0_off1_inb L)) (fun _ => rfl)
abbrev outSl (L : grid0.Coords) : Memref sig .scVector .hbm S32x128 .f32 :=
  (outW).slice (Rect.unit (s := S512x128) (k0_off2 L) S32x128.size (k0_off2_inb L)) (fun _ => rfl)

/-! ## The tile's own semaphores and buffers -/

abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch3.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The task's resources, as the device holds them and as the tile's memrefs address them -/

section Task

variable (tbl : Buf (Elt F) (tLoc d)) (idx : Buf (Elt F) (iLoc d)) (q : PosShare TreeShare)

abbrev thrV : Thread nD τ := V d (cV L) (jV L)

/-- The elements of the list and of the result that are tile `L`'s. -/
abbrev idxSet (L : grid0.Coords) : Finset S512.Idx := (idxSl L).view.set
abbrev outSet (L : grid0.Coords) : Finset S512x128.Idx := (outSl L).view.set

omit [FloatOps F] in
theorem pts_tbl (f : Buf (Elt F) (tLoc d)) :
    ((tblW).view.loc (thrV d L) ↦{q} f : sProp 𝕄) = tLoc d ↦{q} f := by
  simp only [Memref.view_whole, View.set_whole]
omit [FloatOps F] in
theorem pts_idxSl (f : Buf (Elt F) (iLoc d)) :
    ((idxSl L).view.loc (thrV d L) ↦[(idxSl L).view.set]{fullShare} f : sProp 𝕄) = iLoc d ↦[idxSet L]{fullShare} f := rfl
omit [FloatOps F] in
theorem pts_outSl (f : Buf (Elt F) (oLoc d)) :
    ((outSl L).view.loc (thrV d L) ↦[(outSl L).view.set]{fullShare} f : sProp 𝕄) = oLoc d ↦[outSet L]{fullShare} f := rfl
omit [FloatOps F] in
theorem pts_sA (f : Buf (Elt F) ((thrV d L).loc cc0_scratch0)) :
    ((sA).view.loc (thrV d L) ↦{fullShare} f : sProp 𝕄) = (thrV d L).loc cc0_scratch0 ↦{fullShare} f := rfl
omit [FloatOps F] in
theorem pts_sB (f : Buf (Elt F) ((thrV d L).loc cc0_scratch1)) :
    ((sB).view.loc (thrV d L) ↦{fullShare} f : sProp 𝕄) = (thrV d L).loc cc0_scratch1 ↦{fullShare} f := rfl
omit [FloatOps F] in
theorem pts_sR (f : Buf (Elt F) ((thrV d L).loc cc0_scratch2)) :
    ((sR).view.loc (thrV d L) ↦{fullShare} f : sProp 𝕄) = (thrV d L).loc cc0_scratch2 ↦{fullShare} f := rfl

end Task

/-! ## The offsets the tile forms -/

/-- The offset of the image that tile `i`'s rows belong to, as the program computes it: 41344 times the
    quotient of `32 * i 1` by 64, the quotient rounded towards minus infinity the way the program spells it. -/
def imgOff (i : grid0.Coords) : BitVec 32 :=
  let arg1 : BitVec 32 := BitVec.ofNat 32 (i 1).val
  let v0 : BitVec 32 := Scalar.muli arg1 32#32
  let v1 : BitVec 32 := Scalar.divsi v0 64#32
  let v2 : BitVec 1 := Scalar.cmpi .sgt v0 0#32
  let v3 : BitVec 32 := Scalar.extui v2
  let v4 : BitVec 1 := Scalar.cmpi .slt v0 0#32
  let v5 : BitVec 32 := Scalar.extui v4
  let v6 : BitVec 32 := Scalar.subi v3 v5
  let v7 : BitVec 1 := Scalar.cmpi .sgt 64#32 0#32
  let v8 : BitVec 32 := Scalar.extui v7
  let v9 : BitVec 1 := Scalar.cmpi .slt 64#32 0#32
  let v10 : BitVec 32 := Scalar.extui v9
  let v11 : BitVec 32 := Scalar.subi v8 v10
  let v12 : BitVec 1 := Scalar.cmpi .ne v6 v11
  let v13 : BitVec 32 := Scalar.remsi v0 64#32
  let v14 : BitVec 1 := Scalar.cmpi .ne v13 0#32
  let v15 : BitVec 1 := Scalar.andi v12 v14
  let v16 : BitVec 32 := Scalar.subi v1 1#32
  let v17 : BitVec 32 := Scalar.select v15 v16 v1
  Scalar.muli v17 41344#32

/-- Two consecutive tiles share an image: the offset is `41344 * (i 1 / 2)`. -/
theorem imgOff_eq : ∀ i : grid0.Coords, imgOff i = BitVec.ofNat 32 ((i 1).val / 2 * 41344) := by decide +kernel

/-- The list the tile stores: each of its positions plus the image's offset. -/
theorem k0_pay1_apply (v : Vec F S32 .i32) (x : S32.Idx) : k0_pay1 (F := F) L v x = v x + imgOff L := by
  unfold k0_pay1 imgOff
  simp only [shapeCast_self]
  rfl

end Cert.Mine.KI

end
-- ==== Proof.KernelPay.lean ====
/-
  What the launch handshakes carry for the gather. The TensorCore's start hands the one SparseCore the table
  and the flat list of positions, both whole, and the result array at whatever it holds; the sequencer's go
  hands tile `i` a read token of the table, entries 32i … 32i+31 of the list and rows 32i … 32i+31 of the
  result; each tile hands its part back with its rows at the gathered values, and the done signal returns
  the three arrays whole, the result at the gathered array.
-/
import proofs.«212862_g50483045597572_cont_8to1c4_140_39_alg».proof.Proof.TileDefs

noncomputable section

namespace Cert.Mine.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem bound_zero : grid0.bound 0 = 1 := rfl
theorem bound_one : grid0.bound 1 = 16 := rfl

/-- Tile `i`'s coordinates: the one SparseCore, vector subcore `i`. -/
def tileL (i : Fin 16) : grid0.Coords := coordsV (Fin.cast bound_zero.symm 0) (Fin.cast bound_one.symm i)

variable (tbl : (d : Dev nD) → Buf (Elt F) (tLoc d)) (idx : (d : Dev nD) → Buf (Elt F) (iLoc d))
  (G : (d : Dev nD) → Buf (Elt F) (oLoc d))

/-- The three arrays whole, as the TensorCore holds them. -/
abbrev tblPts (d : Dev nD) : sProp 𝕄 := tLoc d ↦{fullShare} tbl d
abbrev idxPts (d : Dev nD) : sProp 𝕄 := iLoc d ↦{fullShare} idx d
abbrev outPts (d : Dev nD) (f : Buf (Elt F) (oLoc d)) : sProp 𝕄 := oLoc d ↦{fullShare} f

/-- Tile `i`'s read token of the table, its entries of the list, its rows of the result. -/
abbrev tblTok (d : Dev nD) (i : Fin 16) : sProp 𝕄 := tLoc d ↦{Transfers.shareTok fullShare 16 i} tbl d
abbrev idxPart (d : Dev nD) (i : Fin 16) : sProp 𝕄 := iLoc d ↦[idxSet (tileL i)]{fullShare} idx d
abbrev outPart (d : Dev nD) (i : Fin 16) (f : Buf (Elt F) (oLoc d)) : sProp 𝕄 := oLoc d ↦[outSet (tileL i)]{fullShare} f

/-- The one call's payloads. -/
def P : (K (F := F)).Pay (nD := nD) (Val := Elt F) (Name := ℕ) (U := UU) where
  st := fun q d _ => match q with | 0 => iprop(tblPts tbl d ∗ idxPts idx d ∗ ∃ f, outPts d f)
  dn := fun q d _ => match q with | 0 => iprop(tblPts tbl d ∗ idxPts idx d ∗ outPts d (G d))
  go := fun q d _ i => match q with
    | 0 => iprop(tblTok tbl d (Fin.cast nSub_zero i) ∗ idxPart idx d (Fin.cast nSub_zero i) ∗ ∃ f, outPart d (Fin.cast nSub_zero i) f)
  td := fun q d _ i => match q with
    | 0 => iprop(tblTok tbl d (Fin.cast nSub_zero i) ∗ idxPart idx d (Fin.cast nSub_zero i) ∗ outPart d (Fin.cast nSub_zero i) (G d))
  x := fun _ _ => iprop(emp)

instance P_storable : (P (F := F) tbl idx G).IsStorable where
  st q d _ := match q with
    | 0 => (inferInstance : BI.Storable (upEmb : UEmb _ 𝕄) iprop(tblPts tbl d ∗ idxPts idx d ∗ ∃ f, outPts d f))
  dn q d _ := match q with
    | 0 => (inferInstance : BI.Storable (upEmb : UEmb _ 𝕄) iprop(tblPts tbl d ∗ idxPts idx d ∗ outPts d (G d)))
  go q d _ i := match q with
    | 0 => (inferInstance : BI.Storable (upEmb : UEmb _ 𝕄)
        iprop(tblTok tbl d (Fin.cast nSub_zero i) ∗ idxPart idx d (Fin.cast nSub_zero i) ∗ ∃ f, outPart d (Fin.cast nSub_zero i) f))
  td q d _ i := match q with
    | 0 => (inferInstance : BI.Storable (upEmb : UEmb _ 𝕄)
        iprop(tblTok tbl d (Fin.cast nSub_zero i) ∗ idxPart idx d (Fin.cast nSub_zero i) ∗ outPart d (Fin.cast nSub_zero i) (G d)))

end Cert.Mine.KI

end
-- ==== Proof.TileBody.lean ====
/-
  One tile's task of the gather. Tile `L` copies its 32 positions into its own memory, adds to each the
  offset of the image its rows belong to, has the engine gather the 32 table rows those sums name, and
  copies them out as its 32 rows of the result. Each of the three transfers is waited for before anything
  touches its ends, each on a semaphore of its own, so the task needs no schedule: it runs from the tile's
  share of the three arrays and its own scratch to the same, its rows of the result at the gathered values.

  The gathered array: row `r` of the result is table row `idx[r] + 41344 * (r / 64)`.
-/
import proofs.«212862_g50483045597572_cont_8to1c4_140_39_alg».proof.Proof.KernelPay
import Idealize.ShloMosaic.Lib.Pipeline.FrameBody
import Idealize.ShloMosaic.Lib.ValueIdx

noncomputable section

namespace Cert.Mine.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

/-! ## The gathered array -/

/-- Row `r` of the result is the table's row `idx[r] + 41344 * (r / 64)` (reduced below the table's height,
    which it is below whenever every position is at most 41343). -/
def gathered (d : Dev nD) (tbl : Buf (Elt F) (tLoc d)) (idx : Buf (Elt F) (iLoc d)) : Buf (Elt F) (oLoc d) :=
  fun j => tbl (ix2 (n0 := 330752) (n1 := 128)
    ⟨((idx (ix1 (n := 512) (j 0))).toNat + (j 0).val / 64 * 41344) % 330752, Nat.mod_lt _ (by norm_num)⟩ (j 1))

section Task

variable (d : Dev nD) (L : grid0.Coords)
variable (tbl : Buf (Elt F) (tLoc d)) (idx : Buf (Elt F) (iLoc d)) (q : PosShare TreeShare)

/-- The whole-buffer rectangle of a 32-entry scratch list. -/
abbrev rA : Rect S32 := Rect.unit (s := S32) ![0] S32.size inb_S32_S32_0

/-- What the tile finds in its first scratch list once its entries of the flat list have landed there. -/
abbrev landed (fa : Buf (Elt F) ((thrV d L).loc cc0_scratch0)) : Vec F S32 .i32 :=
  View.readAt (Elt F) (sA).view (rA).toLoadRect
    (View.write (Elt F) (sA).view fa (ReadAs.same.apply (View.read (Elt F) (idxSl L).view idx)) Finset.univ)

theorem landed_apply (fa : Buf (Elt F) ((thrV d L).loc cc0_scratch0)) (x : S32.Idx) :
    landed d L idx fa x = idx ((idxSl L).view.emb x) := by
  unfold landed
  rw [View.readAt_eq_ld, View.read_write_univ, View.ld_unit_zero (S := S32) (by funext a; match a with | ⟨0, _⟩ => rfl)]
  rfl

/-- Tile `L`'s `x`-th position, a 32-bit word. -/
abbrev idxAt (x : S32.Idx) : BitVec 32 := idx ((idxSl L).view.emb x)

/-- The second scratch list as the tile leaves it: each position plus the image's offset. -/
theorem list_apply (fa : Buf (Elt F) ((thrV d L).loc cc0_scratch0)) (g : Buf (Elt F) ((sB).view.loc (thrV d L))) (x : S32.Idx) :
    (sB).view.read (Elt F) ((sB).view.writes (Elt F) g [⟨rA, k0_pay1 (F := F) L (landed d L idx fa)⟩]) x
      = idxAt d L idx x + imgOff L := by
  unfold idxAt
  rw [View.read_writes_cons_unit_of_mem (sB).view g inb_S32_S32_0 _ [] x x rfl
      (fun a => by match a with | ⟨0, _⟩ => exact (Nat.zero_add _).symm),
    k0_pay1_apply, landed_apply]

/-- As a number: no wrap-around, since a position is at most 41343 and the offset at most `7 * 41344`. -/
theorem list_toNat (hidx : ∀ j, (idx j).toNat ≤ 41343) (x : S32.Idx) :
    (idxAt d L idx x + imgOff L).toNat = (idxAt d L idx x).toNat + (L 1).val / 2 * 41344 := by
  unfold idxAt
  have h1 := hidx ((idxSl L).view.emb x)
  have h2 : (L 1).val < 16 := (L 1).isLt
  have h3 : (L 1).val / 2 ≤ 7 := by omega
  have h4 : (L 1).val / 2 * 41344 ≤ 289408 := by omega
  rw [imgOff_eq, BitVec.toNat_add, BitVec.toNat_ofNat, Nat.mod_eq_of_lt (by omega : (L 1).val / 2 * 41344 < 2 ^ 32),
    Nat.mod_eq_of_lt (by omega)]

/-- Every row number the tile hands the engine names a row of the table. -/
theorem offsets_inb (hidx : ∀ j, (idx j).toNat ≤ 41343) (fa : Buf (Elt F) ((thrV d L).loc cc0_scratch0))
    (g : Buf (Elt F) ((sB).view.loc (thrV d L))) (x : S32.Idx) :
    ((sB).view.read (Elt F) ((sB).view.writes (Elt F) g [⟨rA, k0_pay1 (F := F) L (landed d L idx fa)⟩]) x).toNat < 330752 := by
  rw [list_apply, list_toNat d L idx hidx]
  have h1 : (idxAt d L idx x).toNat ≤ 41343 := hidx ((idxSl L).view.emb x)
  have h2 : (L 1).val < 16 := (L 1).isLt
  omega

end Task

section Value

variable (d : Dev nD) (L : grid0.Coords)
variable (tbl : Buf (Elt F) (tLoc d)) (idx : Buf (Elt F) (iLoc d))

/-- Entry `x` of tile `L`'s part of the list is entry `32 * L 1 + x` of the list. -/
theorem idxSl_emb_val (x : S32.Idx) : (((idxSl L).view.emb x : S512.Idx) 0).val = 32 * (L 1).val + (x 0).val := by
  show k0_off1 L 0 + 1 * (x 0).val = _
  rw [k0_off1_eq]; simp

/-- Row `y 0` of tile `L`'s rows is row `32 * L 1 + y 0` of the result; the column is the column. -/
theorem outSl_emb_val0 (y : S32x128.Idx) : (((outSl L).view.emb y : S512x128.Idx) 0).val = 32 * (L 1).val + (y 0).val := by
  show k0_off2 L 0 + 1 * (y 0).val = _
  rw [k0_off2_eq]; simp
theorem outSl_emb_val1 (y : S32x128.Idx) : (((outSl L).view.emb y : S512x128.Idx) 1).val = (y 1).val := by
  show k0_off2 L 1 + 1 * (y 1).val = _
  rw [k0_off2_eq]; simp

/-- What the gather lands in local row `y 0`, column `y 1` of the tile's rows is the gathered array there. -/
theorem rows_value (hidx : ∀ j, (idx j).toNat ≤ 41343) (fa : Buf (Elt F) ((thrV d L).loc cc0_scratch0))
    (hin : ∀ (g : Buf (Elt F) ((sB).view.loc (thrV d L))) (x : S32.Idx),
      ((sB).view.read (Elt F) ((sB).view.writes (Elt F) g [⟨rA, k0_pay1 (F := F) L (landed d L idx fa)⟩]) x).toNat < 330752)
    (y : S32x128.Idx) :
    SparseCore.gatherPayload (F := F) gathers_S330752x128_S32x128
        (View.read (Elt F) ((tblW).slice (Rect.unit (s := S330752x128) ![0, 0] S330752x128.size inb_S330752x128_S330752x128_0_0) (fun _ => rfl)).view tbl)
        (SparseCore.rows (View.read (Elt F) (sB).view ((sB).view.writes (Elt F) (sB).view.junk [⟨rA, k0_pay1 (F := F) L (landed d L idx fa)⟩]))
          rfl (hin _)) y
      = gathered d tbl idx ((outSl L).view.emb y) := by
  unfold SparseCore.gatherPayload gathered
  rw [View.read_apply]
  show tbl _ = tbl _
  refine congrArg tbl (funext fun a => Fin.ext ?_)
  match a with
  | ⟨0, h0⟩ =>
    show 0 + 1 * ((gathers_S330752x128_S32x128.idx _ y) ⟨0, _⟩).val = _
    rw [Nat.zero_add, Nat.one_mul]
    refine (congrArg Fin.val (Shape.Gathers.idx_axis gathers_S330752x128_S32x128 _ y)).trans ?_
    unfold SparseCore.rows
    dsimp only
    rw [list_apply, list_toNat d L idx hidx]
    have hJ := outSl_emb_val0 L y
    have hy : (y 0).val < 32 := (y 0).isLt
    have hL : (L 1).val < 16 := (L 1).isLt
    -- the list entry read on the left is the one the gathered array names on the right
    have hE : ∀ k : Fin S32.numel, k.val = (y 0).val →
        ((idxSl L).view.emb (S32.rowMajor.symm k) : S512.Idx) = ix1 (n := 512) ((outSl L).view.emb y 0) := fun k hk => by
      have hX0 : ((S32.rowMajor.symm k : S32.Idx) 0).val = k.val := by
        have := Shape.rowMajor_val_one (d := ![32]) (S32.rowMajor.symm k)
        rw [Equiv.apply_symm_apply] at this; exact this.symm
      funext b; match b with
      | ⟨0, _⟩ => exact Fin.ext ((idxSl_emb_val L _).trans (by rw [hX0, hk]; exact hJ.symm))
    have hA := hidx (ix1 (n := 512) ((outSl L).view.emb y 0))
    have fin : ∀ (A J0 : ℕ), A ≤ 41343 → J0 = 32 * (L 1).val + (y 0).val →
        A + (L 1).val / 2 * 41344 = (A + J0 / 64 * 41344) % 330752 := by
      intro A J0 hA hJ0; subst hJ0; omega
    exact (congrArg (fun z => (idx z).toNat + (L 1).val / 2 * 41344) (hE _ rfl)).trans (fin _ _ hA hJ)
  | ⟨1, h1⟩ =>
    show 0 + 1 * ((gathers_S330752x128_S32x128.idx _ y) ⟨1, _⟩).val = _
    rw [Nat.zero_add, Nat.one_mul, Shape.Gathers.idx_of_ne gathers_S330752x128_S32x128 _ y ⟨1, h1⟩ Nat.one_ne_zero]
    exact (outSl_emb_val1 L y).symm

end Value

section Run

variable (d : Dev nD) (L : grid0.Coords)
variable (tbl : Buf (Elt F) (tLoc d)) (idx : Buf (Elt F) (iLoc d)) (q : PosShare TreeShare)

/-- The tile's rows of the result after its copy-out are the gathered array's: the scratch rows read back are
    what the gather landed, and copied whole they are what the result's rows hold. -/
theorem out_value (hidx : ∀ j, (idx j).toNat ≤ 41343) (fa : Buf (Elt F) ((thrV d L).loc cc0_scratch0))
    (fr : Buf (Elt F) ((sR).view.loc (thrV d L))) (fo : Buf (Elt F) (oLoc d))
    (hin : ∀ (g : Buf (Elt F) ((sB).view.loc (thrV d L))) (x : S32.Idx),
      ((sB).view.read (Elt F) ((sB).view.writes (Elt F) g [⟨rA, k0_pay1 (F := F) L (landed d L idx fa)⟩]) x).toNat < 330752) :
    ∀ i ∈ outSet L,
      ((outSl L).view.writes (Elt F) fo [⟨Rect.whole S32x128, ReadAs.same.apply (View.read (Elt F) (sR).view
        ((sR).view.writes (Elt F) fr [⟨Rect.whole S32x128, SparseCore.gatherPayload (F := F) gathers_S330752x128_S32x128
          (View.read (Elt F) ((tblW).slice (Rect.unit (s := S330752x128) ![0, 0] S330752x128.size inb_S330752x128_S330752x128_0_0) (fun _ => rfl)).view tbl)
          (SparseCore.rows (View.read (Elt F) (sB).view ((sB).view.writes (Elt F) (sB).view.junk [⟨rA, k0_pay1 (F := F) L (landed d L idx fa)⟩]))
            rfl (hin _))⟩]))⟩]) i
        = gathered d tbl idx i := by
  intro i hi
  obtain ⟨y, rfl⟩ := View.exists_emb_of_mem_set (outSl L).view hi
  have h1 := View.read_writes_cons_emb (outSl L).view fo (Rect.whole S32x128) (ReadAs.same.apply (View.read (Elt F) (sR).view
        ((sR).view.writes (Elt F) fr [⟨Rect.whole S32x128, SparseCore.gatherPayload (F := F) gathers_S330752x128_S32x128
          (View.read (Elt F) ((tblW).slice (Rect.unit (s := S330752x128) ![0, 0] S330752x128.size inb_S330752x128_S330752x128_0_0) (fun _ => rfl)).view tbl)
          (SparseCore.rows (View.read (Elt F) (sB).view ((sB).view.writes (Elt F) (sB).view.junk [⟨rA, k0_pay1 (F := F) L (landed d L idx fa)⟩]))
            rfl (hin _))⟩]))) [] y
  rw [Rect.emb_whole_apply] at h1
  refine (show _ = _ from h1).trans ?_
  have h2 := View.read_writes_cons_emb (sR).view fr (Rect.whole S32x128) (SparseCore.gatherPayload (F := F) gathers_S330752x128_S32x128
          (View.read (Elt F) ((tblW).slice (Rect.unit (s := S330752x128) ![0, 0] S330752x128.size inb_S330752x128_S330752x128_0_0) (fun _ => rfl)).view tbl)
          (SparseCore.rows (View.read (Elt F) (sB).view ((sB).view.writes (Elt F) (sB).view.junk [⟨rA, k0_pay1 (F := F) L (landed d L idx fa)⟩]))
            rfl (hin _))) [] y
  rw [Rect.emb_whole_apply] at h2
  exact (show _ = _ from h2).trans (rows_value d L tbl idx hidx fa hin y)

/-- The task: from the tile's token of the table, its entries of the list and its rows of the result, with the
    tile's own scratch and semaphores, to the same with its rows at the gathered array. -/
theorem tile_body (hF : (K (F := F)).Facts) (hidx : ∀ j, (idx j).toNat ≤ 41343)
    (O : CellTallies nD τ sig (HIx 1)) (W : Waits sig (HIx 1)) (hO : ∀ g, O g none = 0) :
    iprop((levAts (K (F := F)).L (K (F := F)).lev : sProp 𝕄) ∗ emp
        ∗ ((tLoc d ↦{q} tbl) ∗ (iLoc d ↦[idxSet L]{fullShare} idx) ∗ ∃ f : Buf (Elt F) (oLoc d), oLoc d ↦[outSet L]{fullShare} f)
        ∗ scopedBufs (thrV d L) ∗ scopedSems0 (thrV d L) ∗ owes (thrV d L) O W)
      ⊢ wp frame (wpE (defs₀ (F := F)) 𝒱₀ (thrV d L) none) Set.univ
          (cc0_gather_kernel L tblW (Memref.isWhole_whole _) idxW (Memref.isWhole_whole _) outW (Memref.isWhole_whole _)
            sA (Memref.isWhole_whole _) sB (Memref.isWhole_whole _) sR (Memref.isWhole_whole _) cc0_scratch3 cc0_scoped0 cc0_scoped1)
          fun _ => iprop(((tLoc d ↦{q} tbl) ∗ (iLoc d ↦[idxSet L]{fullShare} idx) ∗ (oLoc d ↦[outSet L]{fullShare} gathered d tbl idx))
            ∗ scopedBufs (thrV d L) ∗ scopedSems0 (thrV d L)
            ∗ ∃ W', ⌜∀ p ∈ W', p ∈ W ∨ p.2 = none⌝ ∗ owes (thrV d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Ht, Hi, %fo, Ho⟩, ⟨⟨%fa, Ha⟩, ⟨%fb, Hb⟩, ⟨%fr, Hr⟩, Hbufs⟩, ⟨HsemA, HsemG, HsemB, Hsems⟩, HO⟩
  ihave Hmw := ((K (F := F)).mayWaits_none (thr := thrV d L) hO) $$ Hlv
  ihave Ht' := (Entails.of_eq (pts_tbl (F := F) d L q _).symm) $$ Ht
  ihave Hi' := (Entails.of_eq (pts_idxSl (F := F) d L _).symm) $$ Hi
  ihave Ho' := (Entails.of_eq (pts_outSl (F := F) d L _).symm) $$ Ho
  ihave Ha' := (Entails.of_eq (pts_sA (F := F) d L _).symm) $$ Ha
  ihave Hb' := (Entails.of_eq (pts_sB (F := F) d L _).symm) $$ Hb
  ihave Hr' := (Entails.of_eq (pts_sR (F := F) d L _).symm) $$ Hr
  have hin := offsets_inb (F := F) d L idx hidx fa
  sl_exec
  sl_step
  isplitl [Ht' Hi' Ho']
  · isplitl [Ht']; · iapply (Entails.of_eq (pts_tbl (F := F) d L q _)); iexact Ht'
    isplitl [Hi']; · iapply (Entails.of_eq (pts_idxSl (F := F) d L _)); iexact Hi'
    iapply (Entails.of_eq ((pts_outSl (F := F) d L _).trans (pointsTo_congr (out_value d L tbl idx hidx fa fr fo hin))))
    iexact Ho'
  isplitl [Ha' Hb' Hr' Hbufs]
  · isplitl [Ha']; · iexists _; iapply (Entails.of_eq (pts_sA (F := F) d L _)); iexact Ha'
    isplitl [Hb']; · iexists _; iapply (Entails.of_eq (pts_sB (F := F) d L _)); iexact Hb'
    isplitl [Hr']; · iexists _; iapply (Entails.of_eq (pts_sR (F := F) d L _)); iexact Hr'
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro
  intro p hp
  simp only [Finset.mem_insert] at hp
  rcases hp with hp | hp | hp | hp
  · exact .inr (hp ▸ rfl)
  · exact .inr (hp ▸ rfl)
  · exact .inr (hp ▸ rfl)
  · exact .inl hp

end Run

end Cert.Mine.KI

end
-- ==== Proof.VecSplit.lean ====
/-
  How the one SparseCore's operands split into its sixteen tiles' tasks, and how the tiles' results gather
  back. The flat list of 512 positions is cut into sixteen runs of 32 consecutive entries and the 512 x 128
  result into sixteen bands of 32 consecutive rows: tile `i` gets run `i` and band `i`. The runs are pairwise
  disjoint and cover the list, the bands likewise the result, so a whole array is the sixteen parts side by
  side, at the same contents. The table is not cut: a full share of it is sixteen read tokens, one per tile,
  and a remainder that stays with the sequencer until the tokens come back.
-/
import proofs.«212862_g50483045597572_cont_8to1c4_140_39_alg».proof.Proof.KernelPay

noncomputable section

namespace Cert.Mine.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The sixteen runs of the list and the sixteen bands of the result -/

theorem hdivI : 16 ∣ S512.size 0 := ⟨32, rfl⟩
theorem hdivO : 16 ∣ S512x128.size 0 := ⟨32, rfl⟩

/-- Run `i`: entries 32i … 32i+31. -/
abbrev idxRun (i : Fin 16) : Rect S512 := Rect.part (s := S512) (a₀ := 0) hdivI i
/-- Band `i`: rows 32i … 32i+31, every column. -/
abbrev outBand (i : Fin 16) : Rect S512x128 := Rect.part (s := S512x128) (a₀ := 0) hdivO i

theorem tileL_one (i : Fin 16) : ((tileL i) 1).val = i.val := rfl

/-- The rectangle tile `i` slices out of the list is run `i`. -/
theorem idxRect_eq (i : Fin 16) :
    Rect.unit (s := S512) (k0_off1 (tileL i)) S32.size (k0_off1_inb (tileL i)) = idxRun i := by
  unfold idxRun Rect.part Rect.block
  congr 1 <;> funext a
  · rw [k0_off1_eq]
    match a with
    | 0 => simp [Shape.partIx, Shape.partSize, tileL_one]; omega
  · match a with
    | 0 => simp [Shape.partSize]

/-- The rectangle tile `i` slices out of the result is band `i`. -/
theorem outRect_eq (i : Fin 16) :
    Rect.unit (s := S512x128) (k0_off2 (tileL i)) S32x128.size (k0_off2_inb (tileL i)) = outBand i := by
  unfold outBand Rect.part Rect.block
  congr 1 <;> funext a
  · rw [k0_off2_eq]
    match a with
    | 0 => simp [Shape.partIx, Shape.partSize, tileL_one]; omega
    | 1 => simp [Shape.partIx, Shape.partSize]
  · match a with
    | 0 => simp [Shape.partSize]
    | 1 => simp [Shape.partSize]

theorem idxSet_eq (i : Fin 16) : idxSet (tileL i) = (idxRun i).set := by
  show ((View.whole (main_v2_scv : Ref sig .scVector)).slice
    (Rect.unit (s := S512) (k0_off1 (tileL i)) S32.size (k0_off1_inb (tileL i)))).set = _
  rw [View.set_slice_whole, idxRect_eq]

theorem outSet_eq (i : Fin 16) : outSet (tileL i) = (outBand i).set := by
  show ((View.whole (main_v3_scv : Ref sig .scVector)).slice
    (Rect.unit (s := S512x128) (k0_off2 (tileL i)) S32x128.size (k0_off2_inb (tileL i)))).set = _
  rw [View.set_slice_whole, outRect_eq]

theorem idx_disjoint : ∀ i ∈ (Finset.univ : Finset (Fin 16)), ∀ j ∈ (Finset.univ : Finset (Fin 16)), i ≠ j →
    Disjoint (idxSet (tileL i)) (idxSet (tileL j)) :=
  fun i _ j _ h => by rw [idxSet_eq, idxSet_eq]; exact Rect.part_disjoint hdivI h
theorem idx_cover : (Finset.univ : Finset (Fin 16)).biUnion (fun i => idxSet (tileL i)) = Finset.univ :=
  (Finset.biUnion_congr rfl fun i _ => idxSet_eq i).trans (Rect.biUnion_part hdivI)

theorem out_disjoint : ∀ i ∈ (Finset.univ : Finset (Fin 16)), ∀ j ∈ (Finset.univ : Finset (Fin 16)), i ≠ j →
    Disjoint (outSet (tileL i)) (outSet (tileL j)) :=
  fun i _ j _ h => by rw [outSet_eq, outSet_eq]; exact Rect.part_disjoint hdivO h
theorem out_cover : (Finset.univ : Finset (Fin 16)).biUnion (fun i => outSet (tileL i)) = Finset.univ :=
  (Finset.biUnion_congr rfl fun i _ => outSet_eq i).trans (Rect.biUnion_part hdivO)

/-! ## A whole array is its sixteen parts, at the same contents -/

omit [FloatOps F] in
theorem idxPts_parts (d : Dev nD) (f : Buf (Elt F) (iLoc d)) :
    (iLoc d ↦{fullShare} f : sProp 𝕄) = bigSep Finset.univ fun i : Fin 16 => iLoc d ↦[idxSet (tileL i)]{fullShare} f := by
  rw [← pointsTo_biUnion Finset.univ (ℓ := iLoc d) (fun i : Fin 16 => idxSet (tileL i)) idx_disjoint, idx_cover]; try rfl
omit [FloatOps F] in
theorem outPts_parts (d : Dev nD) (f : Buf (Elt F) (oLoc d)) :
    (oLoc d ↦{fullShare} f : sProp 𝕄) = bigSep Finset.univ fun i : Fin 16 => oLoc d ↦[outSet (tileL i)]{fullShare} f := by
  rw [← pointsTo_biUnion Finset.univ (ℓ := oLoc d) (fun i : Fin 16 => outSet (tileL i)) out_disjoint, out_cover]; try rfl

omit [FloatOps F] in
theorem idxPts_split (d : Dev nD) (f : Buf (Elt F) (iLoc d)) :
    (iLoc d ↦{fullShare} f : sProp 𝕄) ⊢ bigSep Finset.univ fun i : Fin 16 => iLoc d ↦[idxSet (tileL i)]{fullShare} f := by
  rw [← idxPts_parts (F := F) d f]
omit [FloatOps F] in
theorem idxPts_join (d : Dev nD) (f : Buf (Elt F) (iLoc d)) :
    (bigSep Finset.univ fun i : Fin 16 => iLoc d ↦[idxSet (tileL i)]{fullShare} f) ⊢ (iLoc d ↦{fullShare} f : sProp 𝕄) := by
  rw [← idxPts_parts (F := F) d f]
omit [FloatOps F] in
theorem outPts_split (d : Dev nD) (f : Buf (Elt F) (oLoc d)) :
    (oLoc d ↦{fullShare} f : sProp 𝕄) ⊢ bigSep Finset.univ fun i : Fin 16 => oLoc d ↦[outSet (tileL i)]{fullShare} f := by
  rw [← outPts_parts (F := F) d f]
omit [FloatOps F] in
theorem outPts_join (d : Dev nD) (f : Buf (Elt F) (oLoc d)) :
    (bigSep Finset.univ fun i : Fin 16 => oLoc d ↦[outSet (tileL i)]{fullShare} f) ⊢ (oLoc d ↦{fullShare} f : sProp 𝕄) := by
  rw [← outPts_parts (F := F) d f]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A band held at known contents is held at some contents, band by band. -/
theorem outPart_exists (d : Dev nD) (i : Fin 16) (f : Buf (Elt F) (oLoc d)) :
    (outPart (F := F) d i f) ⊢ (iprop(∃ f, outPart (F := F) d i f) : sProp 𝕄) := by
  iintro H; iexists f; iexact H
theorem outParts_exists (d : Dev nD) (f : Buf (Elt F) (oLoc d)) :
    (bigSep Finset.univ fun i : Fin 16 => outPart (F := F) d i f)
      ⊢ (bigSep Finset.univ fun i : Fin 16 => iprop(∃ f, outPart (F := F) d i f) : sProp 𝕄) :=
  bigSep_mono fun i _ => outPart_exists d i f

/-! ## The split -/

variable (tbl : (d : Dev nD) → Buf (Elt F) (tLoc d)) (idx : (d : Dev nD) → Buf (Elt F) (iLoc d))
  (G : (d : Dev nD) → Buf (Elt F) (oLoc d))

theorem vecSplit : (K (F := F)).VecSplit' (P tbl idx G) 0 := by
  intro d c
  show iprop(tblPts tbl d ∗ idxPts idx d ∗ ∃ f, outPts d f) ⊢ |={Set.univ}=> iprop(
      (bigSep Finset.univ fun i : Fin ((K (F := F)).nSub 0) =>
        iprop(tblTok tbl d (Fin.cast nSub_zero i) ∗ idxPart idx d (Fin.cast nSub_zero i) ∗ ∃ f, outPart d (Fin.cast nSub_zero i) f))
      ∗ ((bigSep Finset.univ fun i : Fin ((K (F := F)).nSub 0) =>
          iprop(tblTok tbl d (Fin.cast nSub_zero i) ∗ idxPart idx d (Fin.cast nSub_zero i) ∗ outPart d (Fin.cast nSub_zero i) (G d)))
          -∗ iprop(tblPts tbl d ∗ idxPts idx d ∗ outPts d (G d))))
  rw [bigSep_tasks (F := F) (fun i => iprop(tblTok tbl d i ∗ idxPart idx d i ∗ ∃ f, outPart d i f)),
    bigSep_tasks (F := F) (fun i => iprop(tblTok tbl d i ∗ idxPart idx d i ∗ outPart d i (G d))),
    bigSep_sep', bigSep_sep', bigSep_sep', bigSep_sep']
  iintro ⟨Ht, Hi, ⟨%f, Ho⟩⟩
  ihave Ht' := (Transfers.pointsTo_toks_split (ℓ := tLoc d) (S := Finset.univ) (f := tbl d) fullShare 16) $$ Ht
  icases Ht' with ⟨Hrem, Htoks⟩
  ihave Hi' := (idxPts_split (F := F) d (idx d)) $$ Hi
  ihave Ho' := (outPts_split (F := F) d f) $$ Ho
  imodintro
  isplitl [Htoks Hi' Ho']
  · isplitl [Htoks]; · iexact Htoks
    isplitl [Hi']; · iexact Hi'
    iapply (outParts_exists (F := F) d f); iexact Ho'
  iintro ⟨Htoks, Hi, Ho⟩
  isplitl [Hrem Htoks]
  · iapply (Transfers.pointsTo_toks_join (ℓ := tLoc d) (S := Finset.univ) (f := tbl d) fullShare 16)
    isplitl [Hrem]; · iexact Hrem
    iexact Htoks
  isplitl [Hi]; · iapply (idxPts_join (F := F) d (idx d)); iexact Hi
  iapply (outPts_join (F := F) d (G d)); iexact Ho

end Cert.Mine.KI

end
-- ==== Proof.HostOps.lean ====
/-
  The host operations of the enclosing program as records, and the arrays the TensorCore holds between
  kernels as one separating conjunction.

  The enclosing program is a straight line: a transposition of the input to channels-last, two reshapes
  (the transposed input to a table of rows, the indices to one flat list), the gather on the vector
  subcores, the conversion of the integer scale to a float and its broadcast to a 1 x 1 array, the loss
  kernel, and a last reshape of the 1 x 1 result to a scalar. Each host operation writes one array from
  one other and leaves the rest; the contents of every array after each step are therefore a function of
  the launch contents and of what the two kernels leave in their result arrays, and the arguments keep
  their launch contents throughout.
-/
import proofs.«212862_g50483045597572_cont_8to1c4_140_39_alg».proof.Proof.KernelCtx
import Idealize.ShloMosaic.Lib.StableHlo.Run

noncomputable section

namespace Cert.Mine.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## The six host operations, as the enclosing program's text carries them -/

abbrev opT : HloOp τ sig (Elt F) := StableHlo.unary main_arg0 main_v0 ((transpose S8x152x272x128 [0, 2, 3, 1] · Facts₀.transposes_S8x128x152x272_S8x152x272x128_0_2_3_1) : (⟨S8x128x152x272, .f32⟩ : BufTy).Contents (Elt F) → (⟨S8x152x272x128, .f32⟩ : BufTy).Contents (Elt F))
abbrev opR1 : HloOp τ sig (Elt F) := StableHlo.reshape main_v0 main_v1 rfl Facts₀.shapeCasts_S8x152x272x128_S330752x128
abbrev opR2 : HloOp τ sig (Elt F) := StableHlo.reshape main_arg1 main_v2 rfl Facts₀.shapeCasts_S8x64_S512
abbrev opC : HloOp τ sig (Elt F) := StableHlo.unary main_arg3 main_v4 (sitofp .f32 : (⟨S_, .i32⟩ : BufTy).Contents (Elt F) → (⟨S_, .f32⟩ : BufTy).Contents (Elt F))
abbrev opB : HloOp τ sig (Elt F) := StableHlo.unary main_v4 main_v5 (broadcastInDim S1x1 ![] Facts₀.bcast_S_S1x1 : (⟨S_, .f32⟩ : BufTy).Contents (Elt F) → (⟨S1x1, .f32⟩ : BufTy).Contents (Elt F))
abbrev opR3 : HloOp τ sig (Elt F) := StableHlo.reshape main_v6 main_v7 rfl Facts₀.shapeCasts_S1x1_S_

/-! ## The twelve arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

/-- Array `r` of device `d`, as the TensorCore names it. -/
abbrev locOf (d : Dev nD) (r : Ref sig .tc) : Loc nD τ sig := (SparseCore.T d).loc r

/-- The TensorCore's arrays that no kernel scopes: the four arguments and the eight values. -/
abbrev SAll : Finset (DevRef τ sig) := {a0', a1', a2', a3', v0', v1', v2', v3', v4', v5', v6', v7'}

omit [FloatOps F] in
theorem held_SAll (d : Dev nD) (W : Valuation τ sig (Elt F)) :
    (held (T d) SAll W : sProp 𝕄) = iprop((locOf d main_arg0 ↦{fullShare} W a0') ∗ (locOf d main_arg1 ↦{fullShare} W a1') ∗ (locOf d main_arg2 ↦{fullShare} W a2') ∗ (locOf d main_arg3 ↦{fullShare} W a3') ∗ (locOf d main_v0 ↦{fullShare} W v0') ∗ (locOf d main_v1 ↦{fullShare} W v1') ∗ (locOf d main_v2 ↦{fullShare} W v2') ∗ (locOf d main_v3 ↦{fullShare} W v3') ∗ (locOf d main_v4 ↦{fullShare} W v4') ∗ (locOf d main_v5 ↦{fullShare} W v5') ∗ (locOf d main_v6 ↦{fullShare} W v6') ∗ (locOf d main_v7 ↦{fullShare} W v7')) := by
  unfold held SAll
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((locOf d main_arg0 ↦{fullShare} W main_arg0) ∗ (locOf d main_arg1 ↦{fullShare} W main_arg1) ∗ (locOf d main_arg2 ↦{fullShare} W main_arg2) ∗ (locOf d main_arg3 ↦{fullShare} W main_arg3) ∗ (locOf d main_v0 ↦{fullShare} W main_v0) ∗ (locOf d main_v1 ↦{fullShare} W main_v1) ∗ (locOf d main_v2 ↦{fullShare} W main_v2) ∗ (locOf d main_v3 ↦{fullShare} W main_v3) ∗ (locOf d main_v4 ↦{fullShare} W main_v4) ∗ (locOf d main_v5 ↦{fullShare} W main_v5) ∗ (locOf d main_v6 ↦{fullShare} W main_v6) ∗ (locOf d main_v7 ↦{fullShare} W main_v7)) := by
  unfold unscopedBufs
  rw [show (Finset.univ.filter fun b : Ref sig .tc => ¬ b.isScoped) = {main_arg0, main_arg1, main_arg2, main_arg3, main_v0, main_v1, main_v2, main_v3, main_v4, main_v5, main_v6, main_v7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The contents of the arrays, step by step -/

variable (m : (ℓ : Loc nD τ sig) → Buf (Elt F) ℓ)

/-- The launch contents. -/
def V0 (d : Dev nD) : Valuation τ sig (Elt F) := fun b => m (d, b)
/-- After the transposition, -/
def V1 (d : Dev nD) : Valuation τ sig (Elt F) := (opT (F := F)).result (V0 m d)
/-- the reshape of the transposed input to rows, -/
def V2 (d : Dev nD) : Valuation τ sig (Elt F) := (opR1 (F := F)).result (V1 m d)
/-- and the reshape of the indices to a flat list. -/
def V3 (d : Dev nD) : Valuation τ sig (Elt F) := (opR2 (F := F)).result (V2 m d)
/-- After the gather, which leaves `f3` in its result array, -/
def V4 (d : Dev nD) (f3 : Buf (Elt F) (locOf d main_v3)) : Valuation τ sig (Elt F) := Function.update (V3 m d) v3' f3
/-- the conversion of the scale, -/
def V5 (d : Dev nD) (f3 : Buf (Elt F) (locOf d main_v3)) : Valuation τ sig (Elt F) := (opC (F := F)).result (V4 m d f3)
/-- and its broadcast. -/
def V6 (d : Dev nD) (f3 : Buf (Elt F) (locOf d main_v3)) : Valuation τ sig (Elt F) := (opB (F := F)).result (V5 m d f3)
/-- After the loss kernel, which leaves `f6` in its result array, -/
def V7 (d : Dev nD) (f3 : Buf (Elt F) (locOf d main_v3)) (f6 : Buf (Elt F) (locOf d main_v6)) : Valuation τ sig (Elt F) :=
  Function.update (V6 m d f3) v6' f6
/-- and the last reshape. -/
def V8 (d : Dev nD) (f3 : Buf (Elt F) (locOf d main_v3)) (f6 : Buf (Elt F) (locOf d main_v6)) : Valuation τ sig (Elt F) :=
  (opR3 (F := F)).result (V7 m d f3 f6)

theorem unscoped_held (d : Dev nD) : (unscopedBufs d (fun b => m (locOf d b)) : sProp 𝕄) = held (T d) SAll (V0 m d) := by
  rw [unscopedBufs_eq, held_SAll]; rfl

/-! ### Each step leaves every array but the one it writes -/

variable (d : Dev nD) (f3 : Buf (Elt F) (locOf d main_v3)) (f6 : Buf (Elt F) (locOf d main_v6))

theorem V1_of_ne {r : Ref sig .tc} (h : r ≠ main_v0) : V1 m d (Proc.devRef .tc r) = V0 m d (Proc.devRef .tc r) :=
  StableHlo.unary_result_ne _ _ _ _ _ _ h
theorem V2_of_ne {r : Ref sig .tc} (h : r ≠ main_v1) : V2 m d (Proc.devRef .tc r) = V1 m d (Proc.devRef .tc r) :=
  StableHlo.reshape_result_ne _ _ _ _ _ _ _ h
theorem V3_of_ne {r : Ref sig .tc} (h : r ≠ main_v2) : V3 m d (Proc.devRef .tc r) = V2 m d (Proc.devRef .tc r) :=
  StableHlo.reshape_result_ne _ _ _ _ _ _ _ h
theorem V4_of_ne {r : Ref sig .tc} (h : r ≠ main_v3) : V4 m d f3 (Proc.devRef .tc r) = V3 m d (Proc.devRef .tc r) :=
  Function.update_of_ne (StableHlo.devRef_ne_of_ne h) _ _
theorem V5_of_ne {r : Ref sig .tc} (h : r ≠ main_v4) : V5 m d f3 (Proc.devRef .tc r) = V4 m d f3 (Proc.devRef .tc r) :=
  StableHlo.unary_result_ne _ _ _ _ _ _ h
theorem V6_of_ne {r : Ref sig .tc} (h : r ≠ main_v5) : V6 m d f3 (Proc.devRef .tc r) = V5 m d f3 (Proc.devRef .tc r) :=
  StableHlo.unary_result_ne _ _ _ _ _ _ h
theorem V7_of_ne {r : Ref sig .tc} (h : r ≠ main_v6) : V7 m d f3 f6 (Proc.devRef .tc r) = V6 m d f3 (Proc.devRef .tc r) :=
  Function.update_of_ne (StableHlo.devRef_ne_of_ne h) _ _
theorem V8_of_ne {r : Ref sig .tc} (h : r ≠ main_v7) : V8 m d f3 f6 (Proc.devRef .tc r) = V7 m d f3 f6 (Proc.devRef .tc r) :=
  StableHlo.reshape_result_ne _ _ _ _ _ _ _ h

/-! ### The arguments keep their launch contents -/

theorem V0_a0 : V0 m d a0' = m (locOf d main_arg0) := rfl
theorem V1_a0 : V1 m d a0' = m (locOf d main_arg0) := (V1_of_ne m d (by decide)).trans (V0_a0 m d)
theorem V2_a0 : V2 m d a0' = m (locOf d main_arg0) := (V2_of_ne m d (by decide)).trans (V1_a0 m d)
theorem V3_a0 : V3 m d a0' = m (locOf d main_arg0) := (V3_of_ne m d (by decide)).trans (V2_a0 m d)
theorem V4_a0 : V4 m d f3 a0' = m (locOf d main_arg0) := (V4_of_ne m d f3 (by decide)).trans (V3_a0 m d)
theorem V5_a0 : V5 m d f3 a0' = m (locOf d main_arg0) := (V5_of_ne m d f3 (by decide)).trans (V4_a0 m d f3)
theorem V6_a0 : V6 m d f3 a0' = m (locOf d main_arg0) := (V6_of_ne m d f3 (by decide)).trans (V5_a0 m d f3)
theorem V7_a0 : V7 m d f3 f6 a0' = m (locOf d main_arg0) := (V7_of_ne m d f3 f6 (by decide)).trans (V6_a0 m d f3)
theorem V8_a0 : V8 m d f3 f6 a0' = m (locOf d main_arg0) := (V8_of_ne m d f3 f6 (by decide)).trans (V7_a0 m d f3 f6)

theorem V0_a1 : V0 m d a1' = m (locOf d main_arg1) := rfl
theorem V1_a1 : V1 m d a1' = m (locOf d main_arg1) := (V1_of_ne m d (by decide)).trans (V0_a1 m d)
theorem V2_a1 : V2 m d a1' = m (locOf d main_arg1) := (V2_of_ne m d (by decide)).trans (V1_a1 m d)
theorem V3_a1 : V3 m d a1' = m (locOf d main_arg1) := (V3_of_ne m d (by decide)).trans (V2_a1 m d)
theorem V4_a1 : V4 m d f3 a1' = m (locOf d main_arg1) := (V4_of_ne m d f3 (by decide)).trans (V3_a1 m d)
theorem V5_a1 : V5 m d f3 a1' = m (locOf d main_arg1) := (V5_of_ne m d f3 (by decide)).trans (V4_a1 m d f3)
theorem V6_a1 : V6 m d f3 a1' = m (locOf d main_arg1) := (V6_of_ne m d f3 (by decide)).trans (V5_a1 m d f3)
theorem V7_a1 : V7 m d f3 f6 a1' = m (locOf d main_arg1) := (V7_of_ne m d f3 f6 (by decide)).trans (V6_a1 m d f3)
theorem V8_a1 : V8 m d f3 f6 a1' = m (locOf d main_arg1) := (V8_of_ne m d f3 f6 (by decide)).trans (V7_a1 m d f3 f6)

theorem V0_a2 : V0 m d a2' = m (locOf d main_arg2) := rfl
theorem V1_a2 : V1 m d a2' = m (locOf d main_arg2) := (V1_of_ne m d (by decide)).trans (V0_a2 m d)
theorem V2_a2 : V2 m d a2' = m (locOf d main_arg2) := (V2_of_ne m d (by decide)).trans (V1_a2 m d)
theorem V3_a2 : V3 m d a2' = m (locOf d main_arg2) := (V3_of_ne m d (by decide)).trans (V2_a2 m d)
theorem V4_a2 : V4 m d f3 a2' = m (locOf d main_arg2) := (V4_of_ne m d f3 (by decide)).trans (V3_a2 m d)
theorem V5_a2 : V5 m d f3 a2' = m (locOf d main_arg2) := (V5_of_ne m d f3 (by decide)).trans (V4_a2 m d f3)
theorem V6_a2 : V6 m d f3 a2' = m (locOf d main_arg2) := (V6_of_ne m d f3 (by decide)).trans (V5_a2 m d f3)
theorem V7_a2 : V7 m d f3 f6 a2' = m (locOf d main_arg2) := (V7_of_ne m d f3 f6 (by decide)).trans (V6_a2 m d f3)
theorem V8_a2 : V8 m d f3 f6 a2' = m (locOf d main_arg2) := (V8_of_ne m d f3 f6 (by decide)).trans (V7_a2 m d f3 f6)

theorem V0_a3 : V0 m d a3' = m (locOf d main_arg3) := rfl
theorem V1_a3 : V1 m d a3' = m (locOf d main_arg3) := (V1_of_ne m d (by decide)).trans (V0_a3 m d)
theorem V2_a3 : V2 m d a3' = m (locOf d main_arg3) := (V2_of_ne m d (by decide)).trans (V1_a3 m d)
theorem V3_a3 : V3 m d a3' = m (locOf d main_arg3) := (V3_of_ne m d (by decide)).trans (V2_a3 m d)
theorem V4_a3 : V4 m d f3 a3' = m (locOf d main_arg3) := (V4_of_ne m d f3 (by decide)).trans (V3_a3 m d)
theorem V5_a3 : V5 m d f3 a3' = m (locOf d main_arg3) := (V5_of_ne m d f3 (by decide)).trans (V4_a3 m d f3)
theorem V6_a3 : V6 m d f3 a3' = m (locOf d main_arg3) := (V6_of_ne m d f3 (by decide)).trans (V5_a3 m d f3)
theorem V7_a3 : V7 m d f3 f6 a3' = m (locOf d main_arg3) := (V7_of_ne m d f3 f6 (by decide)).trans (V6_a3 m d f3)
theorem V8_a3 : V8 m d f3 f6 a3' = m (locOf d main_arg3) := (V8_of_ne m d f3 f6 (by decide)).trans (V7_a3 m d f3 f6)

/-! ### What the written arrays hold -/

theorem V1_v0 : V1 m d v0' = transpose S8x152x272x128 [0, 2, 3, 1] (m (locOf d main_arg0)) Facts₀.transposes_S8x128x152x272_S8x152x272x128_0_2_3_1 :=
  StableHlo.unary_result _ _ _ _ _ _
theorem V2_v1 : V2 m d v1' = shapeCast S330752x128 (V1 m d v0') Facts₀.shapeCasts_S8x152x272x128_S330752x128 :=
  StableHlo.reshape_result _ _ _ _ _ _ _
theorem V3_v2 : V3 m d v2' = shapeCast S512 (m (locOf d main_arg1)) Facts₀.shapeCasts_S8x64_S512 :=
  (StableHlo.reshape_result _ _ _ _ _ _ _).trans (by rw [show V2 m d a1' = m (locOf d main_arg1) from V2_a1 m d]; rfl)
/-- The table of rows the gather reads: the input, channels last, as 330752 rows of 128. -/
theorem V3_v1 : V3 m d v1' = shapeCast S330752x128 (transpose S8x152x272x128 [0, 2, 3, 1] (m (locOf d main_arg0)) Facts₀.transposes_S8x128x152x272_S8x152x272x128_0_2_3_1) Facts₀.shapeCasts_S8x152x272x128_S330752x128 := by
  rw [show V3 m d v1' = V2 m d v1' from V3_of_ne m d (by decide), V2_v1, V1_v0]
/-- The gather's result array before the gather: its launch contents. -/
theorem V3_v3 : V3 m d v3' = m (locOf d main_v3) :=
  (V3_of_ne m d (by decide)).trans ((V2_of_ne m d (by decide)).trans (V1_of_ne m d (by decide)))
theorem V4_v3 : V4 m d f3 v3' = f3 := Function.update_self _ _ _
theorem V4_v1 : V4 m d f3 v1' = V3 m d v1' := V4_of_ne m d f3 (by decide)
theorem V4_v2 : V4 m d f3 v2' = V3 m d v2' := V4_of_ne m d f3 (by decide)
theorem V5_v4 : V5 m d f3 v4' = sitofp .f32 (m (locOf d main_arg3)) :=
  (StableHlo.unary_result _ _ _ _ _ _).trans (by rw [show V4 m d f3 a3' = m (locOf d main_arg3) from V4_a3 m d f3])
/-- The scale as the loss kernel reads it: the integer converted, as a 1 x 1 array. -/
theorem V6_v5 : V6 m d f3 v5' = broadcastInDim S1x1 ![] Facts₀.bcast_S_S1x1 (sitofp .f32 (m (locOf d main_arg3))) :=
  (StableHlo.unary_result _ _ _ _ _ _).trans (by rw [show V5 m d f3 v4' = _ from V5_v4 m d f3])
/-- The gathered rows as the loss kernel reads them: what the gather left. -/
theorem V6_v3 : V6 m d f3 v3' = f3 :=
  (V6_of_ne m d f3 (by decide)).trans ((V5_of_ne m d f3 (by decide)).trans (V4_v3 m d f3))
/-- The loss kernel's result array before the kernel: its launch contents. -/
theorem V6_v6 : V6 m d f3 v6' = m (locOf d main_v6) :=
  (V6_of_ne m d f3 (by decide)).trans ((V5_of_ne m d f3 (by decide)).trans ((V4_of_ne m d f3 (by decide)).trans
    ((V3_of_ne m d (by decide)).trans ((V2_of_ne m d (by decide)).trans (V1_of_ne m d (by decide))))))
theorem V7_v6 : V7 m d f3 f6 v6' = f6 := Function.update_self _ _ _
theorem V7_v3 : V7 m d f3 f6 v3' = f3 := (V7_of_ne m d f3 f6 (by decide)).trans (V6_v3 m d f3)
theorem V7_v5 : V7 m d f3 f6 v5' = V6 m d f3 v5' := V7_of_ne m d f3 f6 (by decide)
/-- The program's result: the loss kernel's 1 x 1 array as a scalar. -/
theorem V8_v7 : V8 m d f3 f6 v7' = shapeCast S_ f6 Facts₀.shapeCasts_S1x1_S_ :=
  (StableHlo.reshape_result _ _ _ _ _ _ _).trans (by rw [show V7 m d f3 f6 v6' = f6 from V7_v6 m d f3 f6]; rfl)

/-! ## Every operation's arrays are among the twelve -/

omit [FloatOps F] in
theorem hT : (opT (F := F)).bufs ⊆ SAll := show ({a0', v0'} : Finset (DevRef τ sig)) ⊆ SAll by decide
omit [FloatOps F] in
theorem hR1 : (opR1 (F := F)).bufs ⊆ SAll := show ({v0', v1'} : Finset (DevRef τ sig)) ⊆ SAll by decide
omit [FloatOps F] in
theorem hR2 : (opR2 (F := F)).bufs ⊆ SAll := show ({a1', v2'} : Finset (DevRef τ sig)) ⊆ SAll by decide
theorem hC : (opC (F := F)).bufs ⊆ SAll := show ({a3', v4'} : Finset (DevRef τ sig)) ⊆ SAll by decide
theorem hB : (opB (F := F)).bufs ⊆ SAll := show ({v4', v5'} : Finset (DevRef τ sig)) ⊆ SAll by decide
omit [FloatOps F] in
theorem hR3 : (opR3 (F := F)).bufs ⊆ SAll := show ({v6', v7'} : Finset (DevRef τ sig)) ⊆ SAll by decide

/-! ## The host operations run, between the kernels -/

/-- The three operations before the gather: from the launch contents to the contents the gather meets. -/
theorem wp_ops_before (Φ : PUnit → sProp 𝕄) :
    iprop(boundary (T d) ∗ (held (T d) SAll (V0 m d) : sProp 𝕄))
      ⊢ iprop(((boundary (T d) ∗ (held (T d) SAll (V3 m d) : sProp 𝕄)) -∗ Φ ⟨⟩)
        -∗ wp frame (wpE ((K (F := F)).defs (D (F := F))) 𝒱 (SparseCore.T d) none) Set.univ (hlo rfl (opT (F := F)) fun _ => .ret PUnit.unit)
            (fun _ => wp frame (wpE ((K (F := F)).defs (D (F := F))) 𝒱 (SparseCore.T d) none) Set.univ (hlo rfl (opR1 (F := F)) fun _ => .ret PUnit.unit)
              (fun _ => wp frame (wpE ((K (F := F)).defs (D (F := F))) 𝒱 (SparseCore.T d) none) Set.univ (hlo rfl (opR2 (F := F)) fun _ => .ret PUnit.unit) Φ))) := by
  unfold V3 V2 V1
  iintro H Hk
  iapply (wp_hlo_within 𝒱 (SparseCore.T d) none Set.univ (op := opT) (S := SAll) hT (V := V0 m d)) $$ H
  iintro H
  rw [wp_ret]; imodintro
  iapply (wp_hlo_within 𝒱 (SparseCore.T d) none Set.univ (op := opR1) (S := SAll) hR1) $$ H
  iintro H
  rw [wp_ret]; imodintro
  iapply (wp_hlo_within 𝒱 (SparseCore.T d) none Set.univ (op := opR2) (S := SAll) hR2) $$ H
  iintro H
  rw [wp_ret]; imodintro
  iapply Hk
  iexact H

/-- The two operations between the gather and the loss kernel. -/
theorem wp_ops_between (Φ : PUnit → sProp 𝕄) :
    iprop(boundary (T d) ∗ (held (T d) SAll (V4 m d f3) : sProp 𝕄))
      ⊢ iprop(((boundary (T d) ∗ (held (T d) SAll (V6 m d f3) : sProp 𝕄)) -∗ Φ ⟨⟩)
        -∗ wp frame (wpE ((K (F := F)).defs (D (F := F))) 𝒱 (SparseCore.T d) none) Set.univ (hlo rfl (opC (F := F)) fun _ => .ret PUnit.unit)
            (fun _ => wp frame (wpE ((K (F := F)).defs (D (F := F))) 𝒱 (SparseCore.T d) none) Set.univ (hlo rfl (opB (F := F)) fun _ => .ret PUnit.unit) Φ)) := by
  unfold V6 V5
  iintro H Hk
  iapply (wp_hlo_within 𝒱 (SparseCore.T d) none Set.univ (op := opC) (S := SAll) hC (V := V4 m d f3)) $$ H
  iintro H
  rw [wp_ret]; imodintro
  iapply (wp_hlo_within 𝒱 (SparseCore.T d) none Set.univ (op := opB) (S := SAll) hB) $$ H
  iintro H
  rw [wp_ret]; imodintro
  iapply Hk
  iexact H

/-- The last operation, after the loss kernel. -/
theorem wp_op_last (Φ : PUnit → sProp 𝕄) :
    iprop(boundary (T d) ∗ (held (T d) SAll (V7 m d f3 f6) : sProp 𝕄))
      ⊢ iprop(((boundary (T d) ∗ (held (T d) SAll (V8 m d f3 f6) : sProp 𝕄)) -∗ Φ ⟨⟩)
        -∗ wp frame (wpE ((K (F := F)).defs (D (F := F))) 𝒱 (SparseCore.T d) none) Set.univ (hlo rfl (opR3 (F := F)) fun _ => .ret PUnit.unit) Φ) := by
  unfold V8
  iintro H Hk
  iapply (wp_hlo_within 𝒱 (SparseCore.T d) none Set.univ (op := opR3) (S := SAll) hR3 (V := V7 m d f3 f6)) $$ H
  iintro H
  rw [wp_ret]; imodintro
  iapply Hk
  iexact H

/-! ## The arrays a kernel takes, out of the twelve and back -/

/-- Array `b` of device `d`. -/
abbrev locD (d : Dev nD) (b : DevRef τ sig) : Loc nD τ sig := ((SparseCore.T d : Thread nD τ).1, b)

/-- Three arrays out of a set that holds them. -/
theorem held_three {x y z : DevRef τ sig} (hxy : x ∉ ({y, z} : Finset (DevRef τ sig))) (hyz : y ∉ ({z} : Finset (DevRef τ sig)))
    (hS : ({x, y, z} : Finset (DevRef τ sig)) ⊆ SAll) (W : Valuation τ sig (Elt F)) :
    (held (T d) SAll W : sProp 𝕄)
      = iprop((locD d x ↦{fullShare} W x) ∗ (locD d y ↦{fullShare} W y) ∗ (locD d z ↦{fullShare} W z)
          ∗ held (T d) (SAll \ {x, y, z}) W) := by
  rw [StableHlo.held_sub_split (T d) hS W]
  conv_lhs => arg 1; unfold held
  have assoc : ∀ A B C : sProp 𝕄, iprop((A ∗ B) ∗ C) = iprop(A ∗ B ∗ C) := fun A B C =>
    BI.Entails.antisymm BI.sep_assoc BI.sep_assoc'
  rw [SparseCore.bigSep_insert' hxy, SparseCore.bigSep_insert' hyz, bigSep_singleton, assoc, assoc]

/-- What the gather takes: its table, its indices, its result array at the launch contents; and the rest. -/
theorem held_V3_call :
    (held (T d) SAll (V3 m d) : sProp 𝕄)
      = iprop((locOf d main_v1 ↦{fullShare} V3 m d v1') ∗ (locOf d main_v2 ↦{fullShare} V3 m d v2') ∗ (locOf d main_v3 ↦{fullShare} m (locOf d main_v3))
          ∗ held (T d) (SAll \ {v1', v2', v3'}) (V3 m d)) := by
  rw [held_three d (x := v1') (y := v2') (z := v3') (by decide) (by decide) (by decide), V3_v3]

/-- What it hands back: the same with its result array at what it left. -/
theorem held_V4_call :
    (held (T d) SAll (V4 m d f3) : sProp 𝕄)
      = iprop((locOf d main_v1 ↦{fullShare} V3 m d v1') ∗ (locOf d main_v2 ↦{fullShare} V3 m d v2') ∗ (locOf d main_v3 ↦{fullShare} f3)
          ∗ held (T d) (SAll \ {v1', v2', v3'}) (V3 m d)) := by
  rw [held_three d (x := v1') (y := v2') (z := v3') (by decide) (by decide) (by decide), V4_v1, V4_v2, V4_v3,
    StableHlo.held_congr (T d) (V := V4 m d f3) (V' := V3 m d) fun b hb =>
      Function.update_of_ne (fun e => by subst e; exact absurd hb (by decide)) _ _]

/-- What the loss kernel takes: the scale, the gathered rows, its result array at the launch contents; and the rest. -/
theorem held_V6_region :
    (held (T d) SAll (V6 m d f3) : sProp 𝕄)
      = iprop((locOf d main_v5 ↦{fullShare} V6 m d f3 v5') ∗ (locOf d main_v3 ↦{fullShare} f3) ∗ (locOf d main_v6 ↦{fullShare} m (locOf d main_v6))
          ∗ held (T d) (SAll \ {v5', v3', v6'}) (V6 m d f3)) := by
  rw [held_three d (x := v5') (y := v3') (z := v6') (by decide) (by decide) (by decide), V6_v3, V6_v6]

/-- What it hands back: the same with its result array at what it left. -/
theorem held_V7_region :
    (held (T d) SAll (V7 m d f3 f6) : sProp 𝕄)
      = iprop((locOf d main_v5 ↦{fullShare} V6 m d f3 v5') ∗ (locOf d main_v3 ↦{fullShare} f3) ∗ (locOf d main_v6 ↦{fullShare} f6)
          ∗ held (T d) (SAll \ {v5', v3', v6'}) (V6 m d f3)) := by
  rw [held_three d (x := v5') (y := v3') (z := v6') (by decide) (by decide) (by decide), V7_v5, V7_v3, V7_v6,
    StableHlo.held_congr (T d) (V := V7 m d f3 f6) (V' := V6 m d f3) fun b hb =>
      Function.update_of_ne (fun e => by subst e; exact absurd hb (by decide)) _ _]

/-- At the end: the result as a scalar, and the rest. -/
theorem held_V8_out :
    (held (T d) SAll (V8 m d f3 f6) : sProp 𝕄)
      = iprop((locOf d main_v7 ↦{fullShare} shapeCast S_ f6 Facts₀.shapeCasts_S1x1_S_) ∗ held (T d) (SAll \ {v7'}) (V8 m d f3 f6)) := by
  rw [StableHlo.held_sub_split (T d) (show ({v7'} : Finset (DevRef τ sig)) ⊆ SAll by decide)]
  conv_lhs => arg 1; unfold held
  rw [bigSep_singleton, V8_v7]

end Cert.Mine.KI

end
-- ==== Proof.LaunchElem.lean ====
/-
  The launch element of the ghost state, and what the launch deals from it.

  The ghost state has three components side by side: the rounds of the launch handshakes, the rounds of the
  staging cells of the one pipelined kernel, and the counters of the transfers. At launch the first is at
  the handshakes' cells and duties, the second at the staging cells and the duties of the pipeline's own
  transfers, the third at its unit. Owning the triple is owning each component through its embedding; the
  handshakes' component is handed on as it stands, the staging cells' component funds, per device, each
  cell's launch state with round 0 reached and the duty tokens of the pipeline's transfers, and the
  counters' component is not needed. The payloads hold nothing of the launch's.
-/
import proofs.«212862_g50483045597572_cont_8to1c4_140_39_alg».proof.Proof.KernelPay

noncomputable section

namespace Cert.Mine.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The one pipeline prefetches no table: its one admissible contents. -/
abbrev launchAdm : (p : Fin 1) → (pcfgs (F := F) p).Adm := fun p => (cfgs p).toPCfg_adm

/-- The pipelines at that contents. -/
abbrev launchPins : Fin 1 → Pipeline.Cfg sig Λ₀ := Pipeline.pin (pcfgs (F := F)) launchAdm

/-- The launch element: the handshakes' rounds at their cells and duties, the staging cells' rounds at theirs, no counter yet. -/
def u₀ : UU :=
  (initOf (K (F := F)).hsCells (K (F := F)).hsToks,
    (initOf (Pipeline.cells (launchPins (F := F)) cellOf_inj) (Pipeline.launchToks (launchPins (F := F)) cellOf_inj), 1))

/-- What the launch deals device `d` for the pipelined kernel: its staging cells' ghost state and its transfers' duty tokens. -/
def G (d : Dev nD) : sProp 𝕄 :=
  iprop(Pipeline.cellsGhost (launchPins (F := F)) EP 0 d ∗ Pipeline.toksInit (launchPins (F := F)) EP 0 d)

omit [FloatOps F] in
private theorem bigSep_emp' {I : Type} (s : Finset I) : (bigSep s fun _ => iprop(emp)) = (iprop(emp) : sProp 𝕄) := bigSep_emp_const s

/-- A conjunction over the one pipeline is its one summand. -/
private theorem bigSep_pipe (Φ : Fin 1 → sProp 𝕄) : bigSep Finset.univ Φ = Φ 0 := by
  rw [show (Finset.univ : Finset (Fin 1)) = {0} by decide, bigSep_singleton]

variable (tbl : (d : Dev nD) → Buf (Elt F) (tLoc d)) (idx : (d : Dev nD) → Buf (Elt F) (iLoc d))
  (G' : (d : Dev nD) → Buf (Elt F) (oLoc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P tbl idx G').x q thr) := by
  unfold u₀
  iintro Hu
  ihave H := (ownU_pair _ _) $$ Hu
  icases H with ⟨HH, HR⟩
  ihave H2 := (own_pair_emb embR _ _) $$ HR
  icases H2 with ⟨HP, -⟩
  have hEP : ∀ x : UP, (BI.own (((Emb.inl : Emb UP (UP × Counters)).trans embR) x) : sProp 𝕄) ⊢ BI.own (EP (F := F) x) :=
    fun x => by unfold EP; exact .rfl
  ihave HP' := (hEP _) $$ HP
  imod (Pipeline.fund_ghost (launchPins (F := F)) EP cellOf_inj) $$ HP' with ⟨Hg, Ht⟩
  imodintro
  isplitl [HH]; · iexact HH
  isplitl [Hg Ht]
  · unfold G
    rw [bigSep_sep']
    simp only [bigSep_pipe]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Mine.KI

end
-- ==== Proof.MineRegion.lean ====
/-
  The one pipelined kernel on the TensorCore: its proof data and its body obligation.

  The pipeline has three windows, no grid and one point: the 1x1 scale and the 512x128 gathered rows are
  fetched whole into their staging buffers, the body runs once, and the 1x1 result is written back whole.
  The body reads the scale's one word and the rows in eight blocks of 64, and stores one word: the chain of
  the seven parts' payloads over those nine values. So after the body the inputs' buffers hold their blocks
  as fetched, and the result's buffer holds that value at its one index; the result array after the run is
  that buffer, since the one block written back is the whole array.
-/
import proofs.«212862_g50483045597572_cont_8to1c4_140_39_alg».proof.Proof.KernelCtx
import Idealize.ShloMosaic.Lib.Pipeline.FrameBody
import Idealize.ShloMosaic.Lib.Pipeline.Value
import Idealize.ShloMosaic.Lib.Tactic

set_option maxRecDepth 16384

noncomputable section

namespace Cert.Mine.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The arrays the region finds, and the windows' blocks -/

/-- The three windowed arrays as the region finds them: the scale, the gathered rows, the result array. -/
def arrs (c : Dev nD) (A0 : Buf (Elt F) ((c : Thread nD τ).loc main_v5)) (A1 : Buf (Elt F) ((c : Thread nD τ).loc main_v3))
    (A2 : Buf (Elt F) ((c : Thread nD τ).loc main_v6)) :
    (w : Fin cfg1.W) → Buf (Elt F) ((cfg1.win w).arr.view.loc (c.tc : Thread nD τ))
  | ⟨0, _⟩ => A0
  | ⟨1, _⟩ => A1
  | ⟨2, _⟩ => A2

variable (A0 : (c : Dev nD) → Buf (Elt F) ((c : Thread nD τ).loc main_v5)) (A1 : (c : Dev nD) → Buf (Elt F) ((c : Thread nD τ).loc main_v3))
  (A2 : (c : Dev nD) → Buf (Elt F) ((c : Thread nD τ).loc main_v6))
  (B : Dev nD → Set (SemLoc sig × HIx 1))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (arrs c (A0 c) (A1 c) (A2 c) w)

/-! ## The body's accesses -/

abbrev r0 : Rect S1x1 := Rect.unit (s := S1x1) ![0, 0] S1x1.size inb_S1x1_S1x1_0_0
abbrev r1_0 : Rect S512x128 := Rect.unit (s := S512x128) ![0, 0] S64x128.size inb_S512x128_S64x128_0_0
abbrev r1_1 : Rect S512x128 := Rect.unit (s := S512x128) ![64, 0] S64x128.size inb_S512x128_S64x128_64_0
abbrev r1_2 : Rect S512x128 := Rect.unit (s := S512x128) ![128, 0] S64x128.size inb_S512x128_S64x128_128_0
abbrev r1_3 : Rect S512x128 := Rect.unit (s := S512x128) ![192, 0] S64x128.size inb_S512x128_S64x128_192_0
abbrev r1_4 : Rect S512x128 := Rect.unit (s := S512x128) ![256, 0] S64x128.size inb_S512x128_S64x128_256_0
abbrev r1_5 : Rect S512x128 := Rect.unit (s := S512x128) ![320, 0] S64x128.size inb_S512x128_S64x128_320_0
abbrev r1_6 : Rect S512x128 := Rect.unit (s := S512x128) ![384, 0] S64x128.size inb_S512x128_S64x128_384_0
abbrev r1_7 : Rect S512x128 := Rect.unit (s := S512x128) ![448, 0] S64x128.size inb_S512x128_S64x128_448_0

/-- The one entry of a 1x1 buffer. -/
def entry (x0 : Vec F S1x1 .f32) : Elt F .f32 := View.ld x0 r0 (Shape.Idx.first (by decide))

/-- The eight 64-row blocks of a 512x128 buffer, as the body's eight vector loads read them. -/
def rows (x1 : Vec F S512x128 .f32) : Fin 8 → Vec F S64x128 .f32
  | ⟨0, _⟩ => View.ld x1 r1_0
  | ⟨1, _⟩ => View.ld x1 r1_1
  | ⟨2, _⟩ => View.ld x1 r1_2
  | ⟨3, _⟩ => View.ld x1 r1_3
  | ⟨4, _⟩ => View.ld x1 r1_4
  | ⟨5, _⟩ => View.ld x1 r1_5
  | ⟨6, _⟩ => View.ld x1 r1_6
  | ⟨7, _⟩ => View.ld x1 r1_7

/-- The kernel's result from the scale and the eight row blocks: the chain of the parts' payloads. -/
def kerOut (v0 : Elt F .f32) (g : Fin 8 → Vec F S64x128 .f32) : F .f32 :=
  let v3 : IVec S64x64 1 := k1_pay1
  let v41 : F .f32 := k1_pay2 v0 (g 0)
  let v79 : F .f32 := k1_pay3 v0 v3 v41 (g 1)
  let v117 : F .f32 := k1_pay7 v0 v3 v79 (k1_pay4 (g 2)) (k1_pay5 (g 2)) (k1_pay6 (F := F))
  let v155 : F .f32 := k1_pay11 v3 v117 (k1_pay9 v0 (g 3)) (k1_pay10 v0 (g 3))
  let v193 : F .f32 := k1_pay15 v3 v155 (k1_pay13 v0 (g 4)) (k1_pay14 v0 (g 4))
  let v231 : F .f32 := k1_pay17 v193 (k1_pay16 v0 v3 (g 5))
  k1_pay19 v0 v3 v231 (k1_pay18 v0 v3 (g 6)) (g 7)

/-- What the body leaves in the result window's staging buffer, from the two input windows' contents. -/
def out2 (x0 : Vec F S1x1 .f32) (x1 : Vec F S512x128 .f32) : Vec F S1x1 .f32 :=
  fun _ => kerOut (entry x0) (rows x1)

/-! ## The pipeline's proof data -/

/-- The class's region invariant at this ghost state: the scoped buffers that are no staging buffer, and the
    generator register, at some contents each. -/
def ΦK (c : Dev nD) : sProp 𝕄 :=
  iprop(Pipeline.scopedRest (Ix := HIx 1) (Name := ℕ) (U := UU) (Lvl := ℕ) (Val := Elt F) spec1 c ∗ ∃ r, prngReg c r)

/-- The proof data of the one pipeline on core `c`: the arrays as the region finds them; after the body each input's
    buffer at its block and the result's at `out2` of the input blocks; the class's invariant; nothing owed; full shares;
    the pairs the core's waits have recorded before the pipeline bounded by `B c` throughout (the body waits for nothing). -/
def dats (p : Fin 1) (c : Dev nD) : Dat τ (Elt F) (HIx 1) ℕ UU ℕ (cfgs p) c where
  A w := arrs c (A0 c) (A1 c) (A2 c) w
  after w t := match w with
    | ⟨0, _⟩ => iblk A0 A1 A2 c 0 t
    | ⟨1, _⟩ => iblk A0 A1 A2 c 1 t
    | ⟨2, _⟩ => out2 (iblk A0 A1 A2 c 0 t) (iblk A0 A1 A2 c 1 t)
  Φ _ := ΦK (F := F) c
  q _ := fullShare
  owed _ := 0
  recorded _ := B c

theorem A_eq (c : Dev nD) (w : Fin cfg1.W) : (dats A0 A1 A2 B 0 c).A w = arrs c (A0 c) (A1 c) (A2 c) w := by dsimp only [dats]
theorem after1_0 (c : Dev nD) (t : Fin cfg1.N) : (dats A0 A1 A2 B 0 c).after 0 t = iblk A0 A1 A2 c 0 t := by dsimp only [dats]
theorem after1_1 (c : Dev nD) (t : Fin cfg1.N) : (dats A0 A1 A2 B 0 c).after 1 t = iblk A0 A1 A2 c 1 t := by dsimp only [dats]
theorem after1_2 (c : Dev nD) (t : Fin cfg1.N) : (dats A0 A1 A2 B 0 c).after 2 t = out2 (iblk A0 A1 A2 c 0 t) (iblk A0 A1 A2 c 1 t) := by dsimp only [dats]

/-! ## The body's triple -/

theorem hz2 : (![0, 0] : Fin 2 → Nat) = fun _ => 0 := funext fun a => by fin_cases a <;> rfl

/-- The one store tiles the result buffer, so it covers it. -/
theorem cover2 (p0 : Vec F S1x1 .f32) (y : S1x1.Idx) :
    ∃ pc ∈ ([⟨r0, p0⟩] : List (View.Piece (Elt F) S1x1 .f32)), y ∈ pc.1.set :=
  View.cover_of_tiled [⟨r0, p0⟩] S1x1.size (by rfl) y

set_option maxHeartbeats 4000000 in
/-- The kernel body on whole staging memrefs, the inputs' at read contents `x0`, `x1` and the result's at anything,
    runs to the continuation holding the inputs' as they were and the result's at `out2 x0 x1`. -/
theorem sound_kernel (c : Dev nD) (E : Set ℕ) (arg0 : Memref sig .tc .smem S1x1 .f32) (harg0 : arg0.IsWhole)
    (arg1 : Memref sig .tc .vmem S512x128 .f32) (harg1 : arg1.IsWhole) (arg2 : Memref sig .tc .smem S1x1 .f32) (harg2 : arg2.IsWhole)
    (x0 : Vec F S1x1 .f32) (x1 : Vec F S512x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2 x0 x1)) -∗ K ⟨⟩))
      ⊢ wp frame (wpE (defs₀ (F := F)) Variants.none c none) E (cc1_mine_kernel arg0 harg0 arg1 harg1 arg2 harg2) K := by
  simp only [cc1_mine_kernel_eq_skeleton]; unfold cc1_mine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover2 _)).trans ?_
  rw [View.canon_unit_zero hz2]
  rfl

/-! ## What the body finds in the inputs' buffers -/

/-- Each input's current staging buffer holds its block at the point. -/
theorem before1_0 (c : Dev nD) (t : Fin cfg1.N) (d) : (dats A0 A1 A2 B 0 c).before 0 t d = iblk A0 A1 A2 c 0 t :=
  ((dats A0 A1 A2 B 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats A0 A1 A2 B 0 c).before 1 t d = iblk A0 A1 A2 c 1 t :=
  ((dats A0 A1 A2 B 0 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg1.N) : sProp 𝕄 :=
  iprop((dats A0 A1 A2 B 0 c).Φ t.castSucc ∗ (dats A0 A1 A2 B 0 c).owesAt (none : HIx 1) t.castSucc
    ∗ (∃ d, owns (c : Thread nD τ) (st1_0 t) fullShare ((dats A0 A1 A2 B 0 c).before 0 t d))
    ∗ (∃ d, owns (c : Thread nD τ) (st1_1 t) fullShare ((dats A0 A1 A2 B 0 c).before 1 t d))
    ∗ (∃ d, owns (c : Thread nD τ) (st1_2 t) fullShare ((dats A0 A1 A2 B 0 c).before 2 t d)))

/-- and what it returns. -/
def bodyPost (c : Dev nD) (t : Fin cfg1.N) : sProp 𝕄 :=
  iprop((dats A0 A1 A2 B 0 c).Φ t.succ ∗ (dats A0 A1 A2 B 0 c).owesAt (none : HIx 1) t.succ
    ∗ owns (c : Thread nD τ) (st1_0 t) fullShare ((dats A0 A1 A2 B 0 c).after 0 t)
    ∗ owns (c : Thread nD τ) (st1_1 t) fullShare ((dats A0 A1 A2 B 0 c).after 1 t)
    ∗ owns (c : Thread nD τ) (st1_2 t) fullShare ((dats A0 A1 A2 B 0 c).after 2 t))

/-- The body at the point: the inputs' memrefs hold their blocks, so the body's triple applies; the invariant and the
    core's debts pass through unread. -/
theorem sound_body (c : Dev nD) (t : Fin cfg1.N) :
    bodyPre A0 A1 A2 B c t ⊢ wp frame (wpE (defs₀ (F := F)) Variants.none c none) Set.univ (bodyAt1 t) (fun _ => bodyPost A0 A1 A2 B c t) := by
  unfold bodyPre bodyPost bodyAt1
  simp only [before1_0, before1_1]
  rw [show (dats A0 A1 A2 B 0 c).Φ t.succ = (dats A0 A1 A2 B 0 c).Φ t.castSucc from rfl,
    show (dats A0 A1 A2 B 0 c).owesAt (none : HIx 1) t.succ = (dats A0 A1 A2 B 0 c).owesAt (none : HIx 1) t.castSucc from rfl,
    after1_0, after1_1, after1_2]
  iintro ⟨HΦ, Ho, ⟨%d0, H0⟩, ⟨%d1, H1⟩, ⟨%d2, H2⟩⟩
  iapply (sound_kernel c Set.univ _ _ _ _ _ _ (iblk A0 A1 A2 c 0 t) (iblk A0 A1 A2 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at the one point. -/
theorem body_obligation (c : Dev nD) : BodyObligation (dats (F := F) A0 A1 A2 B 0 c) (defs₀ (F := F)) Variants.none (none : HIx 1) Set.univ := fun t => by
  rw [bigSep_W1, bigSep_W1]
  exact sound_body A0 A1 A2 B c t

/-! ## The arrays after the run -/

/-- A window's block at the point is its whole array: the block index is zero on every axis. -/
theorem iblk0_eq (c : Dev nD) (t : Fin cfg1.N) : iblk A0 A1 A2 c 0 t = A0 c := by
  funext j
  show A0 c (((cfg1.win 0).blk t).view.emb j) = A0 c j
  congr 1
  funext a; apply Fin.ext
  exact Pipeline.Window.rect_emb_val_of_index_zero (cfg1.win 0) t a rfl j
theorem iblk1_eq (c : Dev nD) (t : Fin cfg1.N) : iblk A0 A1 A2 c 1 t = A1 c := by
  funext j
  show A1 c (((cfg1.win 1).blk t).view.emb j) = A1 c j
  congr 1
  funext a; apply Fin.ext
  exact Pipeline.Window.rect_emb_val_of_index_zero (cfg1.win 1) t a rfl j

/-- What the one point writes back is the whole-array contents `out2` of the two input arrays, read through the block. -/
theorem flushed2_eq (c : Dev nD) (t : Fin cfg1.N) :
    (dats A0 A1 A2 B 0 c).flushed 2 t = ((cfg1.win 2).blk t).view.read (Elt F) (out2 (A0 c) (A1 c)) := by
  show (cfg1.win 2).cut (grid1.coords t) ((dats A0 A1 A2 B 0 c).after 2 t) = _
  rw [after1_2, iblk0_eq, iblk1_eq]
  rfl

/-- THE RESULT ARRAY after the run: the kernel's value of the scale's entry and the eight row blocks, at its one index. -/
theorem arrAt2 (c : Dev nD) :
    (dats A0 A1 A2 B 0 c).arrAt 2 cfg1.N = fun _ => kerOut (entry (A0 c)) (rows (A1 c)) :=
  (dats A0 A1 A2 B 0 c).arrAt_eq_of_cover 2 (out2 (A0 c) (A1 c)) (fun t _ => flushed2_eq A0 A1 A2 B c t) (fun i => ⟨t1_0, flush1_2 _, by
    show i ∈ ((View.whole main_v6).slice (win1_2.rect t1_0)).set
    rw [View.set_slice_whole, Rect.mem_set_unit]
    intro a
    have hi : (i a).val < S1x1.size a := (i a).isLt
    have h0 : win1_2.index t1_0 a = 0 := rfl
    show win1_2.index t1_0 a * S1x1.size a ≤ (i a).val ∧ (i a).val < win1_2.index t1_0 a * S1x1.size a + S1x1.size a
    rw [h0]; omega⟩)

/-- The input arrays are never written. -/
theorem arrAt0 (c : Dev nD) (n : Nat) : (dats A0 A1 A2 B 0 c).arrAt 0 n = A0 c :=
  ((dats A0 A1 A2 B 0 c).arrAt_in 0 rfl n).trans (A_eq A0 A1 A2 B c 0)
theorem arrAt1 (c : Dev nD) (n : Nat) : (dats A0 A1 A2 B 0 c).arrAt 1 n = A1 c :=
  ((dats A0 A1 A2 B 0 c).arrAt_in 1 rfl n).trans (A_eq A0 A1 A2 B c 1)

end Cert.Mine.KI

end
-- ==== Proof.RegionStep.lean ====
/-
  The step of the enclosing program that enters the kernel region on the TensorCore.

  The region is entered holding the twelve arrays at a valuation, the core owing nothing with its recorded
  waits within a bound, and the generator register. The three windowed arrays (the scale, the gathered rows,
  the result) go to the pipeline, the register to the invariant, the other nine arrays pass by. The region is
  left holding the twelve arrays again, the result array now at the kernel's value of the other two, the core
  still owing nothing, its recorded waits grown at most by the staging cells' at the kernel's own index.
-/
import proofs.«212862_g50483045597572_cont_8to1c4_140_39_alg».proof.Proof.MineRegion
import proofs.«212862_g50483045597572_cont_8to1c4_140_39_alg».proof.Proof.HostOps
import Idealize.ShloMosaic.Lib.Pipeline.Regions
import Idealize.ShloMosaic.Lib.Tactic

set_option maxRecDepth 16384

noncomputable section

namespace Cert.Mine.KI

open Cert.KernelIdeal Cert.KernelIdeal.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig (HIx 1) (Elt F) ℕ UU ℕ

/-- The prefetched tables' admissible contents: no table. -/
abbrev adm : (p : Fin 1) → (pcfgs (F := F) p).Adm := fun p => (cfgs p).toPCfg_adm

variable (V : Dev nD → Valuation τ sig (Elt F)) (B : Dev nD → Set (SemLoc sig × HIx 1))

/-- The three windowed arrays at the valuation. -/
abbrev VA0 (c : Dev nD) : Buf (Elt F) ((c : Thread nD τ).loc main_v5) := V c v5'
abbrev VA1 (c : Dev nD) : Buf (Elt F) ((c : Thread nD τ).loc main_v3) := V c v3'
abbrev VA2 (c : Dev nD) : Buf (Elt F) ((c : Thread nD τ).loc main_v6) := V c v6'

/-- The kernel's result at the valuation. -/
abbrev resultOf (c : Dev nD) : Buf (Elt F) ((c : Thread nD τ).loc main_v6) := fun _ => kerOut (entry (VA0 V c)) (rows (VA1 V c))

/-- The valuation after the region. -/
abbrev Vout (c : Dev nD) : Valuation τ sig (Elt F) := Function.update (V c) v6' (resultOf V c)

/-- The nine arrays that pass by the region, at the valuation. -/
def restOf (c : Dev nD) : sProp 𝕄 :=
  iprop((locOf c main_arg0 ↦{fullShare} V c a0') ∗ (locOf c main_arg1 ↦{fullShare} V c a1') ∗ (locOf c main_arg2 ↦{fullShare} V c a2')
    ∗ (locOf c main_arg3 ↦{fullShare} V c a3') ∗ (locOf c main_v0 ↦{fullShare} V c v0') ∗ (locOf c main_v1 ↦{fullShare} V c v1')
    ∗ (locOf c main_v2 ↦{fullShare} V c v2') ∗ (locOf c main_v4 ↦{fullShare} V c v4') ∗ (locOf c main_v7 ↦{fullShare} V c v7'))

/-- The thread state the region is entered from: the twelve arrays at the valuation, nothing owed and the recorded waits
    within the bound, the generator register. -/
def regionPre (c : Dev nD) : sProp 𝕄 :=
  iprop(held (T c) SAll (V c) ∗ (∃ W, ⌜↑W ⊆ B c⌝ ∗ owes (T c) (0 : CellTallies nD τ sig (HIx 1)) W) ∗ ∃ r, prngReg c r)

/-- The thread state it leaves: the result array at the kernel's value, the recorded waits grown by the staging cells' at
    most. -/
def regionPost (c : Dev nD) : sProp 𝕄 :=
  iprop(held (T c) SAll (Vout V c) ∗ (∃ W, ⌜↑W ⊆ B c ∪ cfg1.waitPairs (none : HIx 1)⌝ ∗ owes (T c) (0 : CellTallies nD τ sig (HIx 1)) W)
    ∗ ∃ r, prngReg c r)

set_option backward.isDefEq.respectTransparency.types false in
/-- THE REGION: the pipeline's layout, no semaphore of the kernel's own, the body obligation, and the four entailments. -/
def regionSeg : Pipeline.RegionSeg (pcfgs (F := F)) adm (dats (VA0 V) (VA1 V) (VA2 V) B) (none : HIx 1) defs₀ Variants.none
    (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation (VA0 V) (VA1 V) (VA2 V) B c).loose
  hwaits := Pipeline.hwaits_of_owed_zero _ _ _ _ _ _ 0 fun _ _ => rfl
  pre c := regionPre V B c
  post c := regionPost V B c
  X c := iprop(∃ r, prngReg c r)
  Y c := iprop(∃ r, prngReg c r)
  Z c := restOf V c
  hentry c := by
    unfold regionPre
    rw [show (held (T c) SAll (V c) : sProp 𝕄) = unscopedBufs c (fun b => V c (Proc.devRef .tc b)) from by
      rw [unscopedBufs_eq, held_SAll]]
    have hsplit := (Pipeline.arrays_of_unscopedBufs (pcfgs (F := F)) adm (dats (VA0 V) (VA1 V) (VA2 V) B) launch1.win launch1.arr_whole c
      ((dats (VA0 V) (VA1 V) (VA2 V) B 0 c).share_full fun _ => rfl) (fun b => V c (Proc.devRef .tc b))
      (fun w => match w with | ⟨0, _⟩ => rfl | ⟨1, _⟩ => rfl | ⟨2, _⟩ => rfl)).trans
      (sep_mono .rfl (Entails.of_eq (unscopedRest1_eq c _)))
    iintro ⟨⟨Hub, HO, Hr⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitl [Hr]; · iexact Hr
    unfold restOf; iexact Hrest
  hin c := by
    rw [show (dats (VA0 V) (VA1 V) (VA2 V) B 0 c).Φ 0 = ΦK c from rfl]; unfold ΦK
    iintro ⟨Hr, -, Hs⟩
    isplitl [Hs]; · iexact Hs
    iexact Hr
  hout c := by
    rw [Pipeline.ownSems0_none, show (dats (VA0 V) (VA1 V) (VA2 V) B 0 c).Φ (Fin.last cfg1.N) = ΦK c from rfl]; unfold ΦK
    iintro ⟨Hs, Hr⟩
    isplitl [Hr]; · iexact Hr
    isplitr; · iempintro
    iexact Hs
  hexit c := by
    rw [Pipeline.arrays_eq (Pipeline.pin (pcfgs (F := F)) adm) (dats (VA0 V) (VA1 V) (VA2 V) B) 0 c launch1.arr_whole
      ((dats (VA0 V) (VA1 V) (VA2 V) B 0 c).share_full fun _ => rfl), bigSep_W1]
    have e0 : (dats (VA0 V) (VA1 V) (VA2 V) B 0 c).arrAt 0 (Pipeline.pin (pcfgs (F := F)) adm 0).N = V c v5' :=
      arrAt0 (VA0 V) (VA1 V) (VA2 V) B c _
    have e1 : (dats (VA0 V) (VA1 V) (VA2 V) B 0 c).arrAt 1 (Pipeline.pin (pcfgs (F := F)) adm 0).N = V c v3' :=
      arrAt1 (VA0 V) (VA1 V) (VA2 V) B c _
    have e2 : (dats (VA0 V) (VA1 V) (VA2 V) B 0 c).arrAt 2 (Pipeline.pin (pcfgs (F := F)) adm 0).N = resultOf V c :=
      arrAt2 (VA0 V) (VA1 V) (VA2 V) B c
    rw [e0, e1, e2]
    have hne : ∀ b, b ≠ v6' → Vout V c b = V c b := fun b hb => Function.update_of_ne hb _ _
    unfold regionPost restOf
    rw [held_SAll, hne a0' (by decide), hne a1' (by decide), hne a2' (by decide), hne a3' (by decide), hne v0' (by decide),
      hne v1' (by decide), hne v2' (by decide), hne v3' (by decide), hne v4' (by decide), hne v5' (by decide), hne v7' (by decide),
      show Vout V c v6' = resultOf V c from Function.update_self _ _ _]
    iintro ⟨⟨H5, H3, H6⟩, HO, Hr, ⟨Ha0, Ha1, Ha2, Ha3, Hv0, Hv1, Hv2, Hv4, Hv7⟩⟩
    imodintro
    isplitl [Ha0 Ha1 Ha2 Ha3 Hv0 Hv1 Hv2 Hv4 Hv7 H5 H3 H6]
    · isplitl [Ha0]; · iexact Ha0
      isplitl [Ha1]; · iexact Ha1
      isplitl [Ha2]; · iexact Ha2
      isplitl [Ha3]; · iexact Ha3
      isplitl [Hv0]; · iexact Hv0
      isplitl [Hv1]; · iexact Hv1
      isplitl [Hv2]; · iexact Hv2
      isplitl [H3]; · iexact H3
      isplitl [Hv4]; · iexact Hv4
      isplitl [H5]; · iexact H5
      isplitl [H6]; · iexact H6
      iexact Hv7
    isplitl [HO]
    · unfold Pipeline.Dat.owesAt Pipeline.owesWithin
      icases HO with ⟨%W, %hW, HO⟩; iexists W; isplitr; · ipureintro; exact hW
      iexact HO
    iexact Hr

set_option backward.isDefEq.respectTransparency.types false in
/-- THE STEP: from the boundary, the region's entry state, the level facts and the pipeline's ghost state, the call that
    enters the region runs to the boundary and the region's exit state for the continuation. -/
theorem region_step (d : Dev nD) {α : Type}
    (k : PUnit → Prog (TpuEff nD τ sig (Elt F) (Pipeline.Sig Λ₀ (Fin 1) fun p => (pcfgs (F := F) p).Adm) .tc) α) (Q : α → sProp 𝕄) :
    iprop((iprop(boundary (T d) ∗ regionPost V B d) -∗ wp frame (wpE (D (F := F)) 𝒱 (T d) none) Set.univ (k ⟨⟩) Q)
        ∗ boundary (T d) ∗ regionPre V B d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE (D (F := F)) 𝒱 (T d) none) Set.univ (.op (.customCall (Pipeline.entry 0) ()) k) Q :=
  Pipeline.RegionSeg.wp (pcfgs (F := F)) adm (dats (VA0 V) (VA1 V) (VA2 V) B) (none : HIx 1) cellOf_inj (EP (F := F)) defs₀ Variants.none
    (K (F := F)).L (K (F := F)).lev (regionSeg V B) d none (fun u hu => nomatch hu) k Q

/-- The call of the region's entry, lifted to the extended body table, is the enclosing program's line. -/
theorem lift_line : (SparseCore.liftProg (Q := 1) (.op (.customCall (Pipeline.entry (0 : Fin 1)) ()) fun _ => .ret PUnit.unit)
      : Prog (TpuEff nD τ sig (Elt F) (SparseCore.Sig (ΛP (F := F)) 1) .tc) PUnit)
    = Prog.lift (.customCall (SparseCore.inner (Pipeline.entry 0)) ()) := rfl

set_option backward.isDefEq.respectTransparency.types false in
/-- A proof about that call under the pipelines' body table is one about the line under the extended table. -/
theorem lift_wp (d : Dev nD) (Φ : PUnit → sProp 𝕄) :
    wp frame (wpE (D (F := F)) 𝒱 (T d) none) Set.univ ((.op (.customCall (Pipeline.entry (0 : Fin 1)) ()) fun _ => .ret PUnit.unit) : Prog (TpuEff nD τ sig (Elt F) (ΛP (F := F)) .tc) PUnit) Φ
      ⊢ wp frame (wpE ((K (F := F)).defs (D (F := F))) 𝒱 (T d) none) Set.univ
          (SparseCore.liftProg (Q := 1) (.op (.customCall (Pipeline.entry (0 : Fin 1)) ()) fun _ => .ret PUnit.unit)) Φ :=
  (K (F := F)).wp_liftProg (D (F := F)) 𝒱 (T d) Set.univ none _ Φ

set_option backward.isDefEq.respectTransparency.types false in
/-- THE STEP AS THE ENCLOSING PROGRAM SPELLS IT: the call of the region's entry through the extended body table,
    alone, to any postcondition that the boundary and the region's exit state give. -/
theorem region_line (d : Dev nD) (Φ : PUnit → sProp 𝕄) :
    iprop((iprop(boundary (T d) ∗ regionPost V B d) -∗ Φ ⟨⟩)
        ∗ boundary (T d) ∗ regionPre V B d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (T d) none) Set.univ
          (Prog.lift (.customCall (SparseCore.inner (Pipeline.entry 0)) ())) Φ := by
  have h := (region_step V B d (fun _ => .ret PUnit.unit) Φ).trans (lift_wp d Φ)
  rw [lift_line] at h
  have h0 : iprop((iprop(boundary (T d) ∗ regionPost V B d) -∗ Φ ⟨⟩)
        ∗ boundary (T d) ∗ regionPre V B d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ iprop((iprop(boundary (T d) ∗ regionPost V B d) -∗ wp frame (wpE (D (F := F)) 𝒱 (T d) none) Set.univ (.ret PUnit.unit) Φ)
        ∗ boundary (T d) ∗ regionPre V B d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d) := by
    iintro ⟨Hk, H⟩
    isplitl [Hk]
    · iintro H
      rw [wp_ret]; imodintro
      iapply Hk; iexact H
    · iexact H
  exact h0.trans h

/-! ## What the launch element must provide -/

/-- The staging cells' component of the launch element: the rounds' launch element at the pipeline's staging cells and
    the tokens of the transfers its loop issues. -/
def uPipe : UP := initOf (Pipeline.cells (Pipeline.pin (pcfgs (F := F)) adm) cellOf_inj) (Pipeline.launchToks (Pipeline.pin (pcfgs (F := F)) adm) cellOf_inj)

/-- The launch element splits into its three components, each owned through its embedding. -/
theorem ownU_split (uH : UH) (uP : UP) (uC : Counters) :
    (ownU ((uH, (uP, uC)) : UU) : sProp 𝕄)
      ⊢ iprop(BI.own ((EH (F := F)) uH) ∗ BI.own ((EP (F := F)) uP)
          ∗ BI.own (((Emb.inr : Emb Counters (UP × Counters)).trans (embR : Emb (UP × Counters) 𝕄)) uC)) :=
  (ownU_pair uH (uP, uC)).trans (sep_mono .rfl (own_pair_emb embR uP uC))

set_option backward.isDefEq.respectTransparency.types false in
/-- From the staging cells' component, every core's ghost state and duty tokens for the pipeline: what the step takes. -/
theorem launch_ghost :
    (BI.own ((EP (F := F)) (uPipe (F := F))) : sProp 𝕄)
      ⊢ iprop(|==> bigSep Finset.univ fun d : Dev nD =>
          iprop(Pipeline.cellsGhost (Pipeline.pin (pcfgs (F := F)) adm) (EP (F := F)) 0 d ∗ Pipeline.toksInit (Pipeline.pin (pcfgs (F := F)) adm) (EP (F := F)) 0 d)) := by
  refine (Pipeline.fund_ghost (Pipeline.pin (pcfgs (F := F)) adm) (EP (F := F)) cellOf_inj).trans ?_
  have e : ∀ Ψ : Fin 1 → sProp 𝕄, bigSep Finset.univ Ψ = Ψ 0 := fun Ψ => by
    rw [show (Finset.univ : Finset (Fin 1)) = {0} from rfl, bigSep_singleton]
  simp only [e]
  exact .rfl

end Cert.Mine.KI

end
-- ==== Proof.FinalRead.lean ====
/-
  How the final assertion reads the claim off the final memory.

  At its end the enclosing program holds its twelve arrays whole, at the contents the last step leaves. A
  whole array held at contents `f` pins the physical contents of that array to `f`; so the final memory has
  the result array at the loss kernel's 1 x 1 result read as a scalar, and each of the four arguments at its
  launch contents, which no step writes.
-/
import proofs.«212862_g50483045597572_cont_8to1c4_140_39_alg».proof.Proof.HostOps

noncomputable section

namespace Cert.Mine.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ)
  (f3 : (d : Dev nD) → Buf (Elt F) (locOf d main_v3)) (f6 : (d : Dev nD) → Buf (Elt F) (locOf d main_v6))

/-- What the enclosing program ends holding on device `d`: the twelve arrays at the last step's contents. -/
def FIN (d : Dev nD) : sProp 𝕄 := held (T d) SAll (V8 m d (f3 d) (f6 d))

/-- What a final state's memory holds on device `d`: the result, and the four arguments unchanged. -/
def fq (m : (ℓ : Loc nD τ sig) → Buf (Elt F) ℓ) (f3 : (d : Dev nD) → Buf (Elt F) (locOf d main_v3))
    (f6 : (d : Dev nD) → Buf (Elt F) (locOf d main_v6)) (d : Dev nD) (s' : Phys nD τ sig (Elt F)) : Prop :=
  s'.mem.mem (locOf d main_v7) = shapeCast S_ (f6 d) Facts₀.shapeCasts_S1x1_S_
    ∧ s'.mem.mem (locOf d main_arg0) = m (locOf d main_arg0) ∧ s'.mem.mem (locOf d main_arg1) = m (locOf d main_arg1)
    ∧ s'.mem.mem (locOf d main_arg2) = m (locOf d main_arg2) ∧ s'.mem.mem (locOf d main_arg3) = m (locOf d main_arg3)

theorem hfin (d : Dev nD) (s' : Phys nD τ sig (Elt F)) : iprop(FIN m f3 f6 d ∗ SI s') ⊢ (⌜fq m f3 f6 d s'⌝ : sProp 𝕄) := by
  unfold FIN held
  iintro ⟨H, HSI⟩
  ihave %h := (SI_pointsTo_bufs_agree (qs := fun _ => fullShare) SAll) $$ [HSI H]
  · isplitl [HSI]; · iexact HSI
    iexact H
  ipureintro
  exact ⟨(h v7' (by decide)).trans (V8_v7 m d (f3 d) (f6 d)), (h a0' (by decide)).trans (V8_a0 m d (f3 d) (f6 d)),
    (h a1' (by decide)).trans (V8_a1 m d (f3 d) (f6 d)), (h a2' (by decide)).trans (V8_a2 m d (f3 d) (f6 d)),
    (h a3' (by decide)).trans (V8_a3 m d (f3 d) (f6 d))⟩

/-- The claim about the program's final memory: on every device the result and the unchanged arguments. -/
def QC (m : (ℓ : Loc nD τ sig) → Buf (Elt F) ℓ) (f3 : (d : Dev nD) → Buf (Elt F) (locOf d main_v3))
    (f6 : (d : Dev nD) → Buf (Elt F) (locOf d main_v6)) : PUnit.{1} × MemSt nD τ sig (Elt F) → Prop := fun r => ∀ c : Dev nD,
  r.2.mem ((c.tc : Thread nD τ).loc main_v7) = shapeCast S_ (f6 c) Facts₀.shapeCasts_S1x1_S_
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem hQ : ∀ s' : Phys nD τ sig (Elt F), (∀ d, fq m f3 f6 d s') → QC m f3 f6 (⟨⟩, s'.mem) := fun _ h c => h c

end Cert.Mine.KI

end
-- ==== Proof.KernelRun.lean ====
/-
  The kernel program's run. The gather's sixteen tasks and the pipelined kernel on the TensorCore are put
  under the launch theorem for programs with kernels on the vector subcores: every weakly fair execution of
  the device's threads ends, nothing faults, the four argument arrays end as they began, and the result is
  the pipelined kernel's value of the scale and of the gathered rows of the re-laid table.
-/
import proofs.«212862_g50483045597572_cont_8to1c4_140_39_alg».proof.Proof.TileBody
import proofs.«212862_g50483045597572_cont_8to1c4_140_39_alg».proof.Proof.VecSplit
import proofs.«212862_g50483045597572_cont_8to1c4_140_39_alg».proof.Proof.HostOps
import proofs.«212862_g50483045597572_cont_8to1c4_140_39_alg».proof.Proof.LaunchElem
import proofs.«212862_g50483045597572_cont_8to1c4_140_39_alg».proof.Proof.RegionStep
import proofs.«212862_g50483045597572_cont_8to1c4_140_39_alg».proof.Proof.FinalRead

noncomputable section

namespace Cert.Mine.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays the gather works on, as the host operations before it leave them -/

/-- The re-laid table, the flat list of positions, the gathered rows. -/
abbrev tblOf (d : Dev nD) : Buf (Elt F) (tLoc d) := V3 m d v1'
abbrev idxOf (d : Dev nD) : Buf (Elt F) (iLoc d) := V3 m d v2'
abbrev gathOf (d : Dev nD) : Buf (Elt F) (oLoc d) := gathered d (tblOf m d) (idxOf m d)

/-- The call's payloads at those arrays. -/
abbrev PP : (K (F := F)).Pay (nD := nD) (Val := Elt F) (Name := ℕ) (U := UU) := P (tblOf m) (idxOf m) (gathOf m)

/-- Every position is at most 41343. -/
def PosOK : Prop := ∀ (d : Dev nD) j, ((idxOf m d) j).toNat ≤ 41343

/-! ## The launch theorem's obligation for the gather -/

theorem defs₀_vector (c : Fin τ.nSC) (s : Fin τ.nSub) :
    defs₀ (F := F) (.scVector c s) 0 ()
      = SparseCore.onTile hcore0 hsub0 (fun c s => cc0_gather_kernel (coordsV c s)
          tblW (Memref.isWhole_whole _) idxW (Memref.isWhole_whole _) outW (Memref.isWhole_whole _)
          sA (Memref.isWhole_whole _) sB (Memref.isWhole_whole _) sR (Memref.isWhole_whole _) cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's coordinates of task `i` are tile `i`'s. -/
theorem coords_tile (c : Fin ((K (F := F)).nCore 0)) (i : Fin ((K (F := F)).nSub 0))
    (hc : ((K (F := F)).core 0 c).val < grid0.bound 0) (hi : ((K (F := F)).sub 0 i).val < grid0.bound 1) :
    coordsV ⟨_, hc⟩ ⟨_, hi⟩ = tileL (Fin.cast nSub_zero i) := by
  funext a
  match a with
  | ⟨0, _⟩ => exact Fin.ext (by show ((K (F := F)).core 0 c).val = 0; have := c.isLt; simp only [nCore_zero] at this; have h2 : ((K (F := F)).core 0 c).val = c.val := rfl; omega)
  | ⟨1, _⟩ => exact Fin.ext rfl

theorem tileObl (hF : (K (F := F)).Facts) (hpos : PosOK m) : (K (F := F)).TileObl (D (F := F)) 𝒱 (PP m) v₀ 0 := by
  intro d c i O W hO _ _
  simp only [show (PP m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hL := coords_tile (F := F) c i hc.1 hc.2
  have key := (tile_body (F := F) d (coordsV ⟨_, hc.1⟩ ⟨_, hc.2⟩) (tblOf m d) (idxOf m d)
    (Transfers.shareTok fullShare 16 (Fin.cast nSub_zero i)) hF (hpos d) O W hO).trans
      (wp_mono frame _ _ fun _ => obl_post (q := (0 : Fin 1)))
  show iprop(_ ∗ emp ∗ (tblTok (tblOf m) d (Fin.cast nSub_zero i) ∗ idxPart (idxOf m) d (Fin.cast nSub_zero i)
        ∗ ∃ f, outPart d (Fin.cast nSub_zero i) f) ∗ _ ∗ _ ∗ _)
      ⊢ wp _ _ _ _ (fun _ => iprop((tblTok (tblOf m) d (Fin.cast nSub_zero i) ∗ idxPart (idxOf m) d (Fin.cast nSub_zero i)
        ∗ outPart d (Fin.cast nSub_zero i) (gathOf m d)) ∗ _ ∗ _ ∗ _))
  unfold idxPart outPart
  rw [← hL]
  exact key

/-! ## @main on the TensorCore -/

/-- What the call takes for the one SparseCore, and what it hands back. -/
theorem st0_eq (d : Dev nD) : (bigSep Finset.univ fun c : Fin ((K (F := F)).nCore 0) => (PP m).st 0 d c)
    = iprop(tblPts (tblOf m) d ∗ idxPts (idxOf m) d ∗ ∃ f, outPts d f) := by
  show (bigSep (Finset.univ : Finset (Fin 1)) fun _ => iprop(tblPts (tblOf m) d ∗ idxPts (idxOf m) d ∗ ∃ f, outPts d f)) = _
  rw [show (Finset.univ : Finset (Fin 1)) = {0} by decide, bigSep_singleton]
theorem dn0_eq (d : Dev nD) : (bigSep Finset.univ fun c : Fin ((K (F := F)).nCore 0) => (PP m).dn 0 d c)
    = iprop(tblPts (tblOf m) d ∗ idxPts (idxOf m) d ∗ outPts d (gathOf m d)) := by
  show (bigSep (Finset.univ : Finset (Fin 1)) fun _ => iprop(tblPts (tblOf m) d ∗ idxPts (idxOf m) d ∗ outPts d (gathOf m d))) = _
  rw [show (Finset.univ : Finset (Fin 1)) = {0} by decide, bigSep_singleton]

/-- What the pipelined kernel stores: its value of the scale and of the gathered rows. -/
abbrev VR (d : Dev nD) : Valuation τ sig (Elt F) := V6 m d (gathOf m d)
abbrev resOf (d : Dev nD) : Buf (Elt F) (locOf d main_v6) := resultOf (VR m) d

/-- The wait pairs a thread may have recorded: those at level at most 8. -/
abbrev BW (d : Dev nD) : Set (SemLoc sig × HIx 1) := {p | (K (F := F)).lev (SparseCore.T d, p.1) p.2 ≤ 8}

theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m (gathOf m) (resOf m) d) := by
  unfold SparseCore.Cfg.tcRes
  rw [unscoped_held]
  simp only [main, wp_bind, wp_pure]
  iintro ⟨#Hctx, Hst, ⟨Hb, Hheld, Hs0, Hprng⟩, HG⟩
  iapply (wp_ops_before m d _) $$ [Hb Hheld]
  · isplitl [Hb] <;> iassumption
  iintro ⟨Hb, Hheld⟩
  ihave Hh := (Entails.of_eq (held_V3_call (F := F) m d)) $$ Hheld
  icases Hh with ⟨Ht, Hi, Ho, Hrest⟩
  iapply ((K (F := F)).wp_run (D (F := F)) 𝒱 (EH := EH) (P := PP m) κ d 0) $$ [Hst Ht Hi Ho Hb Hrest Hs0 Hprng HG]
  isplitr; · iexact Hctx
  isplitl [Hst]; · iexact Hst
  isplitl [Ht Hi Ho]
  · rw [st0_eq]
    isplitl [Ht]; · iexact Ht
    isplitl [Hi]; · iexact Hi
    iexists _; iexact Ho
  iintro ⟨Hst, Hdn⟩
  ihave Hdn' := (Entails.of_eq (dn0_eq m d)) $$ Hdn
  icases Hdn' with ⟨Ht, Hi, Ho⟩
  ihave Hheld := (Entails.of_eq (held_V4_call (F := F) m d (gathOf m d)).symm) $$ [Ht Hi Ho Hrest]
  · isplitl [Ht]; · iexact Ht
    isplitl [Hi]; · iexact Hi
    isplitl [Ho]; · iexact Ho
    iexact Hrest
  iapply (wp_ops_between m d (gathOf m d) _) $$ [Hb Hheld]
  · isplitl [Hb] <;> iassumption
  iintro ⟨Hb, Hheld⟩
  -- the pipelined kernel's region: lifted to the extended body table, then the region rule
  ihave Hlev := ((K (F := F)).ctx_levAts κ) $$ Hctx
  unfold SparseCore.Cfg.tcSt
  icases Hst with ⟨⟨%W, %hW, HO⟩, Hat, Hrd, Hrs, Htoks⟩
  rw [(K (F := F)).Otc_end d (le_refl 1)]
  unfold G
  icases HG with ⟨Hcg, Hti⟩
  iapply ((K (F := F)).wp_liftProg (D (F := F)) 𝒱 (SparseCore.T d) Set.univ none
    (.op (.customCall (Pipeline.entry 0) ()) fun _ => .ret PUnit.unit) _)
  iapply (region_step (F := F) (VR m) (BW (F := F)) d (fun _ => .ret PUnit.unit) _) $$ [Hb Hheld HO Hprng Hlev Hcg Hti Hat Hrd Hrs Htoks]
  isplitl [Hat Hrd Hrs Htoks]
  swap
  · isplitl [Hb]; · iexact Hb
    isplitl [Hheld HO Hprng]
    · unfold regionPre
      isplitl [Hheld]; · iexact Hheld
      isplitl [HO]
      · iexists W; isplitr
        · ipureintro; intro p hp; exact hW p hp
        · iexact HO
      · iexists _; iexact Hprng
    isplitl [Hlev]; · iexact Hlev
    isplitl [Hcg]; · iexact Hcg
    iexact Hti
  iintro ⟨Hb, Hpost⟩
  unfold regionPost
  icases Hpost with ⟨Hheld, ⟨%W', %hW', HO⟩, Hprng⟩
  rw [wp_ret]; imodintro
  -- the last host operation, and the TensorCore's state before call 1 put back together
  iapply (wp_op_last m d (gathOf m d) (resOf m d) _) $$ [Hb Hheld]
  · isplitl [Hb]; · iexact Hb
    iexact Hheld
  iintro ⟨Hb, Hheld⟩
  imodintro
  isplitl [HO Hat Hrd Hrs Htoks]
  · isplitl [HO]
    · iexists W'; isplitr
      · ipureintro
        intro p hp
        rcases hW' (Finset.mem_coe.mpr hp) with h | h
        · exact h
        · obtain ⟨w, s, rfl⟩ := h
          exact Nat.zero_le _
      · iexact HO
    isplitl [Hat]; · iexact Hat
    isplitl [Hrd]; · iexact Hrd
    isplitl [Hrs]; · iexact Hrs
    iexact Htoks
  · unfold FIN; iexact Hheld

/-! ## The run -/

/-- At the compiled mesh, from any memory with every semaphore at zero in which every position is at most
    41343: every weakly fair execution of the device's threads ends, nothing faulting, with the result at
    the reshape of what the pipelined kernel stored and the four arguments as they began. -/
theorem run_main [∀ e, Nonempty (Elt F e)] (hpos : PosOK m) :
    θ_run (Cert.KernelIdeal.defs (F := F)) (Cert.KernelIdeal.threads (F := F)) ⟨m, fun _ => 0, ρ⟩ (QC m (gathOf m) (resOf m)) :=
  SparseCore.Cfg.θ_run_sc (K := K (F := F)) (D := D (F := F)) (𝒱 := 𝒱) (EH := EH) (P := PP m) facts v₀
    (fun q hq => match q with | 0 => nomatch hq)
    (fun q _ => match q with | 0 => tileObl m facts hpos)
    (fun q _ => match q with | 0 => SparseCore.Cfg.VecSplit.of_plain (vecSplit (tblOf m) (idxOf m) (gathOf m)))
    m ρ main (G (F := F)) (FIN m (gathOf m) (resOf m)) (u₀ (F := F))
    (sep_elim_left.trans (hu₀ (tblOf m) (idxOf m) (gathOf m))) (hmain m ρ)
    (fq m (gathOf m) (resOf m)) (hfin m (gathOf m) (resOf m)) (QC m (gathOf m) (resOf m)) (hQ m (gathOf m) (resOf m))

/-- The positions' range, from the range of the position array the flat list is a reshape of. -/
theorem posOK_of_range (h : ∀ (d : Dev nD) i, ((m (locOf d main_arg1)) i).toNat ≤ 41343) : PosOK m := by
  intro d j
  show ((V3 m d v2') j).toNat ≤ 41343
  rw [V3_v2]
  exact h d _

end Cert.Mine.KI

end
-- ==== Proof.KernelCtxB.lean ====
/-
  The program as the launch theorem for a program with kernels on the vector subcores sees it, and the
  ghost state its proof is carried in: the launch handshakes' rounds, the rounds of the staging cells of
  the one pipelined kernel on the TensorCore, and the counters of the transfers the gather's tiles make
  and wait for themselves.
-/
import proofs.«212862_g50483045597572_cont_8to1c4_140_39_alg».proof.Kernel
import proofs.«212862_g50483045597572_cont_8to1c4_140_39_alg».proof.Proof.Gen.Kernel
import proofs.«212862_g50483045597572_cont_8to1c4_140_39_alg».proof.Proof.Gen.Kernel.Skeleton
import proofs.«212862_g50483045597572_cont_8to1c4_140_39_alg».proof.Proof.Gen.Kernel.Launch
import proofs.«212862_g50483045597572_cont_8to1c4_140_39_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Mine.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's staging cells' rounds. -/
abbrev UP : Type := URounds (GSem nD τ sig) Unit
/-- All three side by side; the counters last, where they are found by instance. -/
abbrev UU : Type := UH × (UP × Counters)

/-- The handshakes' component. -/
abbrev EH [FloatOps F] : Emb UH (MT nD τ sig (HIx 1) (Elt F) ℕ UU ℕ) := embL
/-- The staging cells' component. -/
def EP [FloatOps F] : Emb UP (MT nD τ sig (HIx 1) (Elt F) ℕ UU ℕ) :=
  (Emb.inl : Emb UP (UP × Counters)).trans embR

instance EP_landsIn [FloatOps F] : (EP (F := F)).LandsIn (upEmb : UEmb _ (MT nD τ sig (HIx 1) (Elt F) ℕ UU ℕ)) := by
  unfold EP; infer_instance

end Cert.Mine.KB

end
-- ==== Proof.TileDefsB.lean ====
/-
  The gather's sixteen tiles: what each is handed, named. Tile `w` works on entries 32w … 32w+31 of the flat
  list of 512 positions and on rows 32w … 32w+31 of the result; all of them read the one table. Here are the
  arrays and the tile's own memory as the tile's program addresses them, its three semaphores and three
  buffers picked out of what a vector subcore owns, and the offset `41344 * (w / 2)` the tile adds to its
  positions (two consecutive tiles share an image).
-/
import proofs.«212862_g50483045597572_cont_8to1c4_140_39_alg».proof.Proof.KernelCtxB
import Idealize.ShloMosaic.Lib.SparseCore.Ops
import Idealize.ShloMosaic.Lib.Pipeline.Value
import Idealize.ShloMosaic.Lib.WritesUnit

noncomputable section

namespace Cert.Mine.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays and the scratch, as the body table passes them -/

abbrev tLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

abbrev tblW : Memref sig .scVector .hbm S330752x128 .f32 := Memref.whole main_v1_scv
abbrev idxW : Memref sig .scVector .hbm S512 .i32 := Memref.whole main_v2_scv
abbrev outW : Memref sig .scVector .hbm S512x128 .f32 := Memref.whole main_v3_scv
abbrev sA : Memref sig .scVector .vmem S32 .i32 := Memref.whole cc0_scratch0
abbrev sB : Memref sig .scVector .vmem S32 .i32 := Memref.whole cc0_scratch1
abbrev sR : Memref sig .scVector .vmem S32x128 .f32 := Memref.whole cc0_scratch2

def coordsV (c : Fin (grid0.bound 0)) (s : Fin (grid0.bound 1)) : grid0.Coords :=
  fun | 0 => c | 1 => s | ⟨_ + 2, h⟩ => absurd h (Nat.not_lt.2 (Nat.le_add_left _ _))

variable (d : Dev nD) (L : grid0.Coords)

abbrev cV (L : grid0.Coords) : Fin τ.nSC := (L 0).castLE hcore0
abbrev jV (L : grid0.Coords) : Fin τ.nSub := (L 1).castLE hsub0

/-- Tile `L`'s 32 entries of the list, and its 32 rows of the result, sliced as the program slices them. -/
abbrev idxSl (L : grid0.Coords) : Memref sig .scVector .hbm S32 .i32 :=
  (idxW).slice (Rect.unit (s := S512) (k0_off1 L) S32.size (k0_off1_inb L)) (fun _ => rfl)
abbrev outSl (L : grid0.Coords) : Memref sig .scVector .hbm S32x128 .f32 :=
  (outW).slice (Rect.unit (s := S512x128) (k0_off2 L) S32x128.size (k0_off2_inb L)) (fun _ => rfl)

/-! ## The tile's own semaphores and buffers -/

abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch3.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The task's resources, as the device holds them and as the tile's memrefs address them -/

section Task

variable (tbl : Buf (Elt F) (tLoc d)) (idx : Buf (Elt F) (iLoc d)) (q : PosShare TreeShare)

abbrev thrV : Thread nD τ := V d (cV L) (jV L)

/-- The elements of the list and of the result that are tile `L`'s. -/
abbrev idxSet (L : grid0.Coords) : Finset S512.Idx := (idxSl L).view.set
abbrev outSet (L : grid0.Coords) : Finset S512x128.Idx := (outSl L).view.set

omit [FloatOps F] in
theorem pts_tbl (f : Buf (Elt F) (tLoc d)) :
    ((tblW).view.loc (thrV d L) ↦{q} f : sProp 𝕄) = tLoc d ↦{q} f := by
  simp only [Memref.view_whole, View.set_whole]
omit [FloatOps F] in
theorem pts_idxSl (f : Buf (Elt F) (iLoc d)) :
    ((idxSl L).view.loc (thrV d L) ↦[(idxSl L).view.set]{fullShare} f : sProp 𝕄) = iLoc d ↦[idxSet L]{fullShare} f := rfl
omit [FloatOps F] in
theorem pts_outSl (f : Buf (Elt F) (oLoc d)) :
    ((outSl L).view.loc (thrV d L) ↦[(outSl L).view.set]{fullShare} f : sProp 𝕄) = oLoc d ↦[outSet L]{fullShare} f := rfl
omit [FloatOps F] in
theorem pts_sA (f : Buf (Elt F) ((thrV d L).loc cc0_scratch0)) :
    ((sA).view.loc (thrV d L) ↦{fullShare} f : sProp 𝕄) = (thrV d L).loc cc0_scratch0 ↦{fullShare} f := rfl
omit [FloatOps F] in
theorem pts_sB (f : Buf (Elt F) ((thrV d L).loc cc0_scratch1)) :
    ((sB).view.loc (thrV d L) ↦{fullShare} f : sProp 𝕄) = (thrV d L).loc cc0_scratch1 ↦{fullShare} f := rfl
omit [FloatOps F] in
theorem pts_sR (f : Buf (Elt F) ((thrV d L).loc cc0_scratch2)) :
    ((sR).view.loc (thrV d L) ↦{fullShare} f : sProp 𝕄) = (thrV d L).loc cc0_scratch2 ↦{fullShare} f := rfl

end Task

/-! ## The offsets the tile forms -/

/-- The offset of the image that tile `i`'s rows belong to, as the program computes it: 41344 times the
    quotient of `32 * i 1` by 64, the quotient rounded towards minus infinity the way the program spells it. -/
def imgOff (i : grid0.Coords) : BitVec 32 :=
  let arg1 : BitVec 32 := BitVec.ofNat 32 (i 1).val
  let v0 : BitVec 32 := Scalar.muli arg1 32#32
  let v1 : BitVec 32 := Scalar.divsi v0 64#32
  let v2 : BitVec 1 := Scalar.cmpi .sgt v0 0#32
  let v3 : BitVec 32 := Scalar.extui v2
  let v4 : BitVec 1 := Scalar.cmpi .slt v0 0#32
  let v5 : BitVec 32 := Scalar.extui v4
  let v6 : BitVec 32 := Scalar.subi v3 v5
  let v7 : BitVec 1 := Scalar.cmpi .sgt 64#32 0#32
  let v8 : BitVec 32 := Scalar.extui v7
  let v9 : BitVec 1 := Scalar.cmpi .slt 64#32 0#32
  let v10 : BitVec 32 := Scalar.extui v9
  let v11 : BitVec 32 := Scalar.subi v8 v10
  let v12 : BitVec 1 := Scalar.cmpi .ne v6 v11
  let v13 : BitVec 32 := Scalar.remsi v0 64#32
  let v14 : BitVec 1 := Scalar.cmpi .ne v13 0#32
  let v15 : BitVec 1 := Scalar.andi v12 v14
  let v16 : BitVec 32 := Scalar.subi v1 1#32
  let v17 : BitVec 32 := Scalar.select v15 v16 v1
  Scalar.muli v17 41344#32

/-- Two consecutive tiles share an image: the offset is `41344 * (i 1 / 2)`. -/
theorem imgOff_eq : ∀ i : grid0.Coords, imgOff i = BitVec.ofNat 32 ((i 1).val / 2 * 41344) := by decide +kernel

/-- The list the tile stores: each of its positions plus the image's offset. -/
theorem k0_pay1_apply (v : Vec F S32 .i32) (x : S32.Idx) : k0_pay1 (F := F) L v x = v x + imgOff L := by
  unfold k0_pay1 imgOff
  simp only [shapeCast_self]
  rfl

end Cert.Mine.KB

end
-- ==== Proof.KernelPayB.lean ====
/-
  What the launch handshakes carry for the gather. The TensorCore's start hands the one SparseCore the table
  and the flat list of positions, both whole, and the result array at whatever it holds; the sequencer's go
  hands tile `i` a read token of the table, entries 32i … 32i+31 of the list and rows 32i … 32i+31 of the
  result; each tile hands its part back with its rows at the gathered values, and the done signal returns
  the three arrays whole, the result at the gathered array.
-/
import proofs.«212862_g50483045597572_cont_8to1c4_140_39_alg».proof.Proof.TileDefsB

noncomputable section

namespace Cert.Mine.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem bound_zero : grid0.bound 0 = 1 := rfl
theorem bound_one : grid0.bound 1 = 16 := rfl

/-- Tile `i`'s coordinates: the one SparseCore, vector subcore `i`. -/
def tileL (i : Fin 16) : grid0.Coords := coordsV (Fin.cast bound_zero.symm 0) (Fin.cast bound_one.symm i)

variable (tbl : (d : Dev nD) → Buf (Elt F) (tLoc d)) (idx : (d : Dev nD) → Buf (Elt F) (iLoc d))
  (G : (d : Dev nD) → Buf (Elt F) (oLoc d))

/-- The three arrays whole, as the TensorCore holds them. -/
abbrev tblPts (d : Dev nD) : sProp 𝕄 := tLoc d ↦{fullShare} tbl d
abbrev idxPts (d : Dev nD) : sProp 𝕄 := iLoc d ↦{fullShare} idx d
abbrev outPts (d : Dev nD) (f : Buf (Elt F) (oLoc d)) : sProp 𝕄 := oLoc d ↦{fullShare} f

/-- Tile `i`'s read token of the table, its entries of the list, its rows of the result. -/
abbrev tblTok (d : Dev nD) (i : Fin 16) : sProp 𝕄 := tLoc d ↦{Transfers.shareTok fullShare 16 i} tbl d
abbrev idxPart (d : Dev nD) (i : Fin 16) : sProp 𝕄 := iLoc d ↦[idxSet (tileL i)]{fullShare} idx d
abbrev outPart (d : Dev nD) (i : Fin 16) (f : Buf (Elt F) (oLoc d)) : sProp 𝕄 := oLoc d ↦[outSet (tileL i)]{fullShare} f

/-- The one call's payloads. -/
def P : (K (F := F)).Pay (nD := nD) (Val := Elt F) (Name := ℕ) (U := UU) where
  st := fun q d _ => match q with | 0 => iprop(tblPts tbl d ∗ idxPts idx d ∗ ∃ f, outPts d f)
  dn := fun q d _ => match q with | 0 => iprop(tblPts tbl d ∗ idxPts idx d ∗ outPts d (G d))
  go := fun q d _ i => match q with
    | 0 => iprop(tblTok tbl d (Fin.cast nSub_zero i) ∗ idxPart idx d (Fin.cast nSub_zero i) ∗ ∃ f, outPart d (Fin.cast nSub_zero i) f)
  td := fun q d _ i => match q with
    | 0 => iprop(tblTok tbl d (Fin.cast nSub_zero i) ∗ idxPart idx d (Fin.cast nSub_zero i) ∗ outPart d (Fin.cast nSub_zero i) (G d))
  x := fun _ _ => iprop(emp)

instance P_storable : (P (F := F) tbl idx G).IsStorable where
  st q d _ := match q with
    | 0 => (inferInstance : BI.Storable (upEmb : UEmb _ 𝕄) iprop(tblPts tbl d ∗ idxPts idx d ∗ ∃ f, outPts d f))
  dn q d _ := match q with
    | 0 => (inferInstance : BI.Storable (upEmb : UEmb _ 𝕄) iprop(tblPts tbl d ∗ idxPts idx d ∗ outPts d (G d)))
  go q d _ i := match q with
    | 0 => (inferInstance : BI.Storable (upEmb : UEmb _ 𝕄)
        iprop(tblTok tbl d (Fin.cast nSub_zero i) ∗ idxPart idx d (Fin.cast nSub_zero i) ∗ ∃ f, outPart d (Fin.cast nSub_zero i) f))
  td q d _ i := match q with
    | 0 => (inferInstance : BI.Storable (upEmb : UEmb _ 𝕄)
        iprop(tblTok tbl d (Fin.cast nSub_zero i) ∗ idxPart idx d (Fin.cast nSub_zero i) ∗ outPart d (Fin.cast nSub_zero i) (G d)))

end Cert.Mine.KB

end
-- ==== Proof.TileBodyB.lean ====
/-
  One tile's task of the gather. Tile `L` copies its 32 positions into its own memory, adds to each the
  offset of the image its rows belong to, has the engine gather the 32 table rows those sums name, and
  copies them out as its 32 rows of the result. Each of the three transfers is waited for before anything
  touches its ends, each on a semaphore of its own, so the task needs no schedule: it runs from the tile's
  share of the three arrays and its own scratch to the same, its rows of the result at the gathered values.

  The gathered array: row `r` of the result is table row `idx[r] + 41344 * (r / 64)`.
-/
import proofs.«212862_g50483045597572_cont_8to1c4_140_39_alg».proof.Proof.KernelPayB
import Idealize.ShloMosaic.Lib.Pipeline.FrameBody
import Idealize.ShloMosaic.Lib.ValueIdx

noncomputable section

namespace Cert.Mine.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

/-! ## The gathered array -/

/-- Row `r` of the result is the table's row `idx[r] + 41344 * (r / 64)` (reduced below the table's height,
    which it is below whenever every position is at most 41343). -/
def gathered (d : Dev nD) (tbl : Buf (Elt F) (tLoc d)) (idx : Buf (Elt F) (iLoc d)) : Buf (Elt F) (oLoc d) :=
  fun j => tbl (ix2 (n0 := 330752) (n1 := 128)
    ⟨((idx (ix1 (n := 512) (j 0))).toNat + (j 0).val / 64 * 41344) % 330752, Nat.mod_lt _ (by norm_num)⟩ (j 1))

section Task

variable (d : Dev nD) (L : grid0.Coords)
variable (tbl : Buf (Elt F) (tLoc d)) (idx : Buf (Elt F) (iLoc d)) (q : PosShare TreeShare)

/-- The whole-buffer rectangle of a 32-entry scratch list. -/
abbrev rA : Rect S32 := Rect.unit (s := S32) ![0] S32.size inb_S32_S32_0

/-- What the tile finds in its first scratch list once its entries of the flat list have landed there. -/
abbrev landed (fa : Buf (Elt F) ((thrV d L).loc cc0_scratch0)) : Vec F S32 .i32 :=
  View.readAt (Elt F) (sA).view (rA).toLoadRect
    (View.write (Elt F) (sA).view fa (ReadAs.same.apply (View.read (Elt F) (idxSl L).view idx)) Finset.univ)

theorem landed_apply (fa : Buf (Elt F) ((thrV d L).loc cc0_scratch0)) (x : S32.Idx) :
    landed d L idx fa x = idx ((idxSl L).view.emb x) := by
  unfold landed
  rw [View.readAt_eq_ld, View.read_write_univ, View.ld_unit_zero (S := S32) (by funext a; match a with | ⟨0, _⟩ => rfl)]
  rfl

/-- Tile `L`'s `x`-th position, a 32-bit word. -/
abbrev idxAt (x : S32.Idx) : BitVec 32 := idx ((idxSl L).view.emb x)

/-- The second scratch list as the tile leaves it: each position plus the image's offset. -/
theorem list_apply (fa : Buf (Elt F) ((thrV d L).loc cc0_scratch0)) (g : Buf (Elt F) ((sB).view.loc (thrV d L))) (x : S32.Idx) :
    (sB).view.read (Elt F) ((sB).view.writes (Elt F) g [⟨rA, k0_pay1 (F := F) L (landed d L idx fa)⟩]) x
      = idxAt d L idx x + imgOff L := by
  unfold idxAt
  rw [View.read_writes_cons_unit_of_mem (sB).view g inb_S32_S32_0 _ [] x x rfl
      (fun a => by match a with | ⟨0, _⟩ => exact (Nat.zero_add _).symm),
    k0_pay1_apply, landed_apply]

/-- As a number: no wrap-around, since a position is at most 41343 and the offset at most `7 * 41344`. -/
theorem list_toNat (hidx : ∀ j, (idx j).toNat ≤ 41343) (x : S32.Idx) :
    (idxAt d L idx x + imgOff L).toNat = (idxAt d L idx x).toNat + (L 1).val / 2 * 41344 := by
  unfold idxAt
  have h1 := hidx ((idxSl L).view.emb x)
  have h2 : (L 1).val < 16 := (L 1).isLt
  have h3 : (L 1).val / 2 ≤ 7 := by omega
  have h4 : (L 1).val / 2 * 41344 ≤ 289408 := by omega
  rw [imgOff_eq, BitVec.toNat_add, BitVec.toNat_ofNat, Nat.mod_eq_of_lt (by omega : (L 1).val / 2 * 41344 < 2 ^ 32),
    Nat.mod_eq_of_lt (by omega)]

/-- Every row number the tile hands the engine names a row of the table. -/
theorem offsets_inb (hidx : ∀ j, (idx j).toNat ≤ 41343) (fa : Buf (Elt F) ((thrV d L).loc cc0_scratch0))
    (g : Buf (Elt F) ((sB).view.loc (thrV d L))) (x : S32.Idx) :
    ((sB).view.read (Elt F) ((sB).view.writes (Elt F) g [⟨rA, k0_pay1 (F := F) L (landed d L idx fa)⟩]) x).toNat < 330752 := by
  rw [list_apply, list_toNat d L idx hidx]
  have h1 : (idxAt d L idx x).toNat ≤ 41343 := hidx ((idxSl L).view.emb x)
  have h2 : (L 1).val < 16 := (L 1).isLt
  omega

end Task

section Value

variable (d : Dev nD) (L : grid0.Coords)
variable (tbl : Buf (Elt F) (tLoc d)) (idx : Buf (Elt F) (iLoc d))

/-- Entry `x` of tile `L`'s part of the list is entry `32 * L 1 + x` of the list. -/
theorem idxSl_emb_val (x : S32.Idx) : (((idxSl L).view.emb x : S512.Idx) 0).val = 32 * (L 1).val + (x 0).val := by
  show k0_off1 L 0 + 1 * (x 0).val = _
  rw [k0_off1_eq]; simp

/-- Row `y 0` of tile `L`'s rows is row `32 * L 1 + y 0` of the result; the column is the column. -/
theorem outSl_emb_val0 (y : S32x128.Idx) : (((outSl L).view.emb y : S512x128.Idx) 0).val = 32 * (L 1).val + (y 0).val := by
  show k0_off2 L 0 + 1 * (y 0).val = _
  rw [k0_off2_eq]; simp
theorem outSl_emb_val1 (y : S32x128.Idx) : (((outSl L).view.emb y : S512x128.Idx) 1).val = (y 1).val := by
  show k0_off2 L 1 + 1 * (y 1).val = _
  rw [k0_off2_eq]; simp

/-- What the gather lands in local row `y 0`, column `y 1` of the tile's rows is the gathered array there. -/
theorem rows_value (hidx : ∀ j, (idx j).toNat ≤ 41343) (fa : Buf (Elt F) ((thrV d L).loc cc0_scratch0))
    (hin : ∀ (g : Buf (Elt F) ((sB).view.loc (thrV d L))) (x : S32.Idx),
      ((sB).view.read (Elt F) ((sB).view.writes (Elt F) g [⟨rA, k0_pay1 (F := F) L (landed d L idx fa)⟩]) x).toNat < 330752)
    (y : S32x128.Idx) :
    SparseCore.gatherPayload (F := F) gathers_S330752x128_S32x128
        (View.read (Elt F) ((tblW).slice (Rect.unit (s := S330752x128) ![0, 0] S330752x128.size inb_S330752x128_S330752x128_0_0) (fun _ => rfl)).view tbl)
        (SparseCore.rows (View.read (Elt F) (sB).view ((sB).view.writes (Elt F) (sB).view.junk [⟨rA, k0_pay1 (F := F) L (landed d L idx fa)⟩]))
          rfl (hin _)) y
      = gathered d tbl idx ((outSl L).view.emb y) := by
  unfold SparseCore.gatherPayload gathered
  rw [View.read_apply]
  show tbl _ = tbl _
  refine congrArg tbl (funext fun a => Fin.ext ?_)
  match a with
  | ⟨0, h0⟩ =>
    show 0 + 1 * ((gathers_S330752x128_S32x128.idx _ y) ⟨0, _⟩).val = _
    rw [Nat.zero_add, Nat.one_mul]
    refine (congrArg Fin.val (Shape.Gathers.idx_axis gathers_S330752x128_S32x128 _ y)).trans ?_
    unfold SparseCore.rows
    dsimp only
    rw [list_apply, list_toNat d L idx hidx]
    have hJ := outSl_emb_val0 L y
    have hy : (y 0).val < 32 := (y 0).isLt
    have hL : (L 1).val < 16 := (L 1).isLt
    -- the list entry read on the left is the one the gathered array names on the right
    have hE : ∀ k : Fin S32.numel, k.val = (y 0).val →
        ((idxSl L).view.emb (S32.rowMajor.symm k) : S512.Idx) = ix1 (n := 512) ((outSl L).view.emb y 0) := fun k hk => by
      have hX0 : ((S32.rowMajor.symm k : S32.Idx) 0).val = k.val := by
        have := Shape.rowMajor_val_one (d := ![32]) (S32.rowMajor.symm k)
        rw [Equiv.apply_symm_apply] at this; exact this.symm
      funext b; match b with
      | ⟨0, _⟩ => exact Fin.ext ((idxSl_emb_val L _).trans (by rw [hX0, hk]; exact hJ.symm))
    have hA := hidx (ix1 (n := 512) ((outSl L).view.emb y 0))
    have fin : ∀ (A J0 : ℕ), A ≤ 41343 → J0 = 32 * (L 1).val + (y 0).val →
        A + (L 1).val / 2 * 41344 = (A + J0 / 64 * 41344) % 330752 := by
      intro A J0 hA hJ0; subst hJ0; omega
    exact (congrArg (fun z => (idx z).toNat + (L 1).val / 2 * 41344) (hE _ rfl)).trans (fin _ _ hA hJ)
  | ⟨1, h1⟩ =>
    show 0 + 1 * ((gathers_S330752x128_S32x128.idx _ y) ⟨1, _⟩).val = _
    rw [Nat.zero_add, Nat.one_mul, Shape.Gathers.idx_of_ne gathers_S330752x128_S32x128 _ y ⟨1, h1⟩ Nat.one_ne_zero]
    exact (outSl_emb_val1 L y).symm

end Value

section Run

variable (d : Dev nD) (L : grid0.Coords)
variable (tbl : Buf (Elt F) (tLoc d)) (idx : Buf (Elt F) (iLoc d)) (q : PosShare TreeShare)

/-- The tile's rows of the result after its copy-out are the gathered array's: the scratch rows read back are
    what the gather landed, and copied whole they are what the result's rows hold. -/
theorem out_value (hidx : ∀ j, (idx j).toNat ≤ 41343) (fa : Buf (Elt F) ((thrV d L).loc cc0_scratch0))
    (fr : Buf (Elt F) ((sR).view.loc (thrV d L))) (fo : Buf (Elt F) (oLoc d))
    (hin : ∀ (g : Buf (Elt F) ((sB).view.loc (thrV d L))) (x : S32.Idx),
      ((sB).view.read (Elt F) ((sB).view.writes (Elt F) g [⟨rA, k0_pay1 (F := F) L (landed d L idx fa)⟩]) x).toNat < 330752) :
    ∀ i ∈ outSet L,
      ((outSl L).view.writes (Elt F) fo [⟨Rect.whole S32x128, ReadAs.same.apply (View.read (Elt F) (sR).view
        ((sR).view.writes (Elt F) fr [⟨Rect.whole S32x128, SparseCore.gatherPayload (F := F) gathers_S330752x128_S32x128
          (View.read (Elt F) ((tblW).slice (Rect.unit (s := S330752x128) ![0, 0] S330752x128.size inb_S330752x128_S330752x128_0_0) (fun _ => rfl)).view tbl)
          (SparseCore.rows (View.read (Elt F) (sB).view ((sB).view.writes (Elt F) (sB).view.junk [⟨rA, k0_pay1 (F := F) L (landed d L idx fa)⟩]))
            rfl (hin _))⟩]))⟩]) i
        = gathered d tbl idx i := by
  intro i hi
  obtain ⟨y, rfl⟩ := View.exists_emb_of_mem_set (outSl L).view hi
  have h1 := View.read_writes_cons_emb (outSl L).view fo (Rect.whole S32x128) (ReadAs.same.apply (View.read (Elt F) (sR).view
        ((sR).view.writes (Elt F) fr [⟨Rect.whole S32x128, SparseCore.gatherPayload (F := F) gathers_S330752x128_S32x128
          (View.read (Elt F) ((tblW).slice (Rect.unit (s := S330752x128) ![0, 0] S330752x128.size inb_S330752x128_S330752x128_0_0) (fun _ => rfl)).view tbl)
          (SparseCore.rows (View.read (Elt F) (sB).view ((sB).view.writes (Elt F) (sB).view.junk [⟨rA, k0_pay1 (F := F) L (landed d L idx fa)⟩]))
            rfl (hin _))⟩]))) [] y
  rw [Rect.emb_whole_apply] at h1
  refine (show _ = _ from h1).trans ?_
  have h2 := View.read_writes_cons_emb (sR).view fr (Rect.whole S32x128) (SparseCore.gatherPayload (F := F) gathers_S330752x128_S32x128
          (View.read (Elt F) ((tblW).slice (Rect.unit (s := S330752x128) ![0, 0] S330752x128.size inb_S330752x128_S330752x128_0_0) (fun _ => rfl)).view tbl)
          (SparseCore.rows (View.read (Elt F) (sB).view ((sB).view.writes (Elt F) (sB).view.junk [⟨rA, k0_pay1 (F := F) L (landed d L idx fa)⟩]))
            rfl (hin _))) [] y
  rw [Rect.emb_whole_apply] at h2
  exact (show _ = _ from h2).trans (rows_value d L tbl idx hidx fa hin y)

/-- The task: from the tile's token of the table, its entries of the list and its rows of the result, with the
    tile's own scratch and semaphores, to the same with its rows at the gathered array. -/
theorem tile_body (hF : (K (F := F)).Facts) (hidx : ∀ j, (idx j).toNat ≤ 41343)
    (O : CellTallies nD τ sig (HIx 1)) (W : Waits sig (HIx 1)) (hO : ∀ g, O g none = 0) :
    iprop((levAts (K (F := F)).L (K (F := F)).lev : sProp 𝕄) ∗ emp
        ∗ ((tLoc d ↦{q} tbl) ∗ (iLoc d ↦[idxSet L]{fullShare} idx) ∗ ∃ f : Buf (Elt F) (oLoc d), oLoc d ↦[outSet L]{fullShare} f)
        ∗ scopedBufs (thrV d L) ∗ scopedSems0 (thrV d L) ∗ owes (thrV d L) O W)
      ⊢ wp frame (wpE (defs₀ (F := F)) 𝒱₀ (thrV d L) none) Set.univ
          (cc0_gather_kernel L tblW (Memref.isWhole_whole _) idxW (Memref.isWhole_whole _) outW (Memref.isWhole_whole _)
            sA (Memref.isWhole_whole _) sB (Memref.isWhole_whole _) sR (Memref.isWhole_whole _) cc0_scratch3 cc0_scoped0 cc0_scoped1)
          fun _ => iprop(((tLoc d ↦{q} tbl) ∗ (iLoc d ↦[idxSet L]{fullShare} idx) ∗ (oLoc d ↦[outSet L]{fullShare} gathered d tbl idx))
            ∗ scopedBufs (thrV d L) ∗ scopedSems0 (thrV d L)
            ∗ ∃ W', ⌜∀ p ∈ W', p ∈ W ∨ p.2 = none⌝ ∗ owes (thrV d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Ht, Hi, %fo, Ho⟩, ⟨⟨%fa, Ha⟩, ⟨%fb, Hb⟩, ⟨%fr, Hr⟩, Hbufs⟩, ⟨HsemA, HsemG, HsemB, Hsems⟩, HO⟩
  ihave Hmw := ((K (F := F)).mayWaits_none (thr := thrV d L) hO) $$ Hlv
  ihave Ht' := (Entails.of_eq (pts_tbl (F := F) d L q _).symm) $$ Ht
  ihave Hi' := (Entails.of_eq (pts_idxSl (F := F) d L _).symm) $$ Hi
  ihave Ho' := (Entails.of_eq (pts_outSl (F := F) d L _).symm) $$ Ho
  ihave Ha' := (Entails.of_eq (pts_sA (F := F) d L _).symm) $$ Ha
  ihave Hb' := (Entails.of_eq (pts_sB (F := F) d L _).symm) $$ Hb
  ihave Hr' := (Entails.of_eq (pts_sR (F := F) d L _).symm) $$ Hr
  have hin := offsets_inb (F := F) d L idx hidx fa
  sl_exec
  sl_step
  isplitl [Ht' Hi' Ho']
  · isplitl [Ht']; · iapply (Entails.of_eq (pts_tbl (F := F) d L q _)); iexact Ht'
    isplitl [Hi']; · iapply (Entails.of_eq (pts_idxSl (F := F) d L _)); iexact Hi'
    iapply (Entails.of_eq ((pts_outSl (F := F) d L _).trans (pointsTo_congr (out_value d L tbl idx hidx fa fr fo hin))))
    iexact Ho'
  isplitl [Ha' Hb' Hr' Hbufs]
  · isplitl [Ha']; · iexists _; iapply (Entails.of_eq (pts_sA (F := F) d L _)); iexact Ha'
    isplitl [Hb']; · iexists _; iapply (Entails.of_eq (pts_sB (F := F) d L _)); iexact Hb'
    isplitl [Hr']; · iexists _; iapply (Entails.of_eq (pts_sR (F := F) d L _)); iexact Hr'
    iexact Hbufs
  isplitl [HsemA HsemG HsemB Hsems]
  · isplitl [HsemA]; · iexact HsemA
    isplitl [HsemG]; · iexact HsemG
    isplitl [HsemB]; · iexact HsemB
    iexact Hsems
  iexists _; isplitr
  swap; · iexact HO
  ipureintro
  intro p hp
  simp only [Finset.mem_insert] at hp
  rcases hp with hp | hp | hp | hp
  · exact .inr (hp ▸ rfl)
  · exact .inr (hp ▸ rfl)
  · exact .inr (hp ▸ rfl)
  · exact .inl hp

end Run

end Cert.Mine.KB

end
-- ==== Proof.VecSplitB.lean ====
/-
  How the one SparseCore's operands split into its sixteen tiles' tasks, and how the tiles' results gather
  back. The flat list of 512 positions is cut into sixteen runs of 32 consecutive entries and the 512 x 128
  result into sixteen bands of 32 consecutive rows: tile `i` gets run `i` and band `i`. The runs are pairwise
  disjoint and cover the list, the bands likewise the result, so a whole array is the sixteen parts side by
  side, at the same contents. The table is not cut: a full share of it is sixteen read tokens, one per tile,
  and a remainder that stays with the sequencer until the tokens come back.
-/
import proofs.«212862_g50483045597572_cont_8to1c4_140_39_alg».proof.Proof.KernelPayB

noncomputable section

namespace Cert.Mine.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The sixteen runs of the list and the sixteen bands of the result -/

theorem hdivI : 16 ∣ S512.size 0 := ⟨32, rfl⟩
theorem hdivO : 16 ∣ S512x128.size 0 := ⟨32, rfl⟩

/-- Run `i`: entries 32i … 32i+31. -/
abbrev idxRun (i : Fin 16) : Rect S512 := Rect.part (s := S512) (a₀ := 0) hdivI i
/-- Band `i`: rows 32i … 32i+31, every column. -/
abbrev outBand (i : Fin 16) : Rect S512x128 := Rect.part (s := S512x128) (a₀ := 0) hdivO i

theorem tileL_one (i : Fin 16) : ((tileL i) 1).val = i.val := rfl

/-- The rectangle tile `i` slices out of the list is run `i`. -/
theorem idxRect_eq (i : Fin 16) :
    Rect.unit (s := S512) (k0_off1 (tileL i)) S32.size (k0_off1_inb (tileL i)) = idxRun i := by
  unfold idxRun Rect.part Rect.block
  congr 1 <;> funext a
  · rw [k0_off1_eq]
    match a with
    | 0 => simp [Shape.partIx, Shape.partSize, tileL_one]; omega
  · match a with
    | 0 => simp [Shape.partSize]

/-- The rectangle tile `i` slices out of the result is band `i`. -/
theorem outRect_eq (i : Fin 16) :
    Rect.unit (s := S512x128) (k0_off2 (tileL i)) S32x128.size (k0_off2_inb (tileL i)) = outBand i := by
  unfold outBand Rect.part Rect.block
  congr 1 <;> funext a
  · rw [k0_off2_eq]
    match a with
    | 0 => simp [Shape.partIx, Shape.partSize, tileL_one]; omega
    | 1 => simp [Shape.partIx, Shape.partSize]
  · match a with
    | 0 => simp [Shape.partSize]
    | 1 => simp [Shape.partSize]

theorem idxSet_eq (i : Fin 16) : idxSet (tileL i) = (idxRun i).set := by
  show ((View.whole (main_v2_scv : Ref sig .scVector)).slice
    (Rect.unit (s := S512) (k0_off1 (tileL i)) S32.size (k0_off1_inb (tileL i)))).set = _
  rw [View.set_slice_whole, idxRect_eq]

theorem outSet_eq (i : Fin 16) : outSet (tileL i) = (outBand i).set := by
  show ((View.whole (main_v3_scv : Ref sig .scVector)).slice
    (Rect.unit (s := S512x128) (k0_off2 (tileL i)) S32x128.size (k0_off2_inb (tileL i)))).set = _
  rw [View.set_slice_whole, outRect_eq]

theorem idx_disjoint : ∀ i ∈ (Finset.univ : Finset (Fin 16)), ∀ j ∈ (Finset.univ : Finset (Fin 16)), i ≠ j →
    Disjoint (idxSet (tileL i)) (idxSet (tileL j)) :=
  fun i _ j _ h => by rw [idxSet_eq, idxSet_eq]; exact Rect.part_disjoint hdivI h
theorem idx_cover : (Finset.univ : Finset (Fin 16)).biUnion (fun i => idxSet (tileL i)) = Finset.univ :=
  (Finset.biUnion_congr rfl fun i _ => idxSet_eq i).trans (Rect.biUnion_part hdivI)

theorem out_disjoint : ∀ i ∈ (Finset.univ : Finset (Fin 16)), ∀ j ∈ (Finset.univ : Finset (Fin 16)), i ≠ j →
    Disjoint (outSet (tileL i)) (outSet (tileL j)) :=
  fun i _ j _ h => by rw [outSet_eq, outSet_eq]; exact Rect.part_disjoint hdivO h
theorem out_cover : (Finset.univ : Finset (Fin 16)).biUnion (fun i => outSet (tileL i)) = Finset.univ :=
  (Finset.biUnion_congr rfl fun i _ => outSet_eq i).trans (Rect.biUnion_part hdivO)

/-! ## A whole array is its sixteen parts, at the same contents -/

omit [FloatOps F] in
theorem idxPts_parts (d : Dev nD) (f : Buf (Elt F) (iLoc d)) :
    (iLoc d ↦{fullShare} f : sProp 𝕄) = bigSep Finset.univ fun i : Fin 16 => iLoc d ↦[idxSet (tileL i)]{fullShare} f := by
  rw [← pointsTo_biUnion Finset.univ (ℓ := iLoc d) (fun i : Fin 16 => idxSet (tileL i)) idx_disjoint, idx_cover]; try rfl
omit [FloatOps F] in
theorem outPts_parts (d : Dev nD) (f : Buf (Elt F) (oLoc d)) :
    (oLoc d ↦{fullShare} f : sProp 𝕄) = bigSep Finset.univ fun i : Fin 16 => oLoc d ↦[outSet (tileL i)]{fullShare} f := by
  rw [← pointsTo_biUnion Finset.univ (ℓ := oLoc d) (fun i : Fin 16 => outSet (tileL i)) out_disjoint, out_cover]; try rfl

omit [FloatOps F] in
theorem idxPts_split (d : Dev nD) (f : Buf (Elt F) (iLoc d)) :
    (iLoc d ↦{fullShare} f : sProp 𝕄) ⊢ bigSep Finset.univ fun i : Fin 16 => iLoc d ↦[idxSet (tileL i)]{fullShare} f := by
  rw [← idxPts_parts (F := F) d f]
omit [FloatOps F] in
theorem idxPts_join (d : Dev nD) (f : Buf (Elt F) (iLoc d)) :
    (bigSep Finset.univ fun i : Fin 16 => iLoc d ↦[idxSet (tileL i)]{fullShare} f) ⊢ (iLoc d ↦{fullShare} f : sProp 𝕄) := by
  rw [← idxPts_parts (F := F) d f]
omit [FloatOps F] in
theorem outPts_split (d : Dev nD) (f : Buf (Elt F) (oLoc d)) :
    (oLoc d ↦{fullShare} f : sProp 𝕄) ⊢ bigSep Finset.univ fun i : Fin 16 => oLoc d ↦[outSet (tileL i)]{fullShare} f := by
  rw [← outPts_parts (F := F) d f]
omit [FloatOps F] in
theorem outPts_join (d : Dev nD) (f : Buf (Elt F) (oLoc d)) :
    (bigSep Finset.univ fun i : Fin 16 => oLoc d ↦[outSet (tileL i)]{fullShare} f) ⊢ (oLoc d ↦{fullShare} f : sProp 𝕄) := by
  rw [← outPts_parts (F := F) d f]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A band held at known contents is held at some contents, band by band. -/
theorem outPart_exists (d : Dev nD) (i : Fin 16) (f : Buf (Elt F) (oLoc d)) :
    (outPart (F := F) d i f) ⊢ (iprop(∃ f, outPart (F := F) d i f) : sProp 𝕄) := by
  iintro H; iexists f; iexact H
theorem outParts_exists (d : Dev nD) (f : Buf (Elt F) (oLoc d)) :
    (bigSep Finset.univ fun i : Fin 16 => outPart (F := F) d i f)
      ⊢ (bigSep Finset.univ fun i : Fin 16 => iprop(∃ f, outPart (F := F) d i f) : sProp 𝕄) :=
  bigSep_mono fun i _ => outPart_exists d i f

/-! ## The split -/

variable (tbl : (d : Dev nD) → Buf (Elt F) (tLoc d)) (idx : (d : Dev nD) → Buf (Elt F) (iLoc d))
  (G : (d : Dev nD) → Buf (Elt F) (oLoc d))

theorem vecSplit : (K (F := F)).VecSplit' (P tbl idx G) 0 := by
  intro d c
  show iprop(tblPts tbl d ∗ idxPts idx d ∗ ∃ f, outPts d f) ⊢ |={Set.univ}=> iprop(
      (bigSep Finset.univ fun i : Fin ((K (F := F)).nSub 0) =>
        iprop(tblTok tbl d (Fin.cast nSub_zero i) ∗ idxPart idx d (Fin.cast nSub_zero i) ∗ ∃ f, outPart d (Fin.cast nSub_zero i) f))
      ∗ ((bigSep Finset.univ fun i : Fin ((K (F := F)).nSub 0) =>
          iprop(tblTok tbl d (Fin.cast nSub_zero i) ∗ idxPart idx d (Fin.cast nSub_zero i) ∗ outPart d (Fin.cast nSub_zero i) (G d)))
          -∗ iprop(tblPts tbl d ∗ idxPts idx d ∗ outPts d (G d))))
  rw [bigSep_tasks (F := F) (fun i => iprop(tblTok tbl d i ∗ idxPart idx d i ∗ ∃ f, outPart d i f)),
    bigSep_tasks (F := F) (fun i => iprop(tblTok tbl d i ∗ idxPart idx d i ∗ outPart d i (G d))),
    bigSep_sep', bigSep_sep', bigSep_sep', bigSep_sep']
  iintro ⟨Ht, Hi, ⟨%f, Ho⟩⟩
  ihave Ht' := (Transfers.pointsTo_toks_split (ℓ := tLoc d) (S := Finset.univ) (f := tbl d) fullShare 16) $$ Ht
  icases Ht' with ⟨Hrem, Htoks⟩
  ihave Hi' := (idxPts_split (F := F) d (idx d)) $$ Hi
  ihave Ho' := (outPts_split (F := F) d f) $$ Ho
  imodintro
  isplitl [Htoks Hi' Ho']
  · isplitl [Htoks]; · iexact Htoks
    isplitl [Hi']; · iexact Hi'
    iapply (outParts_exists (F := F) d f); iexact Ho'
  iintro ⟨Htoks, Hi, Ho⟩
  isplitl [Hrem Htoks]
  · iapply (Transfers.pointsTo_toks_join (ℓ := tLoc d) (S := Finset.univ) (f := tbl d) fullShare 16)
    isplitl [Hrem]; · iexact Hrem
    iexact Htoks
  isplitl [Hi]; · iapply (idxPts_join (F := F) d (idx d)); iexact Hi
  iapply (outPts_join (F := F) d (G d)); iexact Ho

end Cert.Mine.KB

end
-- ==== Proof.HostOpsB.lean ====
/-
  The host operations of the enclosing program as records, and the arrays the TensorCore holds between
  kernels as one separating conjunction.

  The enclosing program is a straight line: a transposition of the input to channels-last, two reshapes
  (the transposed input to a table of rows, the indices to one flat list), the gather on the vector
  subcores, the conversion of the integer scale to a float and its broadcast to a 1 x 1 array, the loss
  kernel, and a last reshape of the 1 x 1 result to a scalar. Each host operation writes one array from
  one other and leaves the rest; the contents of every array after each step are therefore a function of
  the launch contents and of what the two kernels leave in their result arrays, and the arguments keep
  their launch contents throughout.
-/
import proofs.«212862_g50483045597572_cont_8to1c4_140_39_alg».proof.Proof.KernelCtxB
import Idealize.ShloMosaic.Lib.StableHlo.Run

noncomputable section

namespace Cert.Mine.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## The six host operations, as the enclosing program's text carries them -/

abbrev opT : HloOp τ sig (Elt F) := StableHlo.unary main_arg0 main_v0 ((transpose S8x152x272x128 [0, 2, 3, 1] · Facts₀.transposes_S8x128x152x272_S8x152x272x128_0_2_3_1) : (⟨S8x128x152x272, .f32⟩ : BufTy).Contents (Elt F) → (⟨S8x152x272x128, .f32⟩ : BufTy).Contents (Elt F))
abbrev opR1 : HloOp τ sig (Elt F) := StableHlo.reshape main_v0 main_v1 rfl Facts₀.shapeCasts_S8x152x272x128_S330752x128
abbrev opR2 : HloOp τ sig (Elt F) := StableHlo.reshape main_arg1 main_v2 rfl Facts₀.shapeCasts_S8x64_S512
abbrev opC : HloOp τ sig (Elt F) := StableHlo.unary main_arg3 main_v4 (sitofp .f32 : (⟨S_, .i32⟩ : BufTy).Contents (Elt F) → (⟨S_, .f32⟩ : BufTy).Contents (Elt F))
abbrev opB : HloOp τ sig (Elt F) := StableHlo.unary main_v4 main_v5 (broadcastInDim S1x1 ![] Facts₀.bcast_S_S1x1 : (⟨S_, .f32⟩ : BufTy).Contents (Elt F) → (⟨S1x1, .f32⟩ : BufTy).Contents (Elt F))
abbrev opR3 : HloOp τ sig (Elt F) := StableHlo.reshape main_v6 main_v7 rfl Facts₀.shapeCasts_S1x1_S_

/-! ## The twelve arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)

/-- Array `r` of device `d`, as the TensorCore names it. -/
abbrev locOf (d : Dev nD) (r : Ref sig .tc) : Loc nD τ sig := (SparseCore.T d).loc r

/-- The TensorCore's arrays that no kernel scopes: the four arguments and the eight values. -/
abbrev SAll : Finset (DevRef τ sig) := {a0', a1', a2', a3', v0', v1', v2', v3', v4', v5', v6', v7'}

omit [FloatOps F] in
theorem held_SAll (d : Dev nD) (W : Valuation τ sig (Elt F)) :
    (held (T d) SAll W : sProp 𝕄) = iprop((locOf d main_arg0 ↦{fullShare} W a0') ∗ (locOf d main_arg1 ↦{fullShare} W a1') ∗ (locOf d main_arg2 ↦{fullShare} W a2') ∗ (locOf d main_arg3 ↦{fullShare} W a3') ∗ (locOf d main_v0 ↦{fullShare} W v0') ∗ (locOf d main_v1 ↦{fullShare} W v1') ∗ (locOf d main_v2 ↦{fullShare} W v2') ∗ (locOf d main_v3 ↦{fullShare} W v3') ∗ (locOf d main_v4 ↦{fullShare} W v4') ∗ (locOf d main_v5 ↦{fullShare} W v5') ∗ (locOf d main_v6 ↦{fullShare} W v6') ∗ (locOf d main_v7 ↦{fullShare} W v7')) := by
  unfold held SAll
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((locOf d main_arg0 ↦{fullShare} W main_arg0) ∗ (locOf d main_arg1 ↦{fullShare} W main_arg1) ∗ (locOf d main_arg2 ↦{fullShare} W main_arg2) ∗ (locOf d main_arg3 ↦{fullShare} W main_arg3) ∗ (locOf d main_v0 ↦{fullShare} W main_v0) ∗ (locOf d main_v1 ↦{fullShare} W main_v1) ∗ (locOf d main_v2 ↦{fullShare} W main_v2) ∗ (locOf d main_v3 ↦{fullShare} W main_v3) ∗ (locOf d main_v4 ↦{fullShare} W main_v4) ∗ (locOf d main_v5 ↦{fullShare} W main_v5) ∗ (locOf d main_v6 ↦{fullShare} W main_v6) ∗ (locOf d main_v7 ↦{fullShare} W main_v7)) := by
  unfold unscopedBufs
  rw [show (Finset.univ.filter fun b : Ref sig .tc => ¬ b.isScoped) = {main_arg0, main_arg1, main_arg2, main_arg3, main_v0, main_v1, main_v2, main_v3, main_v4, main_v5, main_v6, main_v7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The contents of the arrays, step by step -/

variable (m : (ℓ : Loc nD τ sig) → Buf (Elt F) ℓ)

/-- The launch contents. -/
def V0 (d : Dev nD) : Valuation τ sig (Elt F) := fun b => m (d, b)
/-- After the transposition, -/
def V1 (d : Dev nD) : Valuation τ sig (Elt F) := (opT (F := F)).result (V0 m d)
/-- the reshape of the transposed input to rows, -/
def V2 (d : Dev nD) : Valuation τ sig (Elt F) := (opR1 (F := F)).result (V1 m d)
/-- and the reshape of the indices to a flat list. -/
def V3 (d : Dev nD) : Valuation τ sig (Elt F) := (opR2 (F := F)).result (V2 m d)
/-- After the gather, which leaves `f3` in its result array, -/
def V4 (d : Dev nD) (f3 : Buf (Elt F) (locOf d main_v3)) : Valuation τ sig (Elt F) := Function.update (V3 m d) v3' f3
/-- the conversion of the scale, -/
def V5 (d : Dev nD) (f3 : Buf (Elt F) (locOf d main_v3)) : Valuation τ sig (Elt F) := (opC (F := F)).result (V4 m d f3)
/-- and its broadcast. -/
def V6 (d : Dev nD) (f3 : Buf (Elt F) (locOf d main_v3)) : Valuation τ sig (Elt F) := (opB (F := F)).result (V5 m d f3)
/-- After the loss kernel, which leaves `f6` in its result array, -/
def V7 (d : Dev nD) (f3 : Buf (Elt F) (locOf d main_v3)) (f6 : Buf (Elt F) (locOf d main_v6)) : Valuation τ sig (Elt F) :=
  Function.update (V6 m d f3) v6' f6
/-- and the last reshape. -/
def V8 (d : Dev nD) (f3 : Buf (Elt F) (locOf d main_v3)) (f6 : Buf (Elt F) (locOf d main_v6)) : Valuation τ sig (Elt F) :=
  (opR3 (F := F)).result (V7 m d f3 f6)

theorem unscoped_held (d : Dev nD) : (unscopedBufs d (fun b => m (locOf d b)) : sProp 𝕄) = held (T d) SAll (V0 m d) := by
  rw [unscopedBufs_eq, held_SAll]; rfl

/-! ### Each step leaves every array but the one it writes -/

variable (d : Dev nD) (f3 : Buf (Elt F) (locOf d main_v3)) (f6 : Buf (Elt F) (locOf d main_v6))

theorem V1_of_ne {r : Ref sig .tc} (h : r ≠ main_v0) : V1 m d (Proc.devRef .tc r) = V0 m d (Proc.devRef .tc r) :=
  StableHlo.unary_result_ne _ _ _ _ _ _ h
theorem V2_of_ne {r : Ref sig .tc} (h : r ≠ main_v1) : V2 m d (Proc.devRef .tc r) = V1 m d (Proc.devRef .tc r) :=
  StableHlo.reshape_result_ne _ _ _ _ _ _ _ h
theorem V3_of_ne {r : Ref sig .tc} (h : r ≠ main_v2) : V3 m d (Proc.devRef .tc r) = V2 m d (Proc.devRef .tc r) :=
  StableHlo.reshape_result_ne _ _ _ _ _ _ _ h
theorem V4_of_ne {r : Ref sig .tc} (h : r ≠ main_v3) : V4 m d f3 (Proc.devRef .tc r) = V3 m d (Proc.devRef .tc r) :=
  Function.update_of_ne (StableHlo.devRef_ne_of_ne h) _ _
theorem V5_of_ne {r : Ref sig .tc} (h : r ≠ main_v4) : V5 m d f3 (Proc.devRef .tc r) = V4 m d f3 (Proc.devRef .tc r) :=
  StableHlo.unary_result_ne _ _ _ _ _ _ h
theorem V6_of_ne {r : Ref sig .tc} (h : r ≠ main_v5) : V6 m d f3 (Proc.devRef .tc r) = V5 m d f3 (Proc.devRef .tc r) :=
  StableHlo.unary_result_ne _ _ _ _ _ _ h
theorem V7_of_ne {r : Ref sig .tc} (h : r ≠ main_v6) : V7 m d f3 f6 (Proc.devRef .tc r) = V6 m d f3 (Proc.devRef .tc r) :=
  Function.update_of_ne (StableHlo.devRef_ne_of_ne h) _ _
theorem V8_of_ne {r : Ref sig .tc} (h : r ≠ main_v7) : V8 m d f3 f6 (Proc.devRef .tc r) = V7 m d f3 f6 (Proc.devRef .tc r) :=
  StableHlo.reshape_result_ne _ _ _ _ _ _ _ h

/-! ### The arguments keep their launch contents -/

theorem V0_a0 : V0 m d a0' = m (locOf d main_arg0) := rfl
theorem V1_a0 : V1 m d a0' = m (locOf d main_arg0) := (V1_of_ne m d (by decide)).trans (V0_a0 m d)
theorem V2_a0 : V2 m d a0' = m (locOf d main_arg0) := (V2_of_ne m d (by decide)).trans (V1_a0 m d)
theorem V3_a0 : V3 m d a0' = m (locOf d main_arg0) := (V3_of_ne m d (by decide)).trans (V2_a0 m d)
theorem V4_a0 : V4 m d f3 a0' = m (locOf d main_arg0) := (V4_of_ne m d f3 (by decide)).trans (V3_a0 m d)
theorem V5_a0 : V5 m d f3 a0' = m (locOf d main_arg0) := (V5_of_ne m d f3 (by decide)).trans (V4_a0 m d f3)
theorem V6_a0 : V6 m d f3 a0' = m (locOf d main_arg0) := (V6_of_ne m d f3 (by decide)).trans (V5_a0 m d f3)
theorem V7_a0 : V7 m d f3 f6 a0' = m (locOf d main_arg0) := (V7_of_ne m d f3 f6 (by decide)).trans (V6_a0 m d f3)
theorem V8_a0 : V8 m d f3 f6 a0' = m (locOf d main_arg0) := (V8_of_ne m d f3 f6 (by decide)).trans (V7_a0 m d f3 f6)

theorem V0_a1 : V0 m d a1' = m (locOf d main_arg1) := rfl
theorem V1_a1 : V1 m d a1' = m (locOf d main_arg1) := (V1_of_ne m d (by decide)).trans (V0_a1 m d)
theorem V2_a1 : V2 m d a1' = m (locOf d main_arg1) := (V2_of_ne m d (by decide)).trans (V1_a1 m d)
theorem V3_a1 : V3 m d a1' = m (locOf d main_arg1) := (V3_of_ne m d (by decide)).trans (V2_a1 m d)
theorem V4_a1 : V4 m d f3 a1' = m (locOf d main_arg1) := (V4_of_ne m d f3 (by decide)).trans (V3_a1 m d)
theorem V5_a1 : V5 m d f3 a1' = m (locOf d main_arg1) := (V5_of_ne m d f3 (by decide)).trans (V4_a1 m d f3)
theorem V6_a1 : V6 m d f3 a1' = m (locOf d main_arg1) := (V6_of_ne m d f3 (by decide)).trans (V5_a1 m d f3)
theorem V7_a1 : V7 m d f3 f6 a1' = m (locOf d main_arg1) := (V7_of_ne m d f3 f6 (by decide)).trans (V6_a1 m d f3)
theorem V8_a1 : V8 m d f3 f6 a1' = m (locOf d main_arg1) := (V8_of_ne m d f3 f6 (by decide)).trans (V7_a1 m d f3 f6)

theorem V0_a2 : V0 m d a2' = m (locOf d main_arg2) := rfl
theorem V1_a2 : V1 m d a2' = m (locOf d main_arg2) := (V1_of_ne m d (by decide)).trans (V0_a2 m d)
theorem V2_a2 : V2 m d a2' = m (locOf d main_arg2) := (V2_of_ne m d (by decide)).trans (V1_a2 m d)
theorem V3_a2 : V3 m d a2' = m (locOf d main_arg2) := (V3_of_ne m d (by decide)).trans (V2_a2 m d)
theorem V4_a2 : V4 m d f3 a2' = m (locOf d main_arg2) := (V4_of_ne m d f3 (by decide)).trans (V3_a2 m d)
theorem V5_a2 : V5 m d f3 a2' = m (locOf d main_arg2) := (V5_of_ne m d f3 (by decide)).trans (V4_a2 m d f3)
theorem V6_a2 : V6 m d f3 a2' = m (locOf d main_arg2) := (V6_of_ne m d f3 (by decide)).trans (V5_a2 m d f3)
theorem V7_a2 : V7 m d f3 f6 a2' = m (locOf d main_arg2) := (V7_of_ne m d f3 f6 (by decide)).trans (V6_a2 m d f3)
theorem V8_a2 : V8 m d f3 f6 a2' = m (locOf d main_arg2) := (V8_of_ne m d f3 f6 (by decide)).trans (V7_a2 m d f3 f6)

theorem V0_a3 : V0 m d a3' = m (locOf d main_arg3) := rfl
theorem V1_a3 : V1 m d a3' = m (locOf d main_arg3) := (V1_of_ne m d (by decide)).trans (V0_a3 m d)
theorem V2_a3 : V2 m d a3' = m (locOf d main_arg3) := (V2_of_ne m d (by decide)).trans (V1_a3 m d)
theorem V3_a3 : V3 m d a3' = m (locOf d main_arg3) := (V3_of_ne m d (by decide)).trans (V2_a3 m d)
theorem V4_a3 : V4 m d f3 a3' = m (locOf d main_arg3) := (V4_of_ne m d f3 (by decide)).trans (V3_a3 m d)
theorem V5_a3 : V5 m d f3 a3' = m (locOf d main_arg3) := (V5_of_ne m d f3 (by decide)).trans (V4_a3 m d f3)
theorem V6_a3 : V6 m d f3 a3' = m (locOf d main_arg3) := (V6_of_ne m d f3 (by decide)).trans (V5_a3 m d f3)
theorem V7_a3 : V7 m d f3 f6 a3' = m (locOf d main_arg3) := (V7_of_ne m d f3 f6 (by decide)).trans (V6_a3 m d f3)
theorem V8_a3 : V8 m d f3 f6 a3' = m (locOf d main_arg3) := (V8_of_ne m d f3 f6 (by decide)).trans (V7_a3 m d f3 f6)

/-! ### What the written arrays hold -/

theorem V1_v0 : V1 m d v0' = transpose S8x152x272x128 [0, 2, 3, 1] (m (locOf d main_arg0)) Facts₀.transposes_S8x128x152x272_S8x152x272x128_0_2_3_1 :=
  StableHlo.unary_result _ _ _ _ _ _
theorem V2_v1 : V2 m d v1' = shapeCast S330752x128 (V1 m d v0') Facts₀.shapeCasts_S8x152x272x128_S330752x128 :=
  StableHlo.reshape_result _ _ _ _ _ _ _
theorem V3_v2 : V3 m d v2' = shapeCast S512 (m (locOf d main_arg1)) Facts₀.shapeCasts_S8x64_S512 :=
  (StableHlo.reshape_result _ _ _ _ _ _ _).trans (by rw [show V2 m d a1' = m (locOf d main_arg1) from V2_a1 m d]; rfl)
/-- The table of rows the gather reads: the input, channels last, as 330752 rows of 128. -/
theorem V3_v1 : V3 m d v1' = shapeCast S330752x128 (transpose S8x152x272x128 [0, 2, 3, 1] (m (locOf d main_arg0)) Facts₀.transposes_S8x128x152x272_S8x152x272x128_0_2_3_1) Facts₀.shapeCasts_S8x152x272x128_S330752x128 := by
  rw [show V3 m d v1' = V2 m d v1' from V3_of_ne m d (by decide), V2_v1, V1_v0]
/-- The gather's result array before the gather: its launch contents. -/
theorem V3_v3 : V3 m d v3' = m (locOf d main_v3) :=
  (V3_of_ne m d (by decide)).trans ((V2_of_ne m d (by decide)).trans (V1_of_ne m d (by decide)))
theorem V4_v3 : V4 m d f3 v3' = f3 := Function.update_self _ _ _
theorem V4_v1 : V4 m d f3 v1' = V3 m d v1' := V4_of_ne m d f3 (by decide)
theorem V4_v2 : V4 m d f3 v2' = V3 m d v2' := V4_of_ne m d f3 (by decide)
theorem V5_v4 : V5 m d f3 v4' = sitofp .f32 (m (locOf d main_arg3)) :=
  (StableHlo.unary_result _ _ _ _ _ _).trans (by rw [show V4 m d f3 a3' = m (locOf d main_arg3) from V4_a3 m d f3])
/-- The scale as the loss kernel reads it: the integer converted, as a 1 x 1 array. -/
theorem V6_v5 : V6 m d f3 v5' = broadcastInDim S1x1 ![] Facts₀.bcast_S_S1x1 (sitofp .f32 (m (locOf d main_arg3))) :=
  (StableHlo.unary_result _ _ _ _ _ _).trans (by rw [show V5 m d f3 v4' = _ from V5_v4 m d f3])
/-- The gathered rows as the loss kernel reads them: what the gather left. -/
theorem V6_v3 : V6 m d f3 v3' = f3 :=
  (V6_of_ne m d f3 (by decide)).trans ((V5_of_ne m d f3 (by decide)).trans (V4_v3 m d f3))
/-- The loss kernel's result array before the kernel: its launch contents. -/
theorem V6_v6 : V6 m d f3 v6' = m (locOf d main_v6) :=
  (V6_of_ne m d f3 (by decide)).trans ((V5_of_ne m d f3 (by decide)).trans ((V4_of_ne m d f3 (by decide)).trans
    ((V3_of_ne m d (by decide)).trans ((V2_of_ne m d (by decide)).trans (V1_of_ne m d (by decide))))))
theorem V7_v6 : V7 m d f3 f6 v6' = f6 := Function.update_self _ _ _
theorem V7_v3 : V7 m d f3 f6 v3' = f3 := (V7_of_ne m d f3 f6 (by decide)).trans (V6_v3 m d f3)
theorem V7_v5 : V7 m d f3 f6 v5' = V6 m d f3 v5' := V7_of_ne m d f3 f6 (by decide)
/-- The program's result: the loss kernel's 1 x 1 array as a scalar. -/
theorem V8_v7 : V8 m d f3 f6 v7' = shapeCast S_ f6 Facts₀.shapeCasts_S1x1_S_ :=
  (StableHlo.reshape_result _ _ _ _ _ _ _).trans (by rw [show V7 m d f3 f6 v6' = f6 from V7_v6 m d f3 f6]; rfl)

/-! ## Every operation's arrays are among the twelve -/

omit [FloatOps F] in
theorem hT : (opT (F := F)).bufs ⊆ SAll := show ({a0', v0'} : Finset (DevRef τ sig)) ⊆ SAll by decide
omit [FloatOps F] in
theorem hR1 : (opR1 (F := F)).bufs ⊆ SAll := show ({v0', v1'} : Finset (DevRef τ sig)) ⊆ SAll by decide
omit [FloatOps F] in
theorem hR2 : (opR2 (F := F)).bufs ⊆ SAll := show ({a1', v2'} : Finset (DevRef τ sig)) ⊆ SAll by decide
theorem hC : (opC (F := F)).bufs ⊆ SAll := show ({a3', v4'} : Finset (DevRef τ sig)) ⊆ SAll by decide
theorem hB : (opB (F := F)).bufs ⊆ SAll := show ({v4', v5'} : Finset (DevRef τ sig)) ⊆ SAll by decide
omit [FloatOps F] in
theorem hR3 : (opR3 (F := F)).bufs ⊆ SAll := show ({v6', v7'} : Finset (DevRef τ sig)) ⊆ SAll by decide

/-! ## The host operations run, between the kernels -/

/-- The three operations before the gather: from the launch contents to the contents the gather meets. -/
theorem wp_ops_before (Φ : PUnit → sProp 𝕄) :
    iprop(boundary (T d) ∗ (held (T d) SAll (V0 m d) : sProp 𝕄))
      ⊢ iprop(((boundary (T d) ∗ (held (T d) SAll (V3 m d) : sProp 𝕄)) -∗ Φ ⟨⟩)
        -∗ wp frame (wpE ((K (F := F)).defs (D (F := F))) 𝒱 (SparseCore.T d) none) Set.univ (hlo rfl (opT (F := F)) fun _ => .ret PUnit.unit)
            (fun _ => wp frame (wpE ((K (F := F)).defs (D (F := F))) 𝒱 (SparseCore.T d) none) Set.univ (hlo rfl (opR1 (F := F)) fun _ => .ret PUnit.unit)
              (fun _ => wp frame (wpE ((K (F := F)).defs (D (F := F))) 𝒱 (SparseCore.T d) none) Set.univ (hlo rfl (opR2 (F := F)) fun _ => .ret PUnit.unit) Φ))) := by
  unfold V3 V2 V1
  iintro H Hk
  iapply (wp_hlo_within 𝒱 (SparseCore.T d) none Set.univ (op := opT) (S := SAll) hT (V := V0 m d)) $$ H
  iintro H
  rw [wp_ret]; imodintro
  iapply (wp_hlo_within 𝒱 (SparseCore.T d) none Set.univ (op := opR1) (S := SAll) hR1) $$ H
  iintro H
  rw [wp_ret]; imodintro
  iapply (wp_hlo_within 𝒱 (SparseCore.T d) none Set.univ (op := opR2) (S := SAll) hR2) $$ H
  iintro H
  rw [wp_ret]; imodintro
  iapply Hk
  iexact H

/-- The two operations between the gather and the loss kernel. -/
theorem wp_ops_between (Φ : PUnit → sProp 𝕄) :
    iprop(boundary (T d) ∗ (held (T d) SAll (V4 m d f3) : sProp 𝕄))
      ⊢ iprop(((boundary (T d) ∗ (held (T d) SAll (V6 m d f3) : sProp 𝕄)) -∗ Φ ⟨⟩)
        -∗ wp frame (wpE ((K (F := F)).defs (D (F := F))) 𝒱 (SparseCore.T d) none) Set.univ (hlo rfl (opC (F := F)) fun _ => .ret PUnit.unit)
            (fun _ => wp frame (wpE ((K (F := F)).defs (D (F := F))) 𝒱 (SparseCore.T d) none) Set.univ (hlo rfl (opB (F := F)) fun _ => .ret PUnit.unit) Φ)) := by
  unfold V6 V5
  iintro H Hk
  iapply (wp_hlo_within 𝒱 (SparseCore.T d) none Set.univ (op := opC) (S := SAll) hC (V := V4 m d f3)) $$ H
  iintro H
  rw [wp_ret]; imodintro
  iapply (wp_hlo_within 𝒱 (SparseCore.T d) none Set.univ (op := opB) (S := SAll) hB) $$ H
  iintro H
  rw [wp_ret]; imodintro
  iapply Hk
  iexact H

/-- The last operation, after the loss kernel. -/
theorem wp_op_last (Φ : PUnit → sProp 𝕄) :
    iprop(boundary (T d) ∗ (held (T d) SAll (V7 m d f3 f6) : sProp 𝕄))
      ⊢ iprop(((boundary (T d) ∗ (held (T d) SAll (V8 m d f3 f6) : sProp 𝕄)) -∗ Φ ⟨⟩)
        -∗ wp frame (wpE ((K (F := F)).defs (D (F := F))) 𝒱 (SparseCore.T d) none) Set.univ (hlo rfl (opR3 (F := F)) fun _ => .ret PUnit.unit) Φ) := by
  unfold V8
  iintro H Hk
  iapply (wp_hlo_within 𝒱 (SparseCore.T d) none Set.univ (op := opR3) (S := SAll) hR3 (V := V7 m d f3 f6)) $$ H
  iintro H
  rw [wp_ret]; imodintro
  iapply Hk
  iexact H

/-! ## The arrays a kernel takes, out of the twelve and back -/

/-- Array `b` of device `d`. -/
abbrev locD (d : Dev nD) (b : DevRef τ sig) : Loc nD τ sig := ((SparseCore.T d : Thread nD τ).1, b)

/-- Three arrays out of a set that holds them. -/
theorem held_three {x y z : DevRef τ sig} (hxy : x ∉ ({y, z} : Finset (DevRef τ sig))) (hyz : y ∉ ({z} : Finset (DevRef τ sig)))
    (hS : ({x, y, z} : Finset (DevRef τ sig)) ⊆ SAll) (W : Valuation τ sig (Elt F)) :
    (held (T d) SAll W : sProp 𝕄)
      = iprop((locD d x ↦{fullShare} W x) ∗ (locD d y ↦{fullShare} W y) ∗ (locD d z ↦{fullShare} W z)
          ∗ held (T d) (SAll \ {x, y, z}) W) := by
  rw [StableHlo.held_sub_split (T d) hS W]
  conv_lhs => arg 1; unfold held
  have assoc : ∀ A B C : sProp 𝕄, iprop((A ∗ B) ∗ C) = iprop(A ∗ B ∗ C) := fun A B C =>
    BI.Entails.antisymm BI.sep_assoc BI.sep_assoc'
  rw [SparseCore.bigSep_insert' hxy, SparseCore.bigSep_insert' hyz, bigSep_singleton, assoc, assoc]

/-- What the gather takes: its table, its indices, its result array at the launch contents; and the rest. -/
theorem held_V3_call :
    (held (T d) SAll (V3 m d) : sProp 𝕄)
      = iprop((locOf d main_v1 ↦{fullShare} V3 m d v1') ∗ (locOf d main_v2 ↦{fullShare} V3 m d v2') ∗ (locOf d main_v3 ↦{fullShare} m (locOf d main_v3))
          ∗ held (T d) (SAll \ {v1', v2', v3'}) (V3 m d)) := by
  rw [held_three d (x := v1') (y := v2') (z := v3') (by decide) (by decide) (by decide), V3_v3]

/-- What it hands back: the same with its result array at what it left. -/
theorem held_V4_call :
    (held (T d) SAll (V4 m d f3) : sProp 𝕄)
      = iprop((locOf d main_v1 ↦{fullShare} V3 m d v1') ∗ (locOf d main_v2 ↦{fullShare} V3 m d v2') ∗ (locOf d main_v3 ↦{fullShare} f3)
          ∗ held (T d) (SAll \ {v1', v2', v3'}) (V3 m d)) := by
  rw [held_three d (x := v1') (y := v2') (z := v3') (by decide) (by decide) (by decide), V4_v1, V4_v2, V4_v3,
    StableHlo.held_congr (T d) (V := V4 m d f3) (V' := V3 m d) fun b hb =>
      Function.update_of_ne (fun e => by subst e; exact absurd hb (by decide)) _ _]

/-- What the loss kernel takes: the scale, the gathered rows, its result array at the launch contents; and the rest. -/
theorem held_V6_region :
    (held (T d) SAll (V6 m d f3) : sProp 𝕄)
      = iprop((locOf d main_v5 ↦{fullShare} V6 m d f3 v5') ∗ (locOf d main_v3 ↦{fullShare} f3) ∗ (locOf d main_v6 ↦{fullShare} m (locOf d main_v6))
          ∗ held (T d) (SAll \ {v5', v3', v6'}) (V6 m d f3)) := by
  rw [held_three d (x := v5') (y := v3') (z := v6') (by decide) (by decide) (by decide), V6_v3, V6_v6]

/-- What it hands back: the same with its result array at what it left. -/
theorem held_V7_region :
    (held (T d) SAll (V7 m d f3 f6) : sProp 𝕄)
      = iprop((locOf d main_v5 ↦{fullShare} V6 m d f3 v5') ∗ (locOf d main_v3 ↦{fullShare} f3) ∗ (locOf d main_v6 ↦{fullShare} f6)
          ∗ held (T d) (SAll \ {v5', v3', v6'}) (V6 m d f3)) := by
  rw [held_three d (x := v5') (y := v3') (z := v6') (by decide) (by decide) (by decide), V7_v5, V7_v3, V7_v6,
    StableHlo.held_congr (T d) (V := V7 m d f3 f6) (V' := V6 m d f3) fun b hb =>
      Function.update_of_ne (fun e => by subst e; exact absurd hb (by decide)) _ _]

/-- At the end: the result as a scalar, and the rest. -/
theorem held_V8_out :
    (held (T d) SAll (V8 m d f3 f6) : sProp 𝕄)
      = iprop((locOf d main_v7 ↦{fullShare} shapeCast S_ f6 Facts₀.shapeCasts_S1x1_S_) ∗ held (T d) (SAll \ {v7'}) (V8 m d f3 f6)) := by
  rw [StableHlo.held_sub_split (T d) (show ({v7'} : Finset (DevRef τ sig)) ⊆ SAll by decide)]
  conv_lhs => arg 1; unfold held
  rw [bigSep_singleton, V8_v7]

end Cert.Mine.KB

end
-- ==== Proof.LaunchElemB.lean ====
/-
  The launch element of the ghost state, and what the launch deals from it.

  The ghost state has three components side by side: the rounds of the launch handshakes, the rounds of the
  staging cells of the one pipelined kernel, and the counters of the transfers. At launch the first is at
  the handshakes' cells and duties, the second at the staging cells and the duties of the pipeline's own
  transfers, the third at its unit. Owning the triple is owning each component through its embedding; the
  handshakes' component is handed on as it stands, the staging cells' component funds, per device, each
  cell's launch state with round 0 reached and the duty tokens of the pipeline's transfers, and the
  counters' component is not needed. The payloads hold nothing of the launch's.
-/
import proofs.«212862_g50483045597572_cont_8to1c4_140_39_alg».proof.Proof.KernelPayB

noncomputable section

namespace Cert.Mine.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The one pipeline prefetches no table: its one admissible contents. -/
abbrev launchAdm : (p : Fin 1) → (pcfgs (F := F) p).Adm := fun p => (cfgs p).toPCfg_adm

/-- The pipelines at that contents. -/
abbrev launchPins : Fin 1 → Pipeline.Cfg sig Λ₀ := Pipeline.pin (pcfgs (F := F)) launchAdm

/-- The launch element: the handshakes' rounds at their cells and duties, the staging cells' rounds at theirs, no counter yet. -/
def u₀ : UU :=
  (initOf (K (F := F)).hsCells (K (F := F)).hsToks,
    (initOf (Pipeline.cells (launchPins (F := F)) cellOf_inj) (Pipeline.launchToks (launchPins (F := F)) cellOf_inj), 1))

/-- What the launch deals device `d` for the pipelined kernel: its staging cells' ghost state and its transfers' duty tokens. -/
def G (d : Dev nD) : sProp 𝕄 :=
  iprop(Pipeline.cellsGhost (launchPins (F := F)) EP 0 d ∗ Pipeline.toksInit (launchPins (F := F)) EP 0 d)

omit [FloatOps F] in
private theorem bigSep_emp' {I : Type} (s : Finset I) : (bigSep s fun _ => iprop(emp)) = (iprop(emp) : sProp 𝕄) := bigSep_emp_const s

/-- A conjunction over the one pipeline is its one summand. -/
private theorem bigSep_pipe (Φ : Fin 1 → sProp 𝕄) : bigSep Finset.univ Φ = Φ 0 := by
  rw [show (Finset.univ : Finset (Fin 1)) = {0} by decide, bigSep_singleton]

variable (tbl : (d : Dev nD) → Buf (Elt F) (tLoc d)) (idx : (d : Dev nD) → Buf (Elt F) (iLoc d))
  (G' : (d : Dev nD) → Buf (Elt F) (oLoc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P tbl idx G').x q thr) := by
  unfold u₀
  iintro Hu
  ihave H := (ownU_pair _ _) $$ Hu
  icases H with ⟨HH, HR⟩
  ihave H2 := (own_pair_emb embR _ _) $$ HR
  icases H2 with ⟨HP, -⟩
  have hEP : ∀ x : UP, (BI.own (((Emb.inl : Emb UP (UP × Counters)).trans embR) x) : sProp 𝕄) ⊢ BI.own (EP (F := F) x) :=
    fun x => by unfold EP; exact .rfl
  ihave HP' := (hEP _) $$ HP
  imod (Pipeline.fund_ghost (launchPins (F := F)) EP cellOf_inj) $$ HP' with ⟨Hg, Ht⟩
  imodintro
  isplitl [HH]; · iexact HH
  isplitl [Hg Ht]
  · unfold G
    rw [bigSep_sep']
    simp only [bigSep_pipe]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Mine.KB

end
-- ==== Proof.MineRegionB.lean ====
/-
  The one pipelined kernel on the TensorCore: its proof data and its body obligation.

  The pipeline has three windows, no grid and one point: the 1x1 scale and the 512x128 gathered rows are
  fetched whole into their staging buffers, the body runs once, and the 1x1 result is written back whole.
  The body reads the scale's one word and the rows in eight blocks of 64, and stores one word: the chain of
  the seven parts' payloads over those nine values. So after the body the inputs' buffers hold their blocks
  as fetched, and the result's buffer holds that value at its one index; the result array after the run is
  that buffer, since the one block written back is the whole array.
-/
import proofs.«212862_g50483045597572_cont_8to1c4_140_39_alg».proof.Proof.KernelCtxB
import Idealize.ShloMosaic.Lib.Pipeline.FrameBody
import Idealize.ShloMosaic.Lib.Pipeline.Value
import Idealize.ShloMosaic.Lib.Tactic

set_option maxRecDepth 16384

noncomputable section

namespace Cert.Mine.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The arrays the region finds, and the windows' blocks -/

/-- The three windowed arrays as the region finds them: the scale, the gathered rows, the result array. -/
def arrs (c : Dev nD) (A0 : Buf (Elt F) ((c : Thread nD τ).loc main_v5)) (A1 : Buf (Elt F) ((c : Thread nD τ).loc main_v3))
    (A2 : Buf (Elt F) ((c : Thread nD τ).loc main_v6)) :
    (w : Fin cfg1.W) → Buf (Elt F) ((cfg1.win w).arr.view.loc (c.tc : Thread nD τ))
  | ⟨0, _⟩ => A0
  | ⟨1, _⟩ => A1
  | ⟨2, _⟩ => A2

variable (A0 : (c : Dev nD) → Buf (Elt F) ((c : Thread nD τ).loc main_v5)) (A1 : (c : Dev nD) → Buf (Elt F) ((c : Thread nD τ).loc main_v3))
  (A2 : (c : Dev nD) → Buf (Elt F) ((c : Thread nD τ).loc main_v6))
  (B : Dev nD → Set (SemLoc sig × HIx 1))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (arrs c (A0 c) (A1 c) (A2 c) w)

/-! ## The body's accesses -/

abbrev r0 : Rect S1x1 := Rect.unit (s := S1x1) ![0, 0] S1x1.size inb_S1x1_S1x1_0_0
abbrev r1_0 : Rect S512x128 := Rect.unit (s := S512x128) ![0, 0] S64x128.size inb_S512x128_S64x128_0_0
abbrev r1_1 : Rect S512x128 := Rect.unit (s := S512x128) ![64, 0] S64x128.size inb_S512x128_S64x128_64_0
abbrev r1_2 : Rect S512x128 := Rect.unit (s := S512x128) ![128, 0] S64x128.size inb_S512x128_S64x128_128_0
abbrev r1_3 : Rect S512x128 := Rect.unit (s := S512x128) ![192, 0] S64x128.size inb_S512x128_S64x128_192_0
abbrev r1_4 : Rect S512x128 := Rect.unit (s := S512x128) ![256, 0] S64x128.size inb_S512x128_S64x128_256_0
abbrev r1_5 : Rect S512x128 := Rect.unit (s := S512x128) ![320, 0] S64x128.size inb_S512x128_S64x128_320_0
abbrev r1_6 : Rect S512x128 := Rect.unit (s := S512x128) ![384, 0] S64x128.size inb_S512x128_S64x128_384_0
abbrev r1_7 : Rect S512x128 := Rect.unit (s := S512x128) ![448, 0] S64x128.size inb_S512x128_S64x128_448_0

/-- The one entry of a 1x1 buffer. -/
def entry (x0 : Vec F S1x1 .f32) : Elt F .f32 := View.ld x0 r0 (Shape.Idx.first (by decide))

/-- The eight 64-row blocks of a 512x128 buffer, as the body's eight vector loads read them. -/
def rows (x1 : Vec F S512x128 .f32) : Fin 8 → Vec F S64x128 .f32
  | ⟨0, _⟩ => View.ld x1 r1_0
  | ⟨1, _⟩ => View.ld x1 r1_1
  | ⟨2, _⟩ => View.ld x1 r1_2
  | ⟨3, _⟩ => View.ld x1 r1_3
  | ⟨4, _⟩ => View.ld x1 r1_4
  | ⟨5, _⟩ => View.ld x1 r1_5
  | ⟨6, _⟩ => View.ld x1 r1_6
  | ⟨7, _⟩ => View.ld x1 r1_7

/-- The kernel's result from the scale and the eight row blocks: the chain of the parts' payloads. -/
def kerOut (v0 : Elt F .f32) (g : Fin 8 → Vec F S64x128 .f32) : F .f32 :=
  let v3 : IVec S64x64 1 := k1_pay1
  let v41 : F .f32 := k1_pay2 v0 (g 0)
  let v79 : F .f32 := k1_pay3 v0 v3 v41 (g 1)
  let v117 : F .f32 := k1_pay7 v0 v3 v79 (k1_pay4 (g 2)) (k1_pay5 (g 2)) (k1_pay6 (F := F))
  let v155 : F .f32 := k1_pay11 v3 v117 (k1_pay9 v0 (g 3)) (k1_pay10 v0 (g 3))
  let v193 : F .f32 := k1_pay15 v3 v155 (k1_pay13 v0 (g 4)) (k1_pay14 v0 (g 4))
  let v231 : F .f32 := k1_pay17 v193 (k1_pay16 v0 v3 (g 5))
  k1_pay19 v0 v3 v231 (k1_pay18 v0 v3 (g 6)) (g 7)

/-- What the body leaves in the result window's staging buffer, from the two input windows' contents. -/
def out2 (x0 : Vec F S1x1 .f32) (x1 : Vec F S512x128 .f32) : Vec F S1x1 .f32 :=
  fun _ => kerOut (entry x0) (rows x1)

/-! ## The pipeline's proof data -/

/-- The class's region invariant at this ghost state: the scoped buffers that are no staging buffer, and the
    generator register, at some contents each. -/
def ΦK (c : Dev nD) : sProp 𝕄 :=
  iprop(Pipeline.scopedRest (Ix := HIx 1) (Name := ℕ) (U := UU) (Lvl := ℕ) (Val := Elt F) spec1 c ∗ ∃ r, prngReg c r)

/-- The proof data of the one pipeline on core `c`: the arrays as the region finds them; after the body each input's
    buffer at its block and the result's at `out2` of the input blocks; the class's invariant; nothing owed; full shares;
    the pairs the core's waits have recorded before the pipeline bounded by `B c` throughout (the body waits for nothing). -/
def dats (p : Fin 1) (c : Dev nD) : Dat τ (Elt F) (HIx 1) ℕ UU ℕ (cfgs p) c where
  A w := arrs c (A0 c) (A1 c) (A2 c) w
  after w t := match w with
    | ⟨0, _⟩ => iblk A0 A1 A2 c 0 t
    | ⟨1, _⟩ => iblk A0 A1 A2 c 1 t
    | ⟨2, _⟩ => out2 (iblk A0 A1 A2 c 0 t) (iblk A0 A1 A2 c 1 t)
  Φ _ := ΦK (F := F) c
  q _ := fullShare
  owed _ := 0
  recorded _ := B c

theorem A_eq (c : Dev nD) (w : Fin cfg1.W) : (dats A0 A1 A2 B 0 c).A w = arrs c (A0 c) (A1 c) (A2 c) w := by dsimp only [dats]
theorem after1_0 (c : Dev nD) (t : Fin cfg1.N) : (dats A0 A1 A2 B 0 c).after 0 t = iblk A0 A1 A2 c 0 t := by dsimp only [dats]
theorem after1_1 (c : Dev nD) (t : Fin cfg1.N) : (dats A0 A1 A2 B 0 c).after 1 t = iblk A0 A1 A2 c 1 t := by dsimp only [dats]
theorem after1_2 (c : Dev nD) (t : Fin cfg1.N) : (dats A0 A1 A2 B 0 c).after 2 t = out2 (iblk A0 A1 A2 c 0 t) (iblk A0 A1 A2 c 1 t) := by dsimp only [dats]

/-! ## The body's triple -/

theorem hz2 : (![0, 0] : Fin 2 → Nat) = fun _ => 0 := funext fun a => by fin_cases a <;> rfl

/-- The one store tiles the result buffer, so it covers it. -/
theorem cover2 (p0 : Vec F S1x1 .f32) (y : S1x1.Idx) :
    ∃ pc ∈ ([⟨r0, p0⟩] : List (View.Piece (Elt F) S1x1 .f32)), y ∈ pc.1.set :=
  View.cover_of_tiled [⟨r0, p0⟩] S1x1.size (by rfl) y

set_option maxHeartbeats 4000000 in
/-- The kernel body on whole staging memrefs, the inputs' at read contents `x0`, `x1` and the result's at anything,
    runs to the continuation holding the inputs' as they were and the result's at `out2 x0 x1`. -/
theorem sound_kernel (c : Dev nD) (E : Set ℕ) (arg0 : Memref sig .tc .smem S1x1 .f32) (harg0 : arg0.IsWhole)
    (arg1 : Memref sig .tc .vmem S512x128 .f32) (harg1 : arg1.IsWhole) (arg2 : Memref sig .tc .smem S1x1 .f32) (harg2 : arg2.IsWhole)
    (x0 : Vec F S1x1 .f32) (x1 : Vec F S512x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2 x0 x1)) -∗ K ⟨⟩))
      ⊢ wp frame (wpE (defs₀ (F := F)) Variants.none c none) E (cc1_mine_kernel arg0 harg0 arg1 harg1 arg2 harg2) K := by
  simp only [cc1_mine_kernel_eq_skeleton]; unfold cc1_mine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover2 _)).trans ?_
  rw [View.canon_unit_zero hz2]
  rfl

/-! ## What the body finds in the inputs' buffers -/

/-- Each input's current staging buffer holds its block at the point. -/
theorem before1_0 (c : Dev nD) (t : Fin cfg1.N) (d) : (dats A0 A1 A2 B 0 c).before 0 t d = iblk A0 A1 A2 c 0 t :=
  ((dats A0 A1 A2 B 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats A0 A1 A2 B 0 c).before 1 t d = iblk A0 A1 A2 c 1 t :=
  ((dats A0 A1 A2 B 0 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg1.N) : sProp 𝕄 :=
  iprop((dats A0 A1 A2 B 0 c).Φ t.castSucc ∗ (dats A0 A1 A2 B 0 c).owesAt (none : HIx 1) t.castSucc
    ∗ (∃ d, owns (c : Thread nD τ) (st1_0 t) fullShare ((dats A0 A1 A2 B 0 c).before 0 t d))
    ∗ (∃ d, owns (c : Thread nD τ) (st1_1 t) fullShare ((dats A0 A1 A2 B 0 c).before 1 t d))
    ∗ (∃ d, owns (c : Thread nD τ) (st1_2 t) fullShare ((dats A0 A1 A2 B 0 c).before 2 t d)))

/-- and what it returns. -/
def bodyPost (c : Dev nD) (t : Fin cfg1.N) : sProp 𝕄 :=
  iprop((dats A0 A1 A2 B 0 c).Φ t.succ ∗ (dats A0 A1 A2 B 0 c).owesAt (none : HIx 1) t.succ
    ∗ owns (c : Thread nD τ) (st1_0 t) fullShare ((dats A0 A1 A2 B 0 c).after 0 t)
    ∗ owns (c : Thread nD τ) (st1_1 t) fullShare ((dats A0 A1 A2 B 0 c).after 1 t)
    ∗ owns (c : Thread nD τ) (st1_2 t) fullShare ((dats A0 A1 A2 B 0 c).after 2 t))

/-- The body at the point: the inputs' memrefs hold their blocks, so the body's triple applies; the invariant and the
    core's debts pass through unread. -/
theorem sound_body (c : Dev nD) (t : Fin cfg1.N) :
    bodyPre A0 A1 A2 B c t ⊢ wp frame (wpE (defs₀ (F := F)) Variants.none c none) Set.univ (bodyAt1 t) (fun _ => bodyPost A0 A1 A2 B c t) := by
  unfold bodyPre bodyPost bodyAt1
  simp only [before1_0, before1_1]
  rw [show (dats A0 A1 A2 B 0 c).Φ t.succ = (dats A0 A1 A2 B 0 c).Φ t.castSucc from rfl,
    show (dats A0 A1 A2 B 0 c).owesAt (none : HIx 1) t.succ = (dats A0 A1 A2 B 0 c).owesAt (none : HIx 1) t.castSucc from rfl,
    after1_0, after1_1, after1_2]
  iintro ⟨HΦ, Ho, ⟨%d0, H0⟩, ⟨%d1, H1⟩, ⟨%d2, H2⟩⟩
  iapply (sound_kernel c Set.univ _ _ _ _ _ _ (iblk A0 A1 A2 c 0 t) (iblk A0 A1 A2 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at the one point. -/
theorem body_obligation (c : Dev nD) : BodyObligation (dats (F := F) A0 A1 A2 B 0 c) (defs₀ (F := F)) Variants.none (none : HIx 1) Set.univ := fun t => by
  rw [bigSep_W1, bigSep_W1]
  exact sound_body A0 A1 A2 B c t

/-! ## The arrays after the run -/

/-- A window's block at the point is its whole array: the block index is zero on every axis. -/
theorem iblk0_eq (c : Dev nD) (t : Fin cfg1.N) : iblk A0 A1 A2 c 0 t = A0 c := by
  funext j
  show A0 c (((cfg1.win 0).blk t).view.emb j) = A0 c j
  congr 1
  funext a; apply Fin.ext
  exact Pipeline.Window.rect_emb_val_of_index_zero (cfg1.win 0) t a rfl j
theorem iblk1_eq (c : Dev nD) (t : Fin cfg1.N) : iblk A0 A1 A2 c 1 t = A1 c := by
  funext j
  show A1 c (((cfg1.win 1).blk t).view.emb j) = A1 c j
  congr 1
  funext a; apply Fin.ext
  exact Pipeline.Window.rect_emb_val_of_index_zero (cfg1.win 1) t a rfl j

/-- What the one point writes back is the whole-array contents `out2` of the two input arrays, read through the block. -/
theorem flushed2_eq (c : Dev nD) (t : Fin cfg1.N) :
    (dats A0 A1 A2 B 0 c).flushed 2 t = ((cfg1.win 2).blk t).view.read (Elt F) (out2 (A0 c) (A1 c)) := by
  show (cfg1.win 2).cut (grid1.coords t) ((dats A0 A1 A2 B 0 c).after 2 t) = _
  rw [after1_2, iblk0_eq, iblk1_eq]
  rfl

/-- THE RESULT ARRAY after the run: the kernel's value of the scale's entry and the eight row blocks, at its one index. -/
theorem arrAt2 (c : Dev nD) :
    (dats A0 A1 A2 B 0 c).arrAt 2 cfg1.N = fun _ => kerOut (entry (A0 c)) (rows (A1 c)) :=
  (dats A0 A1 A2 B 0 c).arrAt_eq_of_cover 2 (out2 (A0 c) (A1 c)) (fun t _ => flushed2_eq A0 A1 A2 B c t) (fun i => ⟨t1_0, flush1_2 _, by
    show i ∈ ((View.whole main_v6).slice (win1_2.rect t1_0)).set
    rw [View.set_slice_whole, Rect.mem_set_unit]
    intro a
    have hi : (i a).val < S1x1.size a := (i a).isLt
    have h0 : win1_2.index t1_0 a = 0 := rfl
    show win1_2.index t1_0 a * S1x1.size a ≤ (i a).val ∧ (i a).val < win1_2.index t1_0 a * S1x1.size a + S1x1.size a
    rw [h0]; omega⟩)

/-- The input arrays are never written. -/
theorem arrAt0 (c : Dev nD) (n : Nat) : (dats A0 A1 A2 B 0 c).arrAt 0 n = A0 c :=
  ((dats A0 A1 A2 B 0 c).arrAt_in 0 rfl n).trans (A_eq A0 A1 A2 B c 0)
theorem arrAt1 (c : Dev nD) (n : Nat) : (dats A0 A1 A2 B 0 c).arrAt 1 n = A1 c :=
  ((dats A0 A1 A2 B 0 c).arrAt_in 1 rfl n).trans (A_eq A0 A1 A2 B c 1)

end Cert.Mine.KB

end
-- ==== Proof.RegionStepB.lean ====
/-
  The step of the enclosing program that enters the kernel region on the TensorCore.

  The region is entered holding the twelve arrays at a valuation, the core owing nothing with its recorded
  waits within a bound, and the generator register. The three windowed arrays (the scale, the gathered rows,
  the result) go to the pipeline, the register to the invariant, the other nine arrays pass by. The region is
  left holding the twelve arrays again, the result array now at the kernel's value of the other two, the core
  still owing nothing, its recorded waits grown at most by the staging cells' at the kernel's own index.
-/
import proofs.«212862_g50483045597572_cont_8to1c4_140_39_alg».proof.Proof.MineRegionB
import proofs.«212862_g50483045597572_cont_8to1c4_140_39_alg».proof.Proof.HostOpsB
import Idealize.ShloMosaic.Lib.Pipeline.Regions
import Idealize.ShloMosaic.Lib.Tactic

set_option maxRecDepth 16384

noncomputable section

namespace Cert.Mine.KB

open Cert.Kernel Cert.Kernel.Gen
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F]

local notation "𝕄" => MT nD τ sig (HIx 1) (Elt F) ℕ UU ℕ

/-- The prefetched tables' admissible contents: no table. -/
abbrev adm : (p : Fin 1) → (pcfgs (F := F) p).Adm := fun p => (cfgs p).toPCfg_adm

variable (V : Dev nD → Valuation τ sig (Elt F)) (B : Dev nD → Set (SemLoc sig × HIx 1))

/-- The three windowed arrays at the valuation. -/
abbrev VA0 (c : Dev nD) : Buf (Elt F) ((c : Thread nD τ).loc main_v5) := V c v5'
abbrev VA1 (c : Dev nD) : Buf (Elt F) ((c : Thread nD τ).loc main_v3) := V c v3'
abbrev VA2 (c : Dev nD) : Buf (Elt F) ((c : Thread nD τ).loc main_v6) := V c v6'

/-- The kernel's result at the valuation. -/
abbrev resultOf (c : Dev nD) : Buf (Elt F) ((c : Thread nD τ).loc main_v6) := fun _ => kerOut (entry (VA0 V c)) (rows (VA1 V c))

/-- The valuation after the region. -/
abbrev Vout (c : Dev nD) : Valuation τ sig (Elt F) := Function.update (V c) v6' (resultOf V c)

/-- The nine arrays that pass by the region, at the valuation. -/
def restOf (c : Dev nD) : sProp 𝕄 :=
  iprop((locOf c main_arg0 ↦{fullShare} V c a0') ∗ (locOf c main_arg1 ↦{fullShare} V c a1') ∗ (locOf c main_arg2 ↦{fullShare} V c a2')
    ∗ (locOf c main_arg3 ↦{fullShare} V c a3') ∗ (locOf c main_v0 ↦{fullShare} V c v0') ∗ (locOf c main_v1 ↦{fullShare} V c v1')
    ∗ (locOf c main_v2 ↦{fullShare} V c v2') ∗ (locOf c main_v4 ↦{fullShare} V c v4') ∗ (locOf c main_v7 ↦{fullShare} V c v7'))

/-- The thread state the region is entered from: the twelve arrays at the valuation, nothing owed and the recorded waits
    within the bound, the generator register. -/
def regionPre (c : Dev nD) : sProp 𝕄 :=
  iprop(held (T c) SAll (V c) ∗ (∃ W, ⌜↑W ⊆ B c⌝ ∗ owes (T c) (0 : CellTallies nD τ sig (HIx 1)) W) ∗ ∃ r, prngReg c r)

/-- The thread state it leaves: the result array at the kernel's value, the recorded waits grown by the staging cells' at
    most. -/
def regionPost (c : Dev nD) : sProp 𝕄 :=
  iprop(held (T c) SAll (Vout V c) ∗ (∃ W, ⌜↑W ⊆ B c ∪ cfg1.waitPairs (none : HIx 1)⌝ ∗ owes (T c) (0 : CellTallies nD τ sig (HIx 1)) W)
    ∗ ∃ r, prngReg c r)

set_option backward.isDefEq.respectTransparency.types false in
/-- THE REGION: the pipeline's layout, no semaphore of the kernel's own, the body obligation, and the four entailments. -/
def regionSeg : Pipeline.RegionSeg (pcfgs (F := F)) adm (dats (VA0 V) (VA1 V) (VA2 V) B) (none : HIx 1) defs₀ Variants.none
    (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation (VA0 V) (VA1 V) (VA2 V) B c).loose
  hwaits := Pipeline.hwaits_of_owed_zero _ _ _ _ _ _ 0 fun _ _ => rfl
  pre c := regionPre V B c
  post c := regionPost V B c
  X c := iprop(∃ r, prngReg c r)
  Y c := iprop(∃ r, prngReg c r)
  Z c := restOf V c
  hentry c := by
    unfold regionPre
    rw [show (held (T c) SAll (V c) : sProp 𝕄) = unscopedBufs c (fun b => V c (Proc.devRef .tc b)) from by
      rw [unscopedBufs_eq, held_SAll]]
    have hsplit := (Pipeline.arrays_of_unscopedBufs (pcfgs (F := F)) adm (dats (VA0 V) (VA1 V) (VA2 V) B) launch1.win launch1.arr_whole c
      ((dats (VA0 V) (VA1 V) (VA2 V) B 0 c).share_full fun _ => rfl) (fun b => V c (Proc.devRef .tc b))
      (fun w => match w with | ⟨0, _⟩ => rfl | ⟨1, _⟩ => rfl | ⟨2, _⟩ => rfl)).trans
      (sep_mono .rfl (Entails.of_eq (unscopedRest1_eq c _)))
    iintro ⟨⟨Hub, HO, Hr⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitl [Hr]; · iexact Hr
    unfold restOf; iexact Hrest
  hin c := by
    rw [show (dats (VA0 V) (VA1 V) (VA2 V) B 0 c).Φ 0 = ΦK c from rfl]; unfold ΦK
    iintro ⟨Hr, -, Hs⟩
    isplitl [Hs]; · iexact Hs
    iexact Hr
  hout c := by
    rw [Pipeline.ownSems0_none, show (dats (VA0 V) (VA1 V) (VA2 V) B 0 c).Φ (Fin.last cfg1.N) = ΦK c from rfl]; unfold ΦK
    iintro ⟨Hs, Hr⟩
    isplitl [Hr]; · iexact Hr
    isplitr; · iempintro
    iexact Hs
  hexit c := by
    rw [Pipeline.arrays_eq (Pipeline.pin (pcfgs (F := F)) adm) (dats (VA0 V) (VA1 V) (VA2 V) B) 0 c launch1.arr_whole
      ((dats (VA0 V) (VA1 V) (VA2 V) B 0 c).share_full fun _ => rfl), bigSep_W1]
    have e0 : (dats (VA0 V) (VA1 V) (VA2 V) B 0 c).arrAt 0 (Pipeline.pin (pcfgs (F := F)) adm 0).N = V c v5' :=
      arrAt0 (VA0 V) (VA1 V) (VA2 V) B c _
    have e1 : (dats (VA0 V) (VA1 V) (VA2 V) B 0 c).arrAt 1 (Pipeline.pin (pcfgs (F := F)) adm 0).N = V c v3' :=
      arrAt1 (VA0 V) (VA1 V) (VA2 V) B c _
    have e2 : (dats (VA0 V) (VA1 V) (VA2 V) B 0 c).arrAt 2 (Pipeline.pin (pcfgs (F := F)) adm 0).N = resultOf V c :=
      arrAt2 (VA0 V) (VA1 V) (VA2 V) B c
    rw [e0, e1, e2]
    have hne : ∀ b, b ≠ v6' → Vout V c b = V c b := fun b hb => Function.update_of_ne hb _ _
    unfold regionPost restOf
    rw [held_SAll, hne a0' (by decide), hne a1' (by decide), hne a2' (by decide), hne a3' (by decide), hne v0' (by decide),
      hne v1' (by decide), hne v2' (by decide), hne v3' (by decide), hne v4' (by decide), hne v5' (by decide), hne v7' (by decide),
      show Vout V c v6' = resultOf V c from Function.update_self _ _ _]
    iintro ⟨⟨H5, H3, H6⟩, HO, Hr, ⟨Ha0, Ha1, Ha2, Ha3, Hv0, Hv1, Hv2, Hv4, Hv7⟩⟩
    imodintro
    isplitl [Ha0 Ha1 Ha2 Ha3 Hv0 Hv1 Hv2 Hv4 Hv7 H5 H3 H6]
    · isplitl [Ha0]; · iexact Ha0
      isplitl [Ha1]; · iexact Ha1
      isplitl [Ha2]; · iexact Ha2
      isplitl [Ha3]; · iexact Ha3
      isplitl [Hv0]; · iexact Hv0
      isplitl [Hv1]; · iexact Hv1
      isplitl [Hv2]; · iexact Hv2
      isplitl [H3]; · iexact H3
      isplitl [Hv4]; · iexact Hv4
      isplitl [H5]; · iexact H5
      isplitl [H6]; · iexact H6
      iexact Hv7
    isplitl [HO]
    · unfold Pipeline.Dat.owesAt Pipeline.owesWithin
      icases HO with ⟨%W, %hW, HO⟩; iexists W; isplitr; · ipureintro; exact hW
      iexact HO
    iexact Hr

set_option backward.isDefEq.respectTransparency.types false in
/-- THE STEP: from the boundary, the region's entry state, the level facts and the pipeline's ghost state, the call that
    enters the region runs to the boundary and the region's exit state for the continuation. -/
theorem region_step (d : Dev nD) {α : Type}
    (k : PUnit → Prog (TpuEff nD τ sig (Elt F) (Pipeline.Sig Λ₀ (Fin 1) fun p => (pcfgs (F := F) p).Adm) .tc) α) (Q : α → sProp 𝕄) :
    iprop((iprop(boundary (T d) ∗ regionPost V B d) -∗ wp frame (wpE (D (F := F)) 𝒱 (T d) none) Set.univ (k ⟨⟩) Q)
        ∗ boundary (T d) ∗ regionPre V B d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE (D (F := F)) 𝒱 (T d) none) Set.univ (.op (.customCall (Pipeline.entry 0) ()) k) Q :=
  Pipeline.RegionSeg.wp (pcfgs (F := F)) adm (dats (VA0 V) (VA1 V) (VA2 V) B) (none : HIx 1) cellOf_inj (EP (F := F)) defs₀ Variants.none
    (K (F := F)).L (K (F := F)).lev (regionSeg V B) d none (fun u hu => nomatch hu) k Q

/-- The call of the region's entry, lifted to the extended body table, is the enclosing program's line. -/
theorem lift_line : (SparseCore.liftProg (Q := 1) (.op (.customCall (Pipeline.entry (0 : Fin 1)) ()) fun _ => .ret PUnit.unit)
      : Prog (TpuEff nD τ sig (Elt F) (SparseCore.Sig (ΛP (F := F)) 1) .tc) PUnit)
    = Prog.lift (.customCall (SparseCore.inner (Pipeline.entry 0)) ()) := rfl

set_option backward.isDefEq.respectTransparency.types false in
/-- A proof about that call under the pipelines' body table is one about the line under the extended table. -/
theorem lift_wp (d : Dev nD) (Φ : PUnit → sProp 𝕄) :
    wp frame (wpE (D (F := F)) 𝒱 (T d) none) Set.univ ((.op (.customCall (Pipeline.entry (0 : Fin 1)) ()) fun _ => .ret PUnit.unit) : Prog (TpuEff nD τ sig (Elt F) (ΛP (F := F)) .tc) PUnit) Φ
      ⊢ wp frame (wpE ((K (F := F)).defs (D (F := F))) 𝒱 (T d) none) Set.univ
          (SparseCore.liftProg (Q := 1) (.op (.customCall (Pipeline.entry (0 : Fin 1)) ()) fun _ => .ret PUnit.unit)) Φ :=
  (K (F := F)).wp_liftProg (D (F := F)) 𝒱 (T d) Set.univ none _ Φ

set_option backward.isDefEq.respectTransparency.types false in
/-- THE STEP AS THE ENCLOSING PROGRAM SPELLS IT: the call of the region's entry through the extended body table,
    alone, to any postcondition that the boundary and the region's exit state give. -/
theorem region_line (d : Dev nD) (Φ : PUnit → sProp 𝕄) :
    iprop((iprop(boundary (T d) ∗ regionPost V B d) -∗ Φ ⟨⟩)
        ∗ boundary (T d) ∗ regionPre V B d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (T d) none) Set.univ
          (Prog.lift (.customCall (SparseCore.inner (Pipeline.entry 0)) ())) Φ := by
  have h := (region_step V B d (fun _ => .ret PUnit.unit) Φ).trans (lift_wp d Φ)
  rw [lift_line] at h
  have h0 : iprop((iprop(boundary (T d) ∗ regionPost V B d) -∗ Φ ⟨⟩)
        ∗ boundary (T d) ∗ regionPre V B d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ iprop((iprop(boundary (T d) ∗ regionPost V B d) -∗ wp frame (wpE (D (F := F)) 𝒱 (T d) none) Set.univ (.ret PUnit.unit) Φ)
        ∗ boundary (T d) ∗ regionPre V B d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d) := by
    iintro ⟨Hk, H⟩
    isplitl [Hk]
    · iintro H
      rw [wp_ret]; imodintro
      iapply Hk; iexact H
    · iexact H
  exact h0.trans h

/-! ## What the launch element must provide -/

/-- The staging cells' component of the launch element: the rounds' launch element at the pipeline's staging cells and
    the tokens of the transfers its loop issues. -/
def uPipe : UP := initOf (Pipeline.cells (Pipeline.pin (pcfgs (F := F)) adm) cellOf_inj) (Pipeline.launchToks (Pipeline.pin (pcfgs (F := F)) adm) cellOf_inj)

/-- The launch element splits into its three components, each owned through its embedding. -/
theorem ownU_split (uH : UH) (uP : UP) (uC : Counters) :
    (ownU ((uH, (uP, uC)) : UU) : sProp 𝕄)
      ⊢ iprop(BI.own ((EH (F := F)) uH) ∗ BI.own ((EP (F := F)) uP)
          ∗ BI.own (((Emb.inr : Emb Counters (UP × Counters)).trans (embR : Emb (UP × Counters) 𝕄)) uC)) :=
  (ownU_pair uH (uP, uC)).trans (sep_mono .rfl (own_pair_emb embR uP uC))

set_option backward.isDefEq.respectTransparency.types false in
/-- From the staging cells' component, every core's ghost state and duty tokens for the pipeline: what the step takes. -/
theorem launch_ghost :
    (BI.own ((EP (F := F)) (uPipe (F := F))) : sProp 𝕄)
      ⊢ iprop(|==> bigSep Finset.univ fun d : Dev nD =>
          iprop(Pipeline.cellsGhost (Pipeline.pin (pcfgs (F := F)) adm) (EP (F := F)) 0 d ∗ Pipeline.toksInit (Pipeline.pin (pcfgs (F := F)) adm) (EP (F := F)) 0 d)) := by
  refine (Pipeline.fund_ghost (Pipeline.pin (pcfgs (F := F)) adm) (EP (F := F)) cellOf_inj).trans ?_
  have e : ∀ Ψ : Fin 1 → sProp 𝕄, bigSep Finset.univ Ψ = Ψ 0 := fun Ψ => by
    rw [show (Finset.univ : Finset (Fin 1)) = {0} from rfl, bigSep_singleton]
  simp only [e]
  exact .rfl

end Cert.Mine.KB

end
-- ==== Proof.FinalReadB.lean ====
/-
  How the final assertion reads the claim off the final memory.

  At its end the enclosing program holds its twelve arrays whole, at the contents the last step leaves. A
  whole array held at contents `f` pins the physical contents of that array to `f`; so the final memory has
  the result array at the loss kernel's 1 x 1 result read as a scalar, and each of the four arguments at its
  launch contents, which no step writes.
-/
import proofs.«212862_g50483045597572_cont_8to1c4_140_39_alg».proof.Proof.HostOpsB

noncomputable section

namespace Cert.Mine.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ)
  (f3 : (d : Dev nD) → Buf (Elt F) (locOf d main_v3)) (f6 : (d : Dev nD) → Buf (Elt F) (locOf d main_v6))

/-- What the enclosing program ends holding on device `d`: the twelve arrays at the last step's contents. -/
def FIN (d : Dev nD) : sProp 𝕄 := held (T d) SAll (V8 m d (f3 d) (f6 d))

/-- What a final state's memory holds on device `d`: the result, and the four arguments unchanged. -/
def fq (m : (ℓ : Loc nD τ sig) → Buf (Elt F) ℓ) (f3 : (d : Dev nD) → Buf (Elt F) (locOf d main_v3))
    (f6 : (d : Dev nD) → Buf (Elt F) (locOf d main_v6)) (d : Dev nD) (s' : Phys nD τ sig (Elt F)) : Prop :=
  s'.mem.mem (locOf d main_v7) = shapeCast S_ (f6 d) Facts₀.shapeCasts_S1x1_S_
    ∧ s'.mem.mem (locOf d main_arg0) = m (locOf d main_arg0) ∧ s'.mem.mem (locOf d main_arg1) = m (locOf d main_arg1)
    ∧ s'.mem.mem (locOf d main_arg2) = m (locOf d main_arg2) ∧ s'.mem.mem (locOf d main_arg3) = m (locOf d main_arg3)

theorem hfin (d : Dev nD) (s' : Phys nD τ sig (Elt F)) : iprop(FIN m f3 f6 d ∗ SI s') ⊢ (⌜fq m f3 f6 d s'⌝ : sProp 𝕄) := by
  unfold FIN held
  iintro ⟨H, HSI⟩
  ihave %h := (SI_pointsTo_bufs_agree (qs := fun _ => fullShare) SAll) $$ [HSI H]
  · isplitl [HSI]; · iexact HSI
    iexact H
  ipureintro
  exact ⟨(h v7' (by decide)).trans (V8_v7 m d (f3 d) (f6 d)), (h a0' (by decide)).trans (V8_a0 m d (f3 d) (f6 d)),
    (h a1' (by decide)).trans (V8_a1 m d (f3 d) (f6 d)), (h a2' (by decide)).trans (V8_a2 m d (f3 d) (f6 d)),
    (h a3' (by decide)).trans (V8_a3 m d (f3 d) (f6 d))⟩

/-- The claim about the program's final memory: on every device the result and the unchanged arguments. -/
def QC (m : (ℓ : Loc nD τ sig) → Buf (Elt F) ℓ) (f3 : (d : Dev nD) → Buf (Elt F) (locOf d main_v3))
    (f6 : (d : Dev nD) → Buf (Elt F) (locOf d main_v6)) : PUnit.{1} × MemSt nD τ sig (Elt F) → Prop := fun r => ∀ c : Dev nD,
  r.2.mem ((c.tc : Thread nD τ).loc main_v7) = shapeCast S_ (f6 c) Facts₀.shapeCasts_S1x1_S_
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem hQ : ∀ s' : Phys nD τ sig (Elt F), (∀ d, fq m f3 f6 d s') → QC m f3 f6 (⟨⟩, s'.mem) := fun _ h c => h c

end Cert.Mine.KB

end
-- ==== Proof.KernelRunB.lean ====
/-
  The kernel program's run. The gather's sixteen tasks and the pipelined kernel on the TensorCore are put
  under the launch theorem for programs with kernels on the vector subcores: every weakly fair execution of
  the device's threads ends, nothing faults, the four argument arrays end as they began, and the result is
  the pipelined kernel's value of the scale and of the gathered rows of the re-laid table.
-/
import proofs.«212862_g50483045597572_cont_8to1c4_140_39_alg».proof.Proof.TileBodyB
import proofs.«212862_g50483045597572_cont_8to1c4_140_39_alg».proof.Proof.VecSplitB
import proofs.«212862_g50483045597572_cont_8to1c4_140_39_alg».proof.Proof.HostOpsB
import proofs.«212862_g50483045597572_cont_8to1c4_140_39_alg».proof.Proof.LaunchElemB
import proofs.«212862_g50483045597572_cont_8to1c4_140_39_alg».proof.Proof.RegionStepB
import proofs.«212862_g50483045597572_cont_8to1c4_140_39_alg».proof.Proof.FinalReadB

noncomputable section

namespace Cert.Mine.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays the gather works on, as the host operations before it leave them -/

/-- The re-laid table, the flat list of positions, the gathered rows. -/
abbrev tblOf (d : Dev nD) : Buf (Elt F) (tLoc d) := V3 m d v1'
abbrev idxOf (d : Dev nD) : Buf (Elt F) (iLoc d) := V3 m d v2'
abbrev gathOf (d : Dev nD) : Buf (Elt F) (oLoc d) := gathered d (tblOf m d) (idxOf m d)

/-- The call's payloads at those arrays. -/
abbrev PP : (K (F := F)).Pay (nD := nD) (Val := Elt F) (Name := ℕ) (U := UU) := P (tblOf m) (idxOf m) (gathOf m)

/-- Every position is at most 41343. -/
def PosOK : Prop := ∀ (d : Dev nD) j, ((idxOf m d) j).toNat ≤ 41343

/-! ## The launch theorem's obligation for the gather -/

theorem defs₀_vector (c : Fin τ.nSC) (s : Fin τ.nSub) :
    defs₀ (F := F) (.scVector c s) 0 ()
      = SparseCore.onTile hcore0 hsub0 (fun c s => cc0_gather_kernel (coordsV c s)
          tblW (Memref.isWhole_whole _) idxW (Memref.isWhole_whole _) outW (Memref.isWhole_whole _)
          sA (Memref.isWhole_whole _) sB (Memref.isWhole_whole _) sR (Memref.isWhole_whole _) cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's coordinates of task `i` are tile `i`'s. -/
theorem coords_tile (c : Fin ((K (F := F)).nCore 0)) (i : Fin ((K (F := F)).nSub 0))
    (hc : ((K (F := F)).core 0 c).val < grid0.bound 0) (hi : ((K (F := F)).sub 0 i).val < grid0.bound 1) :
    coordsV ⟨_, hc⟩ ⟨_, hi⟩ = tileL (Fin.cast nSub_zero i) := by
  funext a
  match a with
  | ⟨0, _⟩ => exact Fin.ext (by show ((K (F := F)).core 0 c).val = 0; have := c.isLt; simp only [nCore_zero] at this; have h2 : ((K (F := F)).core 0 c).val = c.val := rfl; omega)
  | ⟨1, _⟩ => exact Fin.ext rfl

theorem tileObl (hF : (K (F := F)).Facts) (hpos : PosOK m) : (K (F := F)).TileObl (D (F := F)) 𝒱 (PP m) v₀ 0 := by
  intro d c i O W hO _ _
  simp only [show (PP m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hL := coords_tile (F := F) c i hc.1 hc.2
  have key := (tile_body (F := F) d (coordsV ⟨_, hc.1⟩ ⟨_, hc.2⟩) (tblOf m d) (idxOf m d)
    (Transfers.shareTok fullShare 16 (Fin.cast nSub_zero i)) hF (hpos d) O W hO).trans
      (wp_mono frame _ _ fun _ => obl_post (q := (0 : Fin 1)))
  show iprop(_ ∗ emp ∗ (tblTok (tblOf m) d (Fin.cast nSub_zero i) ∗ idxPart (idxOf m) d (Fin.cast nSub_zero i)
        ∗ ∃ f, outPart d (Fin.cast nSub_zero i) f) ∗ _ ∗ _ ∗ _)
      ⊢ wp _ _ _ _ (fun _ => iprop((tblTok (tblOf m) d (Fin.cast nSub_zero i) ∗ idxPart (idxOf m) d (Fin.cast nSub_zero i)
        ∗ outPart d (Fin.cast nSub_zero i) (gathOf m d)) ∗ _ ∗ _ ∗ _))
  unfold idxPart outPart
  rw [← hL]
  exact key

/-! ## @main on the TensorCore -/

/-- What the call takes for the one SparseCore, and what it hands back. -/
theorem st0_eq (d : Dev nD) : (bigSep Finset.univ fun c : Fin ((K (F := F)).nCore 0) => (PP m).st 0 d c)
    = iprop(tblPts (tblOf m) d ∗ idxPts (idxOf m) d ∗ ∃ f, outPts d f) := by
  show (bigSep (Finset.univ : Finset (Fin 1)) fun _ => iprop(tblPts (tblOf m) d ∗ idxPts (idxOf m) d ∗ ∃ f, outPts d f)) = _
  rw [show (Finset.univ : Finset (Fin 1)) = {0} by decide, bigSep_singleton]
theorem dn0_eq (d : Dev nD) : (bigSep Finset.univ fun c : Fin ((K (F := F)).nCore 0) => (PP m).dn 0 d c)
    = iprop(tblPts (tblOf m) d ∗ idxPts (idxOf m) d ∗ outPts d (gathOf m d)) := by
  show (bigSep (Finset.univ : Finset (Fin 1)) fun _ => iprop(tblPts (tblOf m) d ∗ idxPts (idxOf m) d ∗ outPts d (gathOf m d))) = _
  rw [show (Finset.univ : Finset (Fin 1)) = {0} by decide, bigSep_singleton]

/-- What the pipelined kernel stores: its value of the scale and of the gathered rows. -/
abbrev VR (d : Dev nD) : Valuation τ sig (Elt F) := V6 m d (gathOf m d)
abbrev resOf (d : Dev nD) : Buf (Elt F) (locOf d main_v6) := resultOf (VR m) d

/-- The wait pairs a thread may have recorded: those at level at most 8. -/
abbrev BW (d : Dev nD) : Set (SemLoc sig × HIx 1) := {p | (K (F := F)).lev (SparseCore.T d, p.1) p.2 ≤ 8}

theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m (gathOf m) (resOf m) d) := by
  unfold SparseCore.Cfg.tcRes
  rw [unscoped_held]
  simp only [main, wp_bind, wp_pure]
  iintro ⟨#Hctx, Hst, ⟨Hb, Hheld, Hs0, Hprng⟩, HG⟩
  iapply (wp_ops_before m d _) $$ [Hb Hheld]
  · isplitl [Hb] <;> iassumption
  iintro ⟨Hb, Hheld⟩
  ihave Hh := (Entails.of_eq (held_V3_call (F := F) m d)) $$ Hheld
  icases Hh with ⟨Ht, Hi, Ho, Hrest⟩
  iapply ((K (F := F)).wp_run (D (F := F)) 𝒱 (EH := EH) (P := PP m) κ d 0) $$ [Hst Ht Hi Ho Hb Hrest Hs0 Hprng HG]
  isplitr; · iexact Hctx
  isplitl [Hst]; · iexact Hst
  isplitl [Ht Hi Ho]
  · rw [st0_eq]
    isplitl [Ht]; · iexact Ht
    isplitl [Hi]; · iexact Hi
    iexists _; iexact Ho
  iintro ⟨Hst, Hdn⟩
  ihave Hdn' := (Entails.of_eq (dn0_eq m d)) $$ Hdn
  icases Hdn' with ⟨Ht, Hi, Ho⟩
  ihave Hheld := (Entails.of_eq (held_V4_call (F := F) m d (gathOf m d)).symm) $$ [Ht Hi Ho Hrest]
  · isplitl [Ht]; · iexact Ht
    isplitl [Hi]; · iexact Hi
    isplitl [Ho]; · iexact Ho
    iexact Hrest
  iapply (wp_ops_between m d (gathOf m d) _) $$ [Hb Hheld]
  · isplitl [Hb] <;> iassumption
  iintro ⟨Hb, Hheld⟩
  -- the pipelined kernel's region: lifted to the extended body table, then the region rule
  ihave Hlev := ((K (F := F)).ctx_levAts κ) $$ Hctx
  unfold SparseCore.Cfg.tcSt
  icases Hst with ⟨⟨%W, %hW, HO⟩, Hat, Hrd, Hrs, Htoks⟩
  rw [(K (F := F)).Otc_end d (le_refl 1)]
  unfold G
  icases HG with ⟨Hcg, Hti⟩
  iapply ((K (F := F)).wp_liftProg (D (F := F)) 𝒱 (SparseCore.T d) Set.univ none
    (.op (.customCall (Pipeline.entry 0) ()) fun _ => .ret PUnit.unit) _)
  iapply (region_step (F := F) (VR m) (BW (F := F)) d (fun _ => .ret PUnit.unit) _) $$ [Hb Hheld HO Hprng Hlev Hcg Hti Hat Hrd Hrs Htoks]
  isplitl [Hat Hrd Hrs Htoks]
  swap
  · isplitl [Hb]; · iexact Hb
    isplitl [Hheld HO Hprng]
    · unfold regionPre
      isplitl [Hheld]; · iexact Hheld
      isplitl [HO]
      · iexists W; isplitr
        · ipureintro; intro p hp; exact hW p hp
        · iexact HO
      · iexists _; iexact Hprng
    isplitl [Hlev]; · iexact Hlev
    isplitl [Hcg]; · iexact Hcg
    iexact Hti
  iintro ⟨Hb, Hpost⟩
  unfold regionPost
  icases Hpost with ⟨Hheld, ⟨%W', %hW', HO⟩, Hprng⟩
  rw [wp_ret]; imodintro
  -- the last host operation, and the TensorCore's state before call 1 put back together
  iapply (wp_op_last m d (gathOf m d) (resOf m d) _) $$ [Hb Hheld]
  · isplitl [Hb]; · iexact Hb
    iexact Hheld
  iintro ⟨Hb, Hheld⟩
  imodintro
  isplitl [HO Hat Hrd Hrs Htoks]
  · isplitl [HO]
    · iexists W'; isplitr
      · ipureintro
        intro p hp
        rcases hW' (Finset.mem_coe.mpr hp) with h | h
        · exact h
        · obtain ⟨w, s, rfl⟩ := h
          exact Nat.zero_le _
      · iexact HO
    isplitl [Hat]; · iexact Hat
    isplitl [Hrd]; · iexact Hrd
    isplitl [Hrs]; · iexact Hrs
    iexact Htoks
  · unfold FIN; iexact Hheld

/-! ## The run -/

/-- At the compiled mesh, from any memory with every semaphore at zero in which every position is at most
    41343: every weakly fair execution of the device's threads ends, nothing faulting, with the result at
    the reshape of what the pipelined kernel stored and the four arguments as they began. -/
theorem run_main [∀ e, Nonempty (Elt F e)] (hpos : PosOK m) :
    θ_run (Cert.Kernel.defs (F := F)) (Cert.Kernel.threads (F := F)) ⟨m, fun _ => 0, ρ⟩ (QC m (gathOf m) (resOf m)) :=
  SparseCore.Cfg.θ_run_sc (K := K (F := F)) (D := D (F := F)) (𝒱 := 𝒱) (EH := EH) (P := PP m) facts v₀
    (fun q hq => match q with | 0 => nomatch hq)
    (fun q _ => match q with | 0 => tileObl m facts hpos)
    (fun q _ => match q with | 0 => SparseCore.Cfg.VecSplit.of_plain (vecSplit (tblOf m) (idxOf m) (gathOf m)))
    m ρ main (G (F := F)) (FIN m (gathOf m) (resOf m)) (u₀ (F := F))
    (sep_elim_left.trans (hu₀ (tblOf m) (idxOf m) (gathOf m))) (hmain m ρ)
    (fq m (gathOf m) (resOf m)) (hfin m (gathOf m) (resOf m)) (QC m (gathOf m) (resOf m)) (hQ m (gathOf m) (resOf m))

/-- The positions' range, from the range of the position array the flat list is a reshape of. -/
theorem posOK_of_range (h : ∀ (d : Dev nD) i, ((m (locOf d main_arg1)) i).toNat ≤ 41343) : PosOK m := by
  intro d j
  show ((V3 m d v2') j).toNat ≤ 41343
  rw [V3_v2]
  exact h d _

end Cert.Mine.KB

end
-- ==== Proof.Spec.lean ====
/-
  The loss both programs compute, as mathematics over the extended reals, in the two arrangements that
  have to be shown equal.

  Eight images; from image `b` sixty-four feature rows of 128 channels are picked, row `k` at the flat
  position `ind[b,k]` of the image's 152 x 272 grid: `feat b k c = x[b, c, ind[b,k] / 272, ind[b,k] % 272]`.
  Each row is scaled to length `s` (its Euclidean norm floored at a small positive constant), and for
  every row the distance to its nearest OTHER row of the same image is taken; the loss is the mean over
  all 512 rows of `max 0 (margin - nearest distance)`.

  One arrangement scales a row by the quotient `s / norm` and gets squared distances from the expansion
  `|a|^2 + |b|^2 - 2 a.b`, clamped at zero; the other divides the product `s * row` by the norm and sums the
  squared differences channel by channel.
-/
import Idealize.ShloMosaic.PureOps.Ideal
import Idealize.ShloMosaic.Lib.ValueIdx

noncomputable section

namespace Cert.Mine

open Idealize.ShloMosaic Idealize.ShloMosaic.ValueIdx

/-- The floor under a row's norm (the single-precision value nearest 1e-12). -/
def floorC : EReal := Ideal.ofBits .f32 0x2B8CBCCC#32
/-- The factor 2 of the expansion. -/
def twoC : EReal := Ideal.ofBits .f32 0x40000000#32
/-- The hinge's margin, 10. -/
def marginC : EReal := Ideal.ofBits .f32 0x41200000#32
/-- Zero. -/
def zeroC : EReal := Ideal.ofBits .f32 0x00000000#32
/-- The value a row's distance to itself is replaced by: plus infinity. -/
def infC : EReal := Ideal.ofBits .f32 0x7F800000#32
/-- The number of rows, 512. -/
def countC : EReal := Ideal.ofBits .f32 0x44000000#32

/-- The picked feature rows: channel `c` of image `b` at the flat grid position `ind[b,k]`. -/
def feat (x : (⟨4, ![8, 128, 152, 272]⟩ : Shape).Idx → EReal) (ind : (⟨2, ![8, 64]⟩ : Shape).Idx → BitVec 32) :
    Fin 8 → Fin 64 → Fin 128 → EReal :=
  fun b k c => x (ix4 b c ⟨(ind (ix2 b k)).toNat / 272 % 152, Nat.mod_lt _ (by norm_num)⟩
    ⟨(ind (ix2 b k)).toNat % 272, Nat.mod_lt _ (by norm_num)⟩)

variable (s : EReal) (f : Fin 8 → Fin 64 → Fin 128 → EReal)

/-- A row's Euclidean norm, floored. -/
def nrm (b : Fin 8) (k : Fin 64) : EReal := max (Ideal.sqrt (∑ c, f b k c * f b k c)) floorC

/-! ## Scaling by the quotient, distances by expansion -/

def embK (b : Fin 8) (k : Fin 64) (c : Fin 128) : EReal := f b k c * Ideal.div s (nrm f b k)
def sqK (b : Fin 8) (k : Fin 64) : EReal := ∑ c, embK s f b k c * embK s f b k c
def gramK (b : Fin 8) (i j : Fin 64) : EReal := ∑ c, embK s f b i c * embK s f b j c
def distK (b : Fin 8) (i j : Fin 64) : EReal :=
  if i = j then infC else max ((sqK s f b i + sqK s f b j) - twoC * gramK s f b i j) zeroC
def hingeK (b : Fin 8) (i : Fin 64) : EReal :=
  max zeroC (marginC - Finset.univ.inf fun j => Ideal.sqrt (distK s f b i j))
def lossK : EReal := Ideal.div (∑ b, ∑ i, hingeK s f b i) countC

/-! ## Dividing the product, distances channel by channel -/

def embR (b : Fin 8) (k : Fin 64) (c : Fin 128) : EReal := Ideal.div (s * f b k c) (nrm f b k)
def distR (b : Fin 8) (i j : Fin 64) : EReal :=
  if i = j then infC else ∑ c, (embR s f b i c - embR s f b j c) * (embR s f b i c - embR s f b j c)
def hingeR (b : Fin 8) (i : Fin 64) : EReal :=
  max zeroC (marginC - Finset.univ.inf fun j => Ideal.sqrt (distR s f b i j))
def lossR : EReal := Ideal.div (∑ b, ∑ i, hingeR s f b i) countC

end Cert.Mine

end
-- ==== Proof.KernelValue.lean ====
/-
  The arithmetic of the kernel body, as one pure term, and the proof that at the extended reals it is
  the hinge loss in the arrangement "scale each row by the quotient, squared distances by expansion".

  The body handles the eight images one after the other. For image `b` it scales the 64 rows, forms the
  64 x 64 matrix of squared distances from the rows' squared lengths and their inner products, replaces the
  diagonal by plus infinity, takes square roots, takes each row's minimum, applies the hinge, and adds the
  64 hinge values to a running total that starts at zero; at the end the total is divided by 512.
  Read index by index, every step is the corresponding step of the specification; the only algebra used
  is that the running total `0 + p0 + p1 + ... + p7` is the sum over the eight images.
-/
import proofs.«212862_g50483045597572_cont_8to1c4_140_39_alg».proof.Proof.Gen.KernelIdeal.Skeleton
import proofs.«212862_g50483045597572_cont_8to1c4_140_39_alg».proof.Proof.Spec
import Idealize.ShloMosaic.Lib.ValueLayout
import Idealize.ShloMosaic.PureOps.Ideal.Laws

noncomputable section

namespace Cert.Mine.Ker

open Idealize.ShloMosaic Idealize.ShloMosaic.ValueIdx Cert.KernelIdeal Cert.KernelIdeal.Gen

/-- The value the body finally stores, from the loaded scalar and the eight loaded blocks, in the
    order the body chains its pieces. -/
def out {F : FTy → Type} [FloatOps F] (v0 : Elt F .f32)
    (g : Fin 8 → Vec F Cert.KernelIdeal.S64x128 .f32) : F .f32 :=
  let v3 : IVec S64x64 1 := k1_pay1
  let v41 : F .f32 := k1_pay2 v0 (g 0)
  let v79 : F .f32 := k1_pay3 v0 v3 v41 (g 1)
  let v117 : F .f32 := k1_pay7 v0 v3 v79 (k1_pay4 (g 2)) (k1_pay5 (g 2)) (k1_pay6 (F := F))
  let v155 : F .f32 := k1_pay11 v3 v117 (k1_pay9 v0 (g 3)) (k1_pay10 v0 (g 3))
  let v193 : F .f32 := k1_pay15 v3 v155 (k1_pay13 v0 (g 4)) (k1_pay14 v0 (g 4))
  let v231 : F .f32 := k1_pay17 v193 (k1_pay16 v0 v3 (g 5))
  k1_pay19 v0 v3 v231 (k1_pay18 v0 v3 (g 6)) (g 7)

/-! ## Reshapes, broadcasts and one-axis reductions read at explicit coordinates -/

section Layout
variable {α : Type}

/-- A vector viewed as a one-column matrix reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one entry of a 1 x 1 matrix. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

end Layout

/-- In a reduction of a matrix along its rows, the source index over row `k` at column `c` is `(k, c)`. -/
theorem lift_row {n m : ℕ} (h : (⟨2, ![n, m]⟩ : Shape).Reduces [1] ⟨1, ![n]⟩) (k : Fin n) (c : Fin m) :
    h.lift (ix1 k) c = ix2 k c := by
  funext a
  match a with
  | ⟨0, _⟩ => exact Fin.ext rfl
  | ⟨1, _⟩ => exact Fin.ext rfl

/-- A sum along the rows of a matrix, at row `k`: the sum over the columns. -/
theorem sum_row {n m : ℕ} (v : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ) (k : Fin n) :
    multiReduction .add [1] ⟨1, ![n]⟩ v 0x00000000#32 h hφ hacc (ix1 k) = ∑ c : Fin m, v (ix2 k c) :=
  (Ideal.multiReduction_add_single v _ h hφ hacc (ix1 k)).trans
    (Finset.sum_congr rfl fun c _ => congrArg v (lift_row h k c))

/-- The pattern of plus infinity denotes the top element. -/
theorem ofBits_inf : Ideal.ofBits .f32 0x7F800000#32 = (⊤ : EReal) := by simp [Ideal.ofBits, Ideal.ieee]

/-- A minimum along the rows of a matrix from plus infinity, at row `k`: the infimum over the columns. -/
theorem min_row {n m : ℕ} (v : FVec Ideal ⟨2, ![n, m]⟩ .f32) (h : (⟨2, ![n, m]⟩ : Shape).Reduces [1] ⟨1, ![n]⟩)
    (hφ : FKind.Formats .f32) (hacc : (0x7F800000#32 : BitVec 32) = FKind.minimumf.neutral .f32 hφ) (k : Fin n) :
    multiReduction .minimumf [1] ⟨1, ![n]⟩ v 0x7F800000#32 h hφ hacc (ix1 k)
      = Finset.univ.inf fun c : Fin m => v (ix2 k c) := by
  refine ((multiReduction_minimumf_eq_fold v _ h hφ hacc (ix1 k)).trans
    (h.fold_filter_drop_single _ _ v (ix1 k))).trans ?_
  have e : (v ∘ h.lift (ix1 k)) = fun c : Fin m => v (ix2 k c) := funext fun c => congrArg v (lift_row h k c)
  rw [e]
  show Finset.univ.fold min (Ideal.ofBits .f32 0x7F800000#32) (fun c : Fin m => v (ix2 k c)) = _
  rw [ofBits_inf]
  rfl

/-! ## The diagonal mask and the product of the scaled rows with themselves -/

/-- Two row numbers below 64, as 32-bit words, are the same word exactly when they are the same number. -/
theorem ofNat32_beq {a b : ℕ} (ha : a < 64) (hb : b < 64) :
    (BitVec.ofNat 32 a == BitVec.ofNat 32 b) = decide (a = b) := by
  by_cases h : a = b
  · subst h; simp
  · have hne : BitVec.ofNat 32 a ≠ BitVec.ofNat 32 b := fun e => h (by
      have e' := congrArg BitVec.toNat e
      simp only [BitVec.toNat_ofNat] at e'
      omega)
    simp [h, hne]

/-- The mask "row number equals column number" selects, at `(i, j)`, its first operand exactly when `i = j`. -/
theorem select_mask {α : Type} (A B : α) (i j : Fin 64) :
    Scalar.select ((k1_pay1 : IVec S64x64 1) (ix2 i j)) A B = if i = j then A else B := by
  have e : (k1_pay1 : IVec S64x64 1) (ix2 i j) = BitVec.ofBool (decide (i.val = j.val)) := by
    unfold k1_pay1
    show IntOp.cmpi .eq (iota .tc S64x64 32 [0] _ (ix2 i j)) (iota .tc S64x64 32 [1] _ (ix2 i j)) = _
    rw [iota_single_apply, iota_single_apply]
    show BitVec.ofBool (BitVec.ofNat 32 i.val == BitVec.ofNat 32 j.val) = _
    rw [ofNat32_beq i.isLt j.isLt]
  rw [e]
  unfold Scalar.select
  by_cases h : i = j
  · subst h; simp
  · have hv : i.val ≠ j.val := fun e => h (Fin.ext e)
    simp [h, hv]

/-- The product of a 64 x 128 matrix with its own transpose, into a zero accumulator, at `(i, j)`:
    the inner product of rows `i` and `j`. -/
theorem gram_apply (A : FVec Ideal S64x128 .f32) (i j : Fin 64) :
    matmul dot_S64x128_S64x128_S64x64_1_1_0_0_n_n (some .fp32) A A (constant S64x64 .f32 0x00000000#32) (ix2 i j)
      = ∑ c : Fin 128, A (ix2 i c) * A (ix2 j c) := by
  show FloatOps.matmul dot_S64x128_S64x128_S64x64_1_1_0_0_n_n (some .fp32) A A (constant S64x64 .f32 0x00000000#32) (ix2 i j) = _
  rw [Ideal.matmul_constant_zero_apply,
    ← Equiv.sum_comp (contrEquiv1 dot_S64x128_S64x128_S64x64_1_1_0_0_n_n 128 rfl rfl).symm]
  refine Finset.sum_congr rfl fun c _ => ?_
  have c2 := contrEquiv1_symm_val dot_S64x128_S64x128_S64x64_1_1_0_0_n_n 128 rfl rfl c
  have l2 : dot_S64x128_S64x128_S64x64_1_1_0_0_n_n.lhsIdx (ix2 i j) ((contrEquiv1 _ 128 rfl rfl).symm c) = ix2 i c := by
    funext ax; apply Fin.ext
    match ax with
    | ⟨0, _⟩ => simp [DotDims.lhsIdx, dot_S64x128_S64x128_S64x64_1_1_0_0_n_n]; rfl
    | ⟨1, _⟩ => simp [DotDims.lhsIdx, dot_S64x128_S64x128_S64x64_1_1_0_0_n_n]; exact c2
  have r2 : dot_S64x128_S64x128_S64x64_1_1_0_0_n_n.rhsIdx (ix2 i j) ((contrEquiv1 _ 128 rfl rfl).symm c) = ix2 j c := by
    funext ax; apply Fin.ext
    match ax with
    | ⟨0, _⟩ => simp [DotDims.rhsIdx, dot_S64x128_S64x128_S64x64_1_1_0_0_n_n]; rfl
    | ⟨1, _⟩ => simp [DotDims.rhsIdx, dot_S64x128_S64x128_S64x64_1_1_0_0_n_n]; exact c2
  rw [l2, r2]

/-! ## The stages of one image's computation, as the body writes them -/

/-- The squared lengths of a matrix's rows. -/
def rowSq (A : FVec Ideal S64x128 .f32) : FVec Ideal S64 .f32 :=
  multiReduction .add [1] S64 (mulf A A) 0x00000000#32 reduces_S64x128_S64 (.inl rfl) rfl

/-- The rows' norms, floored, as a column. -/
def normV (A : FVec Ideal S64x128 .f32) : FVec Ideal S64x1 .f32 :=
  maximumf (sqrt (shapeCast S64x1 (rowSq A) shapeCasts_S64_S64x1))
    (broadcast S64x1 (Scalar.ofBits .f32 0x2B8CBCCC#32))

/-- The block's rows, each scaled by the quotient of `s` by its floored norm. -/
def embV (s : EReal) (G : FVec Ideal S64x128 .f32) : FVec Ideal S64x128 .f32 :=
  mulf (shapeCast S64x128 G shapeCasts_S64x128_S64x128)
    (broadcastTo S64x128
      (divf (broadcast S64x1 s) (normV (shapeCast S64x128 G shapeCasts_S64x128_S64x128)))
      broadcasts_S64x1_S64x128)

/-- The sums of the squared lengths of rows `i` and `j`. -/
def sumV (E : FVec Ideal S64x128 .f32) : FVec Ideal S64x64 .f32 :=
  addf (broadcastTo S64x64 (shapeCast S64x1 (rowSq E) shapeCasts_S64_S64x1) broadcasts_S64x1_S64x64)
    (broadcastTo S64x64 (shapeCast S1x64 (rowSq E) shapeCasts_S64_S1x64) broadcasts_S1x64_S64x64)

/-- Twice the inner products of the rows. -/
def twoGramV (E : FVec Ideal S64x128 .f32) : FVec Ideal S64x64 .f32 :=
  mulf (broadcast S64x64 (Scalar.ofBits .f32 0x40000000#32))
    (matmul dot_S64x128_S64x128_S64x64_1_1_0_0_n_n (some .fp32) E E (constant S64x64 .f32 0x00000000#32))

/-- The square roots of the squared distances, clamped at zero, the diagonal replaced by plus infinity. -/
def rootV (Sm T : FVec Ideal S64x64 .f32) : FVec Ideal S64x64 .f32 :=
  sqrt (select k1_pay1 (broadcast S64x64 (Scalar.ofBits .f32 0x7F800000#32))
    (maximumf (subf Sm T) (broadcast S64x64 (Scalar.ofBits .f32 0x00000000#32))))

/-- The hinge of each row's minimum. -/
def hingeV (R : FVec Ideal S64x64 .f32) : FVec Ideal S64 .f32 :=
  maximumf (broadcast S64 (Scalar.ofBits .f32 0x00000000#32))
    (subf (broadcast S64 (Scalar.ofBits .f32 0x41200000#32))
      (multiReduction .minimumf [1] S64 R 0x7F800000#32 reduces_S64x64_S64 (.inl rfl) rfl))

/-- The sum of a one-row matrix's entries. -/
def totalV (H : FVec Ideal S1x64 .f32) : EReal :=
  extractAt ![0, 0]
    (shapeCast S1x1 (multiReduction .add [1] S1 H 0x00000000#32 reduces_S1x64_S1 (.inl rfl) rfl) shapeCasts_S1_S1x1)
    inpos_S1x1_p0_0

/-- The hinge values of one image, as a one-row matrix. -/
def hingeRowV (s : EReal) (G : FVec Ideal S64x128 .f32) : FVec Ideal S1x64 .f32 :=
  shapeCast S1x64 (hingeV (rootV (sumV (embV s G)) (twoGramV (embV s G)))) shapeCasts_S64_S1x64

/-- One image's contribution to the running total. -/
def partV (s : EReal) (G : FVec Ideal S64x128 .f32) : EReal := totalV (hingeRowV s G)

/-! ## Each piece of the body is a stage, or a running total plus one image's contribution -/

section Pieces
variable (s t : EReal) (G G' : FVec Ideal S64x128 .f32)

theorem pay2_eq : k1_pay2 (F := Ideal) s G = Ideal.ofBits .f32 0x00000000#32 + partV s G := rfl
theorem pay3_eq : k1_pay3 (F := Ideal) s k1_pay1 t G = t + partV s G := rfl
theorem pay7_eq : k1_pay7 (F := Ideal) s k1_pay1 t (k1_pay4 G) (k1_pay5 G) k1_pay6 = t + partV s G := rfl
theorem pay11_eq : k1_pay11 (F := Ideal) k1_pay1 t (k1_pay9 s G) (k1_pay10 s G) = t + partV s G := rfl
theorem pay15_eq : k1_pay15 (F := Ideal) k1_pay1 t (k1_pay13 s G) (k1_pay14 s G) = t + partV s G := rfl
theorem pay17_eq : k1_pay17 (F := Ideal) t (k1_pay16 s k1_pay1 G) = t + partV s G := rfl
theorem pay19_eq : k1_pay19 (F := Ideal) s k1_pay1 t (k1_pay18 s k1_pay1 G) G'
    = Ideal.div (t + partV s G + partV s G') (Ideal.ofBits .f32 0x44000000#32) := rfl

end Pieces

/-! ## The stages read index by index -/

section Values
variable (s : EReal) (f : Fin 8 → Fin 64 → Fin 128 → EReal) (b : Fin 8) (G : FVec Ideal S64x128 .f32)

theorem rowSq_apply (A : FVec Ideal S64x128 .f32) (k : Fin 64) :
    rowSq A (ix1 k) = ∑ c : Fin 128, A (ix2 k c) * A (ix2 k c) :=
  sum_row (mulf A A) reduces_S64x128_S64 (.inl rfl) rfl k

theorem normV_apply (hG : ∀ k c, G (ix2 k c) = f b k c) (k : Fin 64) (u : Fin 1) :
    normV G (ix2 k u) = nrm f b k := by
  show max (Ideal.sqrt (shapeCast S64x1 (rowSq G) shapeCasts_S64_S64x1 (ix2 k u))) floorC = _
  rw [shapeCast_a_a1_apply, rowSq_apply]
  simp only [hG]
  rfl

theorem embV_apply (hG : ∀ k c, G (ix2 k c) = f b k c) (k : Fin 64) (c : Fin 128) :
    embV s G (ix2 k c) = embK s f b k c := by
  unfold embV
  rw [shapeCast_self]
  show G (ix2 k c) * broadcastTo S64x128 (divf (broadcast S64x1 s) (normV G)) broadcasts_S64x1_S64x128 (ix2 k c) = _
  rw [broadcastTo_a1_ab_apply]
  show G (ix2 k c) * Ideal.div s (normV G (ix2 k (0 : Fin 1))) = _
  rw [normV_apply f b G hG, hG]
  rfl

theorem sqE_apply (hG : ∀ k c, G (ix2 k c) = f b k c) (k : Fin 64) :
    rowSq (embV s G) (ix1 k) = sqK s f b k := by
  rw [rowSq_apply]
  simp only [embV_apply s f b G hG]
  rfl

theorem sumV_apply (E : FVec Ideal S64x128 .f32) (i j : Fin 64) :
    sumV E (ix2 i j) = rowSq E (ix1 i) + rowSq E (ix1 j) := by
  show broadcastTo S64x64 (shapeCast S64x1 (rowSq E) shapeCasts_S64_S64x1) broadcasts_S64x1_S64x64 (ix2 i j)
    + broadcastTo S64x64 (shapeCast S1x64 (rowSq E) shapeCasts_S64_S1x64) broadcasts_S1x64_S64x64 (ix2 i j) = _
  rw [broadcastTo_a1_ab_apply, shapeCast_a_a1_apply, broadcastTo_1b_ab_apply, shapeCast_a_1a_apply]

theorem twoGramV_apply (E : FVec Ideal S64x128 .f32) (i j : Fin 64) :
    twoGramV E (ix2 i j) = twoC * ∑ c : Fin 128, E (ix2 i c) * E (ix2 j c) := by
  show twoC * matmul dot_S64x128_S64x128_S64x64_1_1_0_0_n_n (some .fp32) E E (constant S64x64 .f32 0x00000000#32) (ix2 i j) = _
  rw [gram_apply]

theorem rootV_apply (Sm T : FVec Ideal S64x64 .f32) (i j : Fin 64) :
    rootV Sm T (ix2 i j) = Ideal.sqrt (if i = j then infC else max (Sm (ix2 i j) - T (ix2 i j)) zeroC) := by
  show Ideal.sqrt (Scalar.select ((k1_pay1 : IVec S64x64 1) (ix2 i j)) infC (max (Sm (ix2 i j) - T (ix2 i j)) zeroC)) = _
  rw [select_mask]

theorem root_apply (hG : ∀ k c, G (ix2 k c) = f b k c) (i j : Fin 64) :
    rootV (sumV (embV s G)) (twoGramV (embV s G)) (ix2 i j) = Ideal.sqrt (distK s f b i j) := by
  rw [rootV_apply, sumV_apply, twoGramV_apply, sqE_apply s f b G hG, sqE_apply s f b G hG]
  simp only [embV_apply s f b G hG]
  rfl

theorem hingeV_apply (R : FVec Ideal S64x64 .f32) (i : Fin 64) :
    hingeV R (ix1 i) = max zeroC (marginC - Finset.univ.inf fun j : Fin 64 => R (ix2 i j)) := by
  exact congrArg (fun x => max zeroC (marginC - x)) (min_row R reduces_S64x64_S64 (.inl rfl) rfl i)

theorem hinge_apply (hG : ∀ k c, G (ix2 k c) = f b k c) (i : Fin 64) :
    hingeV (rootV (sumV (embV s G)) (twoGramV (embV s G))) (ix1 i) = hingeK s f b i := by
  rw [hingeV_apply]
  simp only [root_apply s f b G hG]
  rfl

theorem totalV_apply (H : FVec Ideal S1x64 .f32) : totalV H = ∑ i : Fin 64, H (ix2 (0 : Fin 1) i) := by
  unfold totalV
  rw [extractAt_11, shapeCast_a_1a_apply]
  exact sum_row H reduces_S1x64_S1 (.inl rfl) rfl (0 : Fin 1)

theorem partV_eq (hG : ∀ k c, G (ix2 k c) = f b k c) : partV s G = ∑ i : Fin 64, hingeK s f b i := by
  unfold partV hingeRowV
  rw [totalV_apply]
  refine Finset.sum_congr rfl fun i _ => ?_
  rw [shapeCast_a_1a_apply]
  exact hinge_apply s f b G hG i

end Values

/-! ## The whole body -/

/-- The stored value is the hinge loss in the arrangement of the body: the running total is the sum over the eight
    images of the sums of their 64 hinge values, divided by 512. -/
theorem out_eq (v0 : EReal) (g : Fin 8 → Cert.KernelIdeal.S64x128.Idx → EReal) :
    out (F := Ideal) v0 g = Cert.Mine.lossK v0 (fun b k c => g b (ValueIdx.ix2 k c)) := by
  have hp : ∀ b : Fin 8, partV v0 (g b) = ∑ i : Fin 64, hingeK v0 (fun b k c => g b (ix2 k c)) b i :=
    fun b => partV_eq v0 _ b (g b) (fun _ _ => rfl)
  unfold out
  simp only [pay19_eq, pay17_eq, pay15_eq, pay11_eq, pay7_eq, pay3_eq, pay2_eq]
  simp only [hp]
  unfold lossK
  rw [Fin.sum_univ_eight, Ideal.ofBits_zero_f32, zero_add]
  rfl

end Cert.Mine.Ker

end
-- ==== Proof.MineRead.lean ====
/-
  Reading the kernel's inputs: the eight row blocks of the 512x128 buffer index by index, and the one entry of
  the 1x1 buffer.
-/
import proofs.«212862_g50483045597572_cont_8to1c4_140_39_alg».proof.Proof.MineRegion
import proofs.«212862_g50483045597572_cont_8to1c4_140_39_alg».proof.Proof.KernelValue
import Idealize.ShloMosaic.Lib.Pipeline.FrameBody
import Idealize.ShloMosaic.Lib.ValueIdx
import Idealize.ShloMosaic.Lib.Pipeline.Value
import Idealize.ShloMosaic.Lib.Tactic

set_option maxRecDepth 16384

noncomputable section

namespace Cert.Mine.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

/-- A load of 64 rows from row `o` on reads row `o + k` at its row `k`. -/
theorem ld_rows_apply (x1 : Vec F S512x128 .f32) (o : Nat) (inb : ∀ a, (![o, 0] : Fin 2 → Nat) a + S64x128.size a ≤ S512x128.size a)
    (ho : o + 64 ≤ 512) (k : Fin 64) (ch : Fin 128) :
    View.ld x1 (Rect.unit (s := S512x128) ![o, 0] S64x128.size inb) (ix2 k ch)
      = x1 (ix2 (⟨o + k.val, by omega⟩ : Fin 512) ch) := by
  show x1 ((Rect.unit (s := S512x128) ![o, 0] S64x128.size inb).emb (ix2 k ch)) = _
  congr 1
  funext a; apply Fin.ext
  rw [Rect.emb_apply]
  match a with
  | ⟨0, _⟩ => show o + 1 * k.val = o + k.val; omega
  | ⟨1, _⟩ => show 0 + 1 * ch.val = ch.val; omega

/-- Block `b` of the rows is rows `64 b … 64 b + 63` of the buffer. -/
theorem rows_apply (x1 : Vec F S512x128 .f32) (b : Fin 8) (k : Fin 64) (ch : Fin 128) :
    rows x1 b (ix2 k ch) = x1 (ix2 (⟨64 * b.val + k.val, by omega⟩ : Fin 512) ch) := by
  match b with
  | ⟨0, _⟩ => exact (ld_rows_apply x1 0 _ (by omega) k ch).trans (by simp)
  | ⟨1, _⟩ => exact ld_rows_apply x1 64 _ (by omega) k ch
  | ⟨2, _⟩ => exact ld_rows_apply x1 128 _ (by omega) k ch
  | ⟨3, _⟩ => exact ld_rows_apply x1 192 _ (by omega) k ch
  | ⟨4, _⟩ => exact ld_rows_apply x1 256 _ (by omega) k ch
  | ⟨5, _⟩ => exact ld_rows_apply x1 320 _ (by omega) k ch
  | ⟨6, _⟩ => exact ld_rows_apply x1 384 _ (by omega) k ch
  | ⟨7, _⟩ => exact ld_rows_apply x1 448 _ (by omega) k ch

/-- The 1x1 buffer has one index, so its entry is its value anywhere. -/
theorem entry_eq (x0 : Vec F S1x1 .f32) (i : S1x1.Idx) : entry x0 = x0 i := by
  show x0 _ = x0 i
  congr 1
  funext a; apply Fin.ext
  have h1 : ∀ (u : S1x1.Idx) (a : Fin 2), (u a).val = 0 := fun u a => by
    have := (u a).isLt
    match a with
    | ⟨0, _⟩ => exact Nat.lt_one_iff.mp this
    | ⟨1, _⟩ => exact Nat.lt_one_iff.mp this
  rw [h1, h1]

/-- The chain of the parts' payloads, under the name the value proof gives it. -/
theorem kerOut_eq (v0 : Elt F .f32) (g : Fin 8 → Vec F S64x128 .f32) : kerOut v0 g = Cert.Mine.Ker.out v0 g := rfl

end Cert.Mine.KI

end
-- ==== Proof.GatherValue.lean ====
/-
  The rows the kernel's gather leaves are the picked feature rows.

  The kernel's table is the image array with the channel axis moved last and the three leading axes
  flattened: row `p` of its 330752 is image `p / 41344` at the flat grid position `p % 41344`, that is at the
  grid point `(p % 41344 / 272, p % 41344 % 272)`. Its list is the 8 x 64 position array flattened: entry
  `64 b + k` is `ind[b,k]`. Row `64 b + k` of the gathered array is table row `ind[b,k] + 41344 b`, which for a
  position inside the grid is below 330752 and names image `b` at the position `ind[b,k]`.
-/
import proofs.«212862_g50483045597572_cont_8to1c4_140_39_alg».proof.Proof.TileBody
import proofs.«212862_g50483045597572_cont_8to1c4_140_39_alg».proof.Proof.Spec
import Idealize.ShloMosaic.Lib.ValueIdx
import Idealize.ShloMosaic.Lib.Pipeline.Value

noncomputable section

namespace Cert.Mine.KI

open Cert.KernelIdeal Cert.KernelIdeal.Gen
open Idealize.ShloMosaic Idealize.ShloMosaic.ValueIdx

/-- Entry `64 b + k` of the flattened position array is `ind[b,k]`. -/
theorem list_at {α : Type} (x1 : S8x64.Idx → α) (b : Fin 8) (k : Fin 64) :
    shapeCast S512 x1 Facts₀.shapeCasts_S8x64_S512
        (ix1 (⟨64 * b.val + k.val, by have := b.isLt; have := k.isLt; omega⟩ : Fin 512))
      = x1 (ix2 b k) :=
  shapeCast_apply x1 _ _ (ix2 b k) (by
    rw [Shape.rowMajor_val_two, Shape.rowMajor_val_one]
    show b.val * 64 + k.val = 64 * b.val + k.val
    omega)

/-- Row `41344 b + p` of the table, channel `c`, is image `b`, channel `c`, at the grid point `(p / 272, p % 272)`. -/
theorem table_at {α : Type} (x0 : S8x128x152x272.Idx → α) (b : Fin 8) (p : Fin 41344) (c : Fin 128) :
    shapeCast S330752x128 (transpose S8x152x272x128 [0, 2, 3, 1] x0 Facts₀.transposes_S8x128x152x272_S8x152x272x128_0_2_3_1)
        Facts₀.shapeCasts_S8x152x272x128_S330752x128
        (ix2 (⟨b.val * 41344 + p.val, by have := b.isLt; have := p.isLt; omega⟩ : Fin 330752) c)
      = x0 (ix4 b c (⟨p.val / 272, by have := p.isLt; omega⟩ : Fin 152) (⟨p.val % 272, Nat.mod_lt _ (by norm_num)⟩ : Fin 272)) := by
  have hb := b.isLt; have hp := p.isLt; have hc := c.isLt
  rw [shapeCast_apply _ Facts₀.shapeCasts_S8x152x272x128_S330752x128 _
    (ix4 b (⟨p.val / 272, by omega⟩ : Fin 152) (⟨p.val % 272, Nat.mod_lt _ (by norm_num)⟩ : Fin 272) c) (by
      rw [Shape.rowMajor_val_four, Shape.rowMajor_val_two]
      show ((b.val * 152 + p.val / 272) * 272 + p.val % 272) * 128 + c.val = (b.val * 41344 + p.val) * 128 + c.val
      omega)]
  exact transpose_apply [0, 2, 3, 1] x0 Facts₀.transposes_S8x128x152x272_S8x152x272x128_0_2_3_1 _ _ (fun a => match a with
    | ⟨0, _⟩ => rfl
    | ⟨1, _⟩ => rfl
    | ⟨2, _⟩ => rfl
    | ⟨3, _⟩ => rfl)

/-- THE GATHERED ROWS: row `64 b + k` of the array the kernel's gather leaves, channel `c`, is the picked feature
    row's channel, whenever every position is inside the grid. -/
theorem gathered_feat (d : Dev nD) (x0 : (⟨S8x128x152x272, .f32⟩ : BufTy).Contents (Elt Ideal))
    (x1 : (⟨S8x64, .i32⟩ : BufTy).Contents (Elt Ideal))
    (hind : ∀ i, (x1 i).toNat ≤ 41343) (b : Fin 8) (k : Fin 64) (c : Fin 128) :
    gathered (F := Ideal) d
        (shapeCast S330752x128 (transpose S8x152x272x128 [0, 2, 3, 1] x0 Facts₀.transposes_S8x128x152x272_S8x152x272x128_0_2_3_1)
          Facts₀.shapeCasts_S8x152x272x128_S330752x128)
        (shapeCast S512 x1 Facts₀.shapeCasts_S8x64_S512)
        (ValueIdx.ix2 (⟨64 * b.val + k.val, by omega⟩ : Fin 512) c)
      = Cert.Mine.feat x0 x1 b k c := by
  have hb := b.isLt; have hk := k.isLt; have hp := hind (ix2 b k)
  unfold gathered
  show shapeCast S330752x128 _ Facts₀.shapeCasts_S8x152x272x128_S330752x128
      (ix2 (n0 := 330752) (n1 := 128)
        ⟨((shapeCast S512 x1 Facts₀.shapeCasts_S8x64_S512 (ix1 (⟨64 * b.val + k.val, by omega⟩ : Fin 512))).toNat
          + (64 * b.val + k.val) / 64 * 41344) % 330752, Nat.mod_lt _ (by norm_num)⟩ c) = _
  rw [list_at x1 b k]
  have hrow : (ix2 (n0 := 330752) (n1 := 128)
        ⟨((x1 (ix2 b k)).toNat + (64 * b.val + k.val) / 64 * 41344) % 330752, Nat.mod_lt _ (by norm_num)⟩ c)
      = ix2 (⟨b.val * 41344 + (x1 (ix2 b k)).toNat, by omega⟩ : Fin 330752) c := by
    funext a
    match a with
    | ⟨0, _⟩ => exact Fin.ext (by show ((x1 (ix2 b k)).toNat + (64 * b.val + k.val) / 64 * 41344) % 330752 = b.val * 41344 + (x1 (ix2 b k)).toNat; omega)
    | ⟨1, _⟩ => rfl
  rw [hrow, table_at x0 b (⟨(x1 (ix2 b k)).toNat, by omega⟩ : Fin 41344) c]
  unfold Cert.Mine.feat
  refine congrArg x0 (funext fun a => Fin.ext ?_)
  match a with
  | ⟨0, _⟩ => rfl
  | ⟨1, _⟩ => rfl
  | ⟨2, _⟩ => show (x1 (ix2 b k)).toNat / 272 = (x1 (ix2 b k)).toNat / 272 % 152; omega
  | ⟨3, _⟩ => rfl

end Cert.Mine.KI

end
-- ==== Proof.Algebra.lean ====
/-
  The two arrangements of the loss agree when the scale and every picked feature are finite.

  Over the reals both scalings of a row are the same number `x * sigma / n` (the floored norm `n` is a
  positive real, so dividing by it is multiplying by its reciprocal), and for two real vectors
  `|a|^2 + |b|^2 - 2 a.b = sum_c (a_c - b_c)^2`, a sum of squares, hence nonnegative, so clamping it at zero
  changes nothing.  Everything else is congruence.
-/
import proofs.«212862_g50483045597572_cont_8to1c4_140_39_alg».proof.Proof.Spec

noncomputable section

namespace Cert.Mine

open Idealize.ShloMosaic

/-! ## The constants as extended reals -/

theorem zeroC_eq : zeroC = 0 := by simp [zeroC, Ideal.ofBits, Ideal.ieee]

theorem twoC_eq : twoC = ((2 : ℝ) : EReal) := by
  simp [twoC, Ideal.ofBits, Ideal.ieee, -EReal.coe_mul]; norm_num

/-- The floor is a positive real. -/
theorem floorC_pos : ∃ r : ℝ, 0 < r ∧ floorC = (r : EReal) := by
  simp [floorC, Ideal.ofBits, Ideal.ieee, -EReal.coe_mul]

/-! ## The coercion from the reals through finite sums and maxima -/

theorem coe_sum {ι : Type*} (t : Finset ι) (g : ι → ℝ) :
    ((∑ c ∈ t, g c : ℝ) : EReal) = ∑ c ∈ t, (g c : EReal) := by
  classical
  refine Finset.induction_on t ?_ ?_
  · simp
  · intro a t ha ih
    rw [Finset.sum_insert ha, Finset.sum_insert ha, EReal.coe_add, ih]

theorem coe_max (p q : ℝ) : ((max p q : ℝ) : EReal) = max (p : EReal) (q : EReal) :=
  EReal.coe_strictMono.monotone.map_max

/-- A sum of products of real numbers, taken in the extended reals, is the real sum. -/
theorem sum_mul_coe {ι : Type*} [Fintype ι] (u v : ι → ℝ) :
    (∑ c, (u c : EReal) * (v c : EReal)) = ((∑ c, u c * v c : ℝ) : EReal) := by
  rw [coe_sum]; simp only [EReal.coe_mul]

/-! ## Real data -/

section Real

variable (σ : ℝ) (x : Fin 8 → Fin 64 → Fin 128 → ℝ)

/-- The floored norm of a real row is a positive real. -/
theorem nrm_real (b : Fin 8) (k : Fin 64) :
    ∃ n : ℝ, 0 < n ∧ nrm (fun b k c => (x b k c : EReal)) b k = (n : EReal) := by
  obtain ⟨r0, hr0, hfl⟩ := floorC_pos
  refine ⟨max (Real.sqrt (∑ c, x b k c * x b k c)) r0, lt_max_of_lt_right hr0, ?_⟩
  have hnn : ¬ (∑ c, x b k c * x b k c) < 0 :=
    not_lt.mpr (Finset.sum_nonneg fun c _ => mul_self_nonneg _)
  show max (Ideal.sqrt (∑ c, (x b k c : EReal) * (x b k c : EReal))) floorC = _
  rw [sum_mul_coe, Ideal.sqrt_coe, if_neg hnn, hfl, coe_max]

/-- Both scalings of a real row are the same real row. -/
theorem emb_real (b : Fin 8) (k : Fin 64) :
    ∃ e : Fin 128 → ℝ, (∀ c, embK (σ : EReal) (fun b k c => (x b k c : EReal)) b k c = (e c : EReal))
      ∧ (∀ c, embR (σ : EReal) (fun b k c => (x b k c : EReal)) b k c = (e c : EReal)) := by
  obtain ⟨n, hn, hnrm⟩ := nrm_real x b k
  refine ⟨fun c => x b k c * (σ * (1 / n)), fun c => ?_, fun c => ?_⟩
  · show (x b k c : EReal) * Ideal.div (σ : EReal) (nrm (fun b k c => (x b k c : EReal)) b k)
        = ((x b k c * (σ * (1 / n)) : ℝ) : EReal)
    rw [hnrm, Ideal.div_coe hn.ne', EReal.coe_mul, EReal.coe_mul]
  · show Ideal.div ((σ : EReal) * (x b k c : EReal)) (nrm (fun b k c => (x b k c : EReal)) b k)
        = ((x b k c * (σ * (1 / n)) : ℝ) : EReal)
    have hr : x b k c * (σ * (1 / n)) = σ * x b k c * (1 / n) := by ring
    rw [hnrm, Ideal.div_coe hn.ne', hr, EReal.coe_mul, EReal.coe_mul]

end Real

/-! ## The expansion of the squared distance -/

/-- For real vectors `|a|^2 + |b|^2 - 2 a.b`, clamped at zero, is the sum of the squared differences. -/
theorem dist_core {ι : Type*} [Fintype ι] (a b : ι → ℝ) :
    max (((∑ c, (a c : EReal) * (a c : EReal)) + ∑ c, (b c : EReal) * (b c : EReal))
        - ((2 : ℝ) : EReal) * ∑ c, (a c : EReal) * (b c : EReal)) 0
      = ∑ c, ((a c : EReal) - (b c : EReal)) * ((a c : EReal) - (b c : EReal)) := by
  have h2 : (∑ c, ((a c : EReal) - (b c : EReal)) * ((a c : EReal) - (b c : EReal)))
      = ((∑ c, (a c - b c) * (a c - b c) : ℝ) : EReal) := by
    rw [coe_sum]; simp only [EReal.coe_mul, EReal.coe_sub]
  have hid : (∑ c, a c * a c) + (∑ c, b c * b c) - 2 * ∑ c, a c * b c
      = ∑ c, (a c - b c) * (a c - b c) := by
    rw [Finset.mul_sum, ← Finset.sum_add_distrib, ← Finset.sum_sub_distrib]
    exact Finset.sum_congr rfl fun c _ => by ring
  rw [sum_mul_coe, sum_mul_coe, sum_mul_coe, h2, ← EReal.coe_add, ← EReal.coe_mul, ← EReal.coe_sub,
    ← EReal.coe_zero, ← coe_max, hid]
  exact congrArg _ (max_eq_left (Finset.sum_nonneg fun c _ => mul_self_nonneg _))

/-! ## Distances, hinges, loss -/

section Real

variable (σ : ℝ) (x : Fin 8 → Fin 64 → Fin 128 → ℝ)

theorem distK_eq_distR_real (b : Fin 8) (i j : Fin 64) :
    distK (σ : EReal) (fun b k c => (x b k c : EReal)) b i j
      = distR (σ : EReal) (fun b k c => (x b k c : EReal)) b i j := by
  obtain ⟨p, hpK, hpR⟩ := emb_real σ x b i
  obtain ⟨q, hqK, hqR⟩ := emb_real σ x b j
  unfold distK distR
  by_cases h : i = j
  · rw [if_pos h, if_pos h]
  · rw [if_neg h, if_neg h]
    simp only [sqK, gramK, hpK, hqK, hpR, hqR, twoC_eq, zeroC_eq]
    exact dist_core p q

end Real

variable (s : EReal) (f : Fin 8 → Fin 64 → Fin 128 → EReal)

theorem distK_eq_distR (hs : s ≠ ⊤ ∧ s ≠ ⊥) (hf : ∀ b k c, f b k c ≠ ⊤ ∧ f b k c ≠ ⊥)
    (b : Fin 8) (i j : Fin 64) : distK s f b i j = distR s f b i j := by
  obtain ⟨σ, rfl⟩ : ∃ σ : ℝ, s = (σ : EReal) := ⟨s.toReal, (EReal.coe_toReal hs.1 hs.2).symm⟩
  obtain ⟨x, rfl⟩ : ∃ x : Fin 8 → Fin 64 → Fin 128 → ℝ, f = fun b k c => (x b k c : EReal) :=
    ⟨fun b k c => (f b k c).toReal, by
      funext b k c; exact (EReal.coe_toReal (hf b k c).1 (hf b k c).2).symm⟩
  exact distK_eq_distR_real σ x b i j

theorem hingeK_eq_hingeR (hs : s ≠ ⊤ ∧ s ≠ ⊥) (hf : ∀ b k c, f b k c ≠ ⊤ ∧ f b k c ≠ ⊥)
    (b : Fin 8) (i : Fin 64) : hingeK s f b i = hingeR s f b i := by
  simp only [hingeK, hingeR, distK_eq_distR s f hs hf]

/-- The two arrangements of the loss agree on finite data. -/
theorem lossK_eq_lossR (s : EReal) (f : Fin 8 → Fin 64 → Fin 128 → EReal)
    (hs : s ≠ ⊤ ∧ s ≠ ⊥) (hf : ∀ b k c, f b k c ≠ ⊤ ∧ f b k c ≠ ⊥) : lossK s f = lossR s f := by
  simp only [lossK, lossR, hingeK_eq_hingeR s f hs hf]

end Cert.Mine

end
-- ==== Proof.PreFacts.lean ====
/-
  What the precondition says about the inputs.

  The precondition is a conjunction of four tests, each a conjunction over all entries of an array:
  every entry of `x` has absolute value below plus infinity; every entry of `ind` lies between 0 and
  41343, read as a signed word; the other two tests concern the remaining inputs and are not used here.
  From the first, every entry of `x` is a real number (neither infinity); from the second, every entry
  of `ind`, read as an unsigned word, is at most 41343: a 32-bit word whose signed reading is
  nonnegative has its top bit clear, so its signed and unsigned readings agree.
-/
import proofs.«212862_g50483045597572_cont_8to1c4_140_39_alg».proof.Pre_input_domain
import proofs.«212862_g50483045597572_cont_8to1c4_140_39_alg».proof.Proof.Gen.Pre_input_domain
import Idealize.ShloMosaic.Lib.ReduceAll
import Idealize.ShloMosaic.Lib.ValueIdx

noncomputable section

namespace Cert.Mine.Pre

open Idealize.ShloMosaic Idealize.ShloMosaic.ValueIdx
open Cert.Pre_input_domain

/-- A rank-0 array has one index. -/
instance : Subsingleton S_.Idx := ⟨fun a b => funext fun d => d.elim0⟩

theorem range {F : FTy → Type} [FloatOps F] (x : FVec F Cert.Pre_input_domain.S8x128x152x272 .f32) (ind msk : IVec Cert.Pre_input_domain.S8x64 32) (sc : IVec Cert.Pre_input_domain.S_ 32)
    (h : Cert.Pre_input_domain.fn (F := F) x ind msk sc = fun _ => 1#1) : ∀ i, (ind i).toNat ≤ 41343 := by
  intro i
  have e := congrFun h ix0
  dsimp only [fn, fn_part1] at e
  dsimp only [andi] at e
  rw [IntOp.andi_eq_one, IntOp.andi_eq_one, IntOp.andi_eq_one] at e
  have e2 := Host.reduce_andi_all _ _ _ _ _ e.1.1.2 i
  dsimp only [andi, cmpi, broadcastInDim, constantI] at e2
  rw [IntOp.andi_eq_one, IntOp.cmpi_sge, IntOp.cmpi_sle] at e2
  obtain ⟨h0, h1⟩ := e2
  have z : (0#32 : BitVec 32).toInt = 0 := by decide
  have m : (41343#32 : BitVec 32).toInt = 41343 := by decide
  have c := BitVec.toInt_eq_toNat_cond (ind i)
  have b := (ind i).isLt
  omega

theorem finite (x : FVec Ideal Cert.Pre_input_domain.S8x128x152x272 .f32) (ind msk : IVec Cert.Pre_input_domain.S8x64 32) (sc : IVec Cert.Pre_input_domain.S_ 32)
    (h : Cert.Pre_input_domain.fn (F := Ideal) x ind msk sc = fun _ => 1#1) : ∀ i, x i ≠ ⊤ ∧ x i ≠ ⊥ := by
  intro i
  have e := congrFun h ix0
  dsimp only [fn, fn_part1] at e
  dsimp only [andi] at e
  rw [IntOp.andi_eq_one, IntOp.andi_eq_one, IntOp.andi_eq_one] at e
  have e2 := Host.reduce_andi_all _ _ _ _ _ e.1.1.1 i
  dsimp only [cmpf, Host.absf, broadcastInDim, constant] at e2
  have top : Ideal.ofBits .f32 0x7F800000#32 = (⊤ : EReal) := by simp [Ideal.ofBits, Ideal.ieee]
  change Ideal.cmp .olt (max (x i) (-(x i))) (Ideal.ofBits .f32 0x7F800000#32) = 1#1 at e2
  rw [top] at e2
  simp only [Ideal.cmp] at e2
  generalize x i = a at e2 ⊢
  induction a using EReal.rec with
  | bot => simp at e2
  | top => simp at e2
  | coe r => exact ⟨EReal.coe_ne_top r, EReal.coe_ne_bot r⟩

end Cert.Mine.Pre

end
-- ==== Proof.KernelResult.lean ====
/-
  The kernel's result, as mathematics: the loss of the picked feature rows.

  The kernel's region reads the one-entry array holding the scale and the 512 x 128 array of gathered rows and
  stores one number; the host reshapes it to a scalar. The stored number is the loss in the arrangement that scales
  by the quotient and expands the squared distances; the scale is the converted integer argument, a real number; the
  gathered rows are the picked feature rows, whose entries are entries of the image array, real numbers under the
  precondition; and on real data that arrangement of the loss equals the one that divides the product by the norm and
  sums squared differences channel by channel.
-/
import proofs.«212862_g50483045597572_cont_8to1c4_140_39_alg».proof.Proof.MineRead
import proofs.«212862_g50483045597572_cont_8to1c4_140_39_alg».proof.Proof.GatherValue
import proofs.«212862_g50483045597572_cont_8to1c4_140_39_alg».proof.Proof.Algebra
import proofs.«212862_g50483045597572_cont_8to1c4_140_39_alg».proof.Proof.PreFacts
import Idealize.ShloMosaic.Lib.IdealHost

noncomputable section

namespace Cert.Mine.KI

open Cert.KernelIdeal Cert.KernelIdeal.Gen
open Idealize.ShloMosaic Idealize.ShloMosaic.ValueIdx

/-- A converted 32-bit integer is a real number. -/
theorem sitofp_real (w : BitVec 32) :
    FloatOps.sitofp (F := Ideal) .f32 w ≠ (⊤ : EReal) ∧ FloatOps.sitofp (F := Ideal) .f32 w ≠ (⊥ : EReal) :=
  ⟨EReal.coe_ne_top _, EReal.coe_ne_bot _⟩

/-- The scale the region reads: the one entry of the broadcast of the converted scalar is the converted scalar. -/
theorem scale_entry (x3 : (⟨S_, .i32⟩ : BufTy).Contents (Elt Ideal)) :
    entry (F := Ideal) (broadcastInDim S1x1 ![] Facts₀.bcast_S_S1x1 (sitofp (F := Ideal) .f32 x3))
      = FloatOps.sitofp (F := Ideal) .f32 (x3 ix0) := by
  rw [entry_eq _ (ix2 (0 : Fin 1) (0 : Fin 1)), broadcastInDim_scalar_apply]
  rfl

/-- THE KERNEL'S RESULT is the loss of the picked rows, in the arrangement the reference computes. -/
theorem kernel_result (d : Dev nD) (x0 : (⟨S8x128x152x272, .f32⟩ : BufTy).Contents (Elt Ideal))
    (x1 x2 : (⟨S8x64, .i32⟩ : BufTy).Contents (Elt Ideal)) (x3 : (⟨S_, .i32⟩ : BufTy).Contents (Elt Ideal))
    (hpre : Cert.Pre_input_domain.fn (F := Ideal) x0 x1 x2 x3 = fun _ => 1#1) :
    shapeCast S_ (fun _ : S1x1.Idx => kerOut (F := Ideal)
        (entry (broadcastInDim S1x1 ![] Facts₀.bcast_S_S1x1 (sitofp (F := Ideal) .f32 x3)))
        (rows (gathered (F := Ideal) d
          (shapeCast S330752x128 (transpose S8x152x272x128 [0, 2, 3, 1] x0 Facts₀.transposes_S8x128x152x272_S8x152x272x128_0_2_3_1)
            Facts₀.shapeCasts_S8x152x272x128_S330752x128)
          (shapeCast S512 x1 Facts₀.shapeCasts_S8x64_S512)))) Facts₀.shapeCasts_S1x1_S_
      = fun _ => Cert.Mine.lossR (FloatOps.sitofp (F := Ideal) .f32 (x3 ValueIdx.ix0)) (Cert.Mine.feat x0 x1) := by
  have hind : ∀ i, (x1 i).toNat ≤ 41343 := Cert.Mine.Pre.range (F := Ideal) x0 x1 x2 x3 hpre
  have hfin : ∀ i, x0 i ≠ ⊤ ∧ x0 i ≠ ⊥ := Cert.Mine.Pre.finite x0 x1 x2 x3 hpre
  funext i
  show kerOut (F := Ideal) _ _ = _
  rw [kerOut_eq, Cert.Mine.Ker.out_eq, scale_entry]
  have hrows : (fun (b : Fin 8) (k : Fin 64) (c : Fin 128) => rows (gathered (F := Ideal) d
          (shapeCast S330752x128 (transpose S8x152x272x128 [0, 2, 3, 1] x0 Facts₀.transposes_S8x128x152x272_S8x152x272x128_0_2_3_1)
            Facts₀.shapeCasts_S8x152x272x128_S330752x128)
          (shapeCast S512 x1 Facts₀.shapeCasts_S8x64_S512)) b (ix2 k c)) = Cert.Mine.feat x0 x1 := by
    funext b k c
    rw [rows_apply]
    exact gathered_feat d x0 x1 hind b k c
  rw [hrows]
  exact Cert.Mine.lossK_eq_lossR _ _ (sitofp_real _) (fun b k c => hfin _)

end Cert.Mine.KI

end
-- ==== Proof.RefRead.lean ====
/-
  The reference program's result, read index by index, is the loss in the arrangement that divides the
  product by the norm and sums squared differences channel by channel (`Cert.Mine.lossR`).
-/
import proofs.«212862_g50483045597572_cont_8to1c4_140_39_alg».proof.Proof.Gen.ReferenceIdeal.Read
import proofs.«212862_g50483045597572_cont_8to1c4_140_39_alg».proof.Proof.Spec
import Idealize.ShloMosaic.Lib.ValueIdx
import Idealize.ShloMosaic.Lib.Pipeline.Value
import Idealize.ShloMosaic.PureOps.Ideal.Laws

noncomputable section

namespace Cert.Mine.Ref

open Idealize.ShloMosaic Idealize.ShloMosaic.ValueIdx
open Cert.ReferenceIdeal Cert.ReferenceIdeal.Gen Cert.ReferenceIdeal.Read

/-! ## Words: a small index is not negative, and lies inside the grid -/

/-- A word at most 41343 reads the same signed and unsigned. -/
theorem toInt_small (w : BitVec 32) (h : w.toNat ≤ 41343) : w.toInt = (w.toNat : Int) := by
  rw [BitVec.toInt_eq_toNat_cond]; split <;> omega

/-- Such a word is not below zero ... -/
theorem slt_zero_small (w : BitVec 32) (h : w.toNat ≤ 41343) : IntOp.cmpi .slt w 0#32 = 0#1 := by
  have e := toInt_small w h
  have z : (0#32 : BitVec 32).toInt = 0 := by decide
  have : w.slt 0#32 = false := by
    unfold BitVec.slt; rw [e, z]; exact decide_eq_false (by omega)
  simp only [IntOp.cmpi, this]; rfl

/-- ... it is at least zero ... -/
theorem sge_zero_small (w : BitVec 32) (h : w.toNat ≤ 41343) : IntOp.cmpi .sge w 0#32 = 1#1 := by
  have e := toInt_small w h
  have z : (0#32 : BitVec 32).toInt = 0 := by decide
  have : (0#32 : BitVec 32).sle w = true := by
    unfold BitVec.sle; rw [e, z]; exact decide_eq_true (by omega)
  simp only [IntOp.cmpi, this]; rfl

/-- ... and at most the last flat position of the grid. -/
theorem sle_max_small (w : BitVec 32) (h : w.toNat ≤ 41343) : IntOp.cmpi .sle w 41343#32 = 1#1 := by
  have e := toInt_small w h
  have z : (41343#32 : BitVec 32).toInt = 41343 := by decide
  have : w.sle 41343#32 = true := by
    unfold BitVec.sle; rw [e, z]; exact decide_eq_true (by omega)
  simp only [IntOp.cmpi, this]; rfl

variable (x0 : (⟨S8x128x152x272, .f32⟩ : BufTy).Contents (Elt Ideal)) (x1 : (⟨S8x64, .i32⟩ : BufTy).Contents (Elt Ideal)) (x3 : (⟨S_, .i32⟩ : BufTy).Contents (Elt Ideal))

/-- The index normalisation is the identity on an index inside the grid. -/
theorem v4_at (hind : ∀ i, (x1 i).toNat ≤ 41343) (b : Fin 8) (k : Fin 64) (z : Fin 1) :
    val_main_call0_v4 (F := Ideal) x1 (ix3 b k z) = x1 (ix2 b k) := by
  rw [val_main_call0_v4_apply, val_main_call0_v1_apply, val_main_v2_apply, val_main_call0_v0_apply, val_main_call0_c_apply]
  have e : idx_main_v2 (ix3 b k z) = ix2 b k := funext fun a => Fin.ext (by match a with | ⟨0,_⟩ => rfl | ⟨1,_⟩ => rfl)
  rw [e, slt_zero_small _ (hind _), select_zero]

/-- A fold of one-bit words by `and` from 1 over words that are all 1 is 1. -/
theorem fold_andi_one {ι : Type} (s : Finset ι) (f : ι → BitVec 1) (h : ∀ i, f i = 1#1) :
    s.fold IntOp.andi 1#1 f = 1#1 := by
  induction s using Finset.cons_induction with
  | empty => rfl
  | cons a s ha ih => rw [Finset.fold_cons, ih, h a]; rfl

/-- The in-range test holds at every index. -/
theorem v10_at (hind : ∀ i, (x1 i).toNat ≤ 41343) (i : S8x64x1.Idx) :
    val_main_call0_v10 (F := Ideal) x1 i = 1#1 := by
  obtain ⟨b, k, z, rfl⟩ : ∃ (b : Fin 8) (k : Fin 64) (z : Fin 1), i = ix3 b k z := ⟨i 0, i 1, i 2, eq_ix3 i⟩
  rw [val_main_call0_v10_apply, val_main_call0_v6_apply, val_main_call0_v9_apply, v4_at x1 hind,
    val_main_call0_v5_apply, val_main_call0_c_2_apply, val_main_call0_v8_apply, val_main_call0_v7_apply,
    val_main_call0_c_1_apply, sge_zero_small _ (hind _), sle_max_small _ (hind _)]
  rfl

/-- The index-in-range mask (the in-range test folded by `and` over the index vector's one component) holds everywhere. -/
theorem v11_at (hind : ∀ i, (x1 i).toNat ≤ 41343) (j : S8x64.Idx) :
    val_main_call0_v11 (F := Ideal) x1 j = 1#1 := by
  unfold val_main_call0_v11
  rw [Host.reduce_eq_fold_single IntOp.andi _ _ reducesTo_S8x64x1_S8x64_d2 (by decide) h_S_]
  exact fold_andi_one _ _ fun k => v10_at x1 hind _

/-! ## The gather -/

/-- The gather's dimension numbers. -/
abbrev gd := gather_S8x41344x128_S8x64x1_S8x64x128_2_1_0_0_1_2_11128

/-- On the batching axis the gather reads the result's image coordinate ... -/
theorem gd_coord0 {w : Nat} (j : S8x64x128.Idx) (idx : IVec S8x64x1 w) :
    gd.start j idx 0 + gd.batchCoord j 0 + gd.offCoord j 0 = (j 0).val := by
  rw [GatherDims.start_batching _ _ _ _ (show (0 : Fin 3) ∈ gd.operandBatchingDims by decide),
    GatherDims.offCoord_eq_zero _ _ _ (show (0 : Fin 3) ∉ gd.sKept by decide)]
  unfold GatherDims.batchCoord
  rw [dif_pos (show (0 : Fin 3) ∈ gd.operandBatchingDims by decide)]
  simp only [Nat.zero_add, Nat.add_zero]
  rfl

/-- ... on the offset axis its channel coordinate ... -/
theorem gd_coord2 {w : Nat} (j : S8x64x128.Idx) (idx : IVec S8x64x1 w) :
    gd.start j idx 2 + gd.batchCoord j 2 + gd.offCoord j 2 = (j 2).val := by
  rw [GatherDims.batchCoord_eq_zero _ _ _ (show (2 : Fin 3) ∉ gd.operandBatchingDims by decide)]
  unfold GatherDims.start
  rw [dif_neg (show (2 : Fin 3) ∉ gd.startIndexMap by decide)]
  unfold GatherDims.offCoord
  rw [dif_pos (show (2 : Fin 3) ∈ gd.sKept by decide)]
  simp only [Nat.zero_add, Nat.add_zero]
  rfl

/-- ... and on the collapsed axis the start index of its row, read signed and clamped into the grid. -/
theorem gd_coord1 {w : Nat} (j : S8x64x128.Idx) (idx : IVec S8x64x1 w) :
    gd.start j idx 1 + gd.batchCoord j 1 + gd.offCoord j 1
      = min (idx (ix3 (j 0) (j 1) (0 : Fin 1))).toInt.toNat 41343 := by
  rw [GatherDims.batchCoord_eq_zero _ _ _ (show (1 : Fin 3) ∉ gd.operandBatchingDims by decide),
    GatherDims.offCoord_eq_zero _ _ _ (show (1 : Fin 3) ∉ gd.sKept by decide)]
  unfold GatherDims.start
  rw [dif_pos (show (1 : Fin 3) ∈ gd.startIndexMap by decide)]
  simp only [Nat.add_zero]
  have hsi : gd.siIdx j ⟨List.idxOf (1 : Fin 3) gd.startIndexMap,
      List.idxOf_lt_length_iff.2 (show (1 : Fin 3) ∈ gd.startIndexMap by decide)⟩ = ix3 (j 0) (j 1) (0 : Fin 1) := by
    funext a; refine Fin.ext ?_
    match a with
    | ⟨0, _⟩ => rfl
    | ⟨1, _⟩ => rfl
    | ⟨2, _⟩ => rfl
  rw [hsi]
  rfl

/-- The gathered rows are the picked feature rows: the clamped start index is the flat position itself, and the flat
    position `p` of the 152 x 272 grid is the grid point `(p / 272, p % 272)`. -/
theorem v12_at (hind : ∀ i, (x1 i).toNat ≤ 41343) (b : Fin 8) (k : Fin 64) (c : Fin 128) :
    val_main_call0_v12 (F := Ideal) x0 x1 (ix3 b k c) = Cert.Mine.feat x0 x1 b k c := by
  have hp := hind (ix2 b k)
  unfold val_main_call0_v12 Host.gather
  have hidx : gd.operandIdx (ix3 b k c) (val_main_call0_v4 (F := Ideal) x1)
      = ix3 b (⟨(x1 (ix2 b k)).toNat, by omega⟩ : Fin 41344) c := by
    funext a; refine Fin.ext ?_
    match a with
    | ⟨0, _⟩ => exact gd_coord0 _ _
    | ⟨1, _⟩ =>
      refine (gd_coord1 _ _).trans ?_
      show min (val_main_call0_v4 x1 (ix3 b k 0)).toInt.toNat 41343 = (x1 (ix2 b k)).toNat
      rw [v4_at x1 hind, toInt_small _ hp, Int.toNat_natCast]; omega
    | ⟨2, _⟩ => exact gd_coord2 _ _
  rw [hidx, val_main_v1_apply, val_main_v0_apply]
  unfold Cert.Mine.feat
  have hb := b.isLt; have hc := c.isLt
  refine congrArg x0 (funext fun a => Fin.ext ?_)
  match a with
  | ⟨0, _⟩ => show ((b.val * 41344 + (x1 (ix2 b k)).toNat) * 128 + c.val) / 5292032 = b.val; omega
  | ⟨1, _⟩ => show ((b.val * 41344 + (x1 (ix2 b k)).toNat) * 128 + c.val) % 128 = c.val; omega
  | ⟨2, _⟩ => show ((b.val * 41344 + (x1 (ix2 b k)).toNat) * 128 + c.val) / 34816 % 152 = (x1 (ix2 b k)).toNat / 272 % 152; omega
  | ⟨3, _⟩ => show ((b.val * 41344 + (x1 (ix2 b k)).toNat) * 128 + c.val) / 128 % 272 = (x1 (ix2 b k)).toNat % 272; omega

/-! ## The rows, their norms, and the scaled rows -/

/-- The rows the reference goes on with (the gathered ones where the mask holds: everywhere) are the picked rows. -/
theorem v3_at (hind : ∀ i, (x1 i).toNat ≤ 41343) (b : Fin 8) (k : Fin 64) (c : Fin 128) :
    val_main_v3 (F := Ideal) x0 x1 (ix3 b k c) = Cert.Mine.feat x0 x1 b k c := by
  rw [val_main_v3_apply, val_main_call0_v13_apply, v11_at x1 hind, select_one, v12_at x0 x1 hind]

/-- The floored norm of a row. -/
theorem v9_at (hind : ∀ i, (x1 i).toNat ≤ 41343) (b : Fin 8) (k : Fin 64) (z : Fin 1) :
    val_main_v9 (F := Ideal) x0 x1 (ix3 b k z) = Cert.Mine.nrm (Cert.Mine.feat x0 x1) b k := by
  rw [val_main_v9_apply, val_main_v7_apply, val_main_v6_apply, val_main_v5_apply, val_main_v8_apply,
    val_main_cst_0_apply, val_main_cst_apply]
  have e : ∀ c : Fin 128, idx_main_v5 (idx_main_v6 (ix3 b k z)) c = ix3 b k c := fun c =>
    funext fun a => Fin.ext (by match a with | ⟨0,_⟩ => rfl | ⟨1,_⟩ => rfl | ⟨2,_⟩ => rfl)
  simp only [e, val_main_v4_apply, v3_at x0 x1 hind, Ideal.ofBits_def, Ideal.ofBits_zero_f32, zero_add,
    Ideal.mulf_def, Ideal.maximumf_def, Ideal.hostUnary_sqrt_def]
  rfl

/-- The scale, as the reference converts it. -/
abbrev scl : EReal := FloatOps.sitofp (F := Ideal) .f32 (x3 ix0)

/-- A scaled row: the product of the scale and the row, divided by the floored norm. -/
theorem v14_at (hind : ∀ i, (x1 i).toNat ≤ 41343) (b : Fin 8) (k : Fin 64) (c : Fin 128) :
    val_main_v14 (F := Ideal) x0 x1 x3 (ix3 b k c) = Cert.Mine.embR (scl x3) (Cert.Mine.feat x0 x1) b k c := by
  rw [val_main_v14_apply, val_main_v12_apply, val_main_v13_apply, val_main_v11_apply, val_main_v10_apply]
  have e : idx_main_v13 (ix3 b k c) = ix3 b k (0 : Fin 1) :=
    funext fun a => Fin.ext (by match a with | ⟨0,_⟩ => rfl | ⟨1,_⟩ => rfl | ⟨2,_⟩ => rfl)
  have e0 : idx_main_v11 (ix3 b k c) = ix0 := funext fun a => a.elim0
  rw [e, e0, v9_at x0 x1 hind, v3_at x0 x1 hind]
  rfl

/-! ## Distances, the nearest other row, the hinge -/

/-- The squared distance of two scaled rows of an image, summed channel by channel. -/
theorem v21_at (hind : ∀ i, (x1 i).toNat ≤ 41343) (b : Fin 8) (i j : Fin 64) :
    val_main_v21 (F := Ideal) x0 x1 x3 (ix3 b i j)
      = ∑ c, (Cert.Mine.embR (scl x3) (Cert.Mine.feat x0 x1) b i c - Cert.Mine.embR (scl x3) (Cert.Mine.feat x0 x1) b j c)
          * (Cert.Mine.embR (scl x3) (Cert.Mine.feat x0 x1) b i c - Cert.Mine.embR (scl x3) (Cert.Mine.feat x0 x1) b j c) := by
  rw [val_main_v21_apply, val_main_cst_1_apply]
  have e17 : ∀ c : Fin 128, idx_main_v15 (idx_main_v17 (idx_main_v21 (ix3 b i j) c)) = ix3 b i c := fun c =>
    funext fun a => Fin.ext (by match a with | ⟨0,_⟩ => rfl | ⟨1,_⟩ => rfl | ⟨2,_⟩ => rfl)
  have e18 : ∀ c : Fin 128, idx_main_v16 (idx_main_v18 (idx_main_v21 (ix3 b i j) c)) = ix3 b j c := fun c =>
    funext fun a => Fin.ext (by match a with | ⟨0,_⟩ => rfl | ⟨1,_⟩ => rfl | ⟨2,_⟩ => rfl)
  simp only [val_main_v20_apply, val_main_v19_apply, val_main_v17_apply, val_main_v18_apply, val_main_v15_apply,
    val_main_v16_apply, e17, e18, v14_at x0 x1 x3 hind, Ideal.ofBits_def, Ideal.ofBits_zero_f32, zero_add,
    Ideal.mulf_def, Ideal.subf_def]

/-- Two row numbers below 64, as 32-bit words, compare equal exactly when they are equal. -/
theorem iota_eq (i j : Fin 64) :
    IntOp.cmpi .eq (IntOp.addi (BitVec.ofNat 32 i.val) 0#32) (BitVec.ofNat 32 j.val) = if i = j then 1#1 else 0#1 := by
  have hi := i.isLt; have hj := j.isLt
  unfold IntOp.addi IntOp.cmpi
  rw [BitVec.add_zero]
  by_cases h : i = j
  · subst h; rw [if_pos rfl]; simp
  · rw [if_neg h]
    have hne : (BitVec.ofNat 32 i.val == BitVec.ofNat 32 j.val) = false := by
      rw [beq_eq_false_iff_ne]
      intro hh
      have h2 := congrArg BitVec.toNat hh
      rw [BitVec.toNat_ofNat, BitVec.toNat_ofNat] at h2
      exact h (Fin.ext (by omega))
    simp only [hne]; rfl

/-- The squared distances with a row's distance to itself replaced by plus infinity. -/
theorem v28_at (hind : ∀ i, (x1 i).toNat ≤ 41343) (b : Fin 8) (i j : Fin 64) :
    val_main_v28 (F := Ideal) x0 x1 x3 (ix3 b i j) = Cert.Mine.distR (scl x3) (Cert.Mine.feat x0 x1) b i j := by
  rw [val_main_v28_apply, val_main_call1_v1_apply, val_main_v27_apply, val_main_v26_apply, val_main_v25_apply,
    val_main_v22_apply, val_main_v23_apply, val_main_v24_apply, val_main_c_apply, val_main_call1_v2_apply,
    val_main_call1_v0_apply, val_main_cst_2_apply, v21_at x0 x1 x3 hind]
  have e : idx_main_v27 (idx_main_call1_v1 (ix3 b i j)) = ix2 i j :=
    funext fun a => Fin.ext (by match a with | ⟨0,_⟩ => rfl | ⟨1,_⟩ => rfl)
  rw [e]
  show Scalar.select (IntOp.cmpi .eq (IntOp.addi (BitVec.ofNat 32 i.val) 0#32) (BitVec.ofNat 32 j.val)) _ _ = _
  rw [iota_eq]
  unfold Cert.Mine.distR
  by_cases h : i = j
  · rw [if_pos h, if_pos h, select_one]; rfl
  · rw [if_neg h, if_neg h, select_zero]

/-- The single-precision pattern of plus infinity is the top of the extended reals. -/
theorem inf_top : Ideal.ofBits .f32 0x7F800000#32 = (⊤ : EReal) := by simp [Ideal.ofBits, Ideal.ieee]

/-- A fold by the minimum from the top is the infimum. -/
theorem fold_min_top {ι : Type} (s : Finset ι) (g f : ι → EReal) (t : EReal) (ht : t = ⊤) (h : ∀ i, g i = f i) :
    s.fold (FloatOps.minimumf (F := Ideal) (φ := .f32)) t g = s.inf f := by
  obtain rfl : g = f := funext h
  subst ht
  induction s using Finset.cons_induction with
  | empty => rw [Finset.fold_empty, Finset.inf_empty]
  | cons a s ha ih => rw [Finset.fold_cons, Finset.inf_cons, ih]; rfl

/-- Dropping the third axis of an 8 x 64 x 64 array leaves an 8 x 64 one: the shapes of the minimum over `j`. -/
theorem red2 : S8x64x64.Reduces [(2 : Fin 3)] S8x64 := by decide

/-- The source index over the result index `(b, i)` with third coordinate `j` is `(b, i, j)`. -/
theorem lift2 (b : Fin 8) (i j : Fin 64) : red2.lift (ix2 b i) j = ix3 b i j :=
  funext fun a => Fin.ext (by match a with | ⟨0,_⟩ => rfl | ⟨1,_⟩ => rfl | ⟨2,_⟩ => rfl)

/-- The distance from a row to its nearest other row: the minimum from plus infinity is the infimum. -/
theorem v30_at (hind : ∀ i, (x1 i).toNat ≤ 41343) (b : Fin 8) (i : Fin 64) :
    val_main_v30 (F := Ideal) x0 x1 x3 (ix2 b i)
      = Finset.univ.inf fun j => Ideal.sqrt (Cert.Mine.distR (scl x3) (Cert.Mine.feat x0 x1) b i j) := by
  unfold val_main_v30
  rw [Host.reduce_eq_fold_single FloatOps.minimumf _ _ reducesTo_S8x64x64_S8x64_d2 red2 h_S_, val_main_cst_3_apply]
  exact fold_min_top _ _ _ _ inf_top fun j =>
    (congrArg (val_main_v29 (F := Ideal) x0 x1 x3) (lift2 b i j)).trans
      (congrArg Ideal.sqrt (v28_at x0 x1 x3 hind b i j))

/-- Row `i` of image `b` is row `64 b + i` of the 512: the flat row numbers are the pairs. -/
def rowEquiv : Fin 8 × Fin 64 ≃ S512.Idx where
  toFun p := ix1 (⟨p.1.val * 64 + p.2.val, by have := p.1.isLt; have := p.2.isLt; omega⟩ : Fin 512)
  invFun j := (⟨(j 0).val / 64, by have h : (j 0).val < 512 := (j 0).isLt; omega⟩, ⟨(j 0).val % 64, Nat.mod_lt _ (by norm_num)⟩)
  left_inv p := by
    have h1 := p.1.isLt; have h2 := p.2.isLt
    refine Prod.ext (Fin.ext ?_) (Fin.ext ?_)
    · show (p.1.val * 64 + p.2.val) / 64 = p.1.val; omega
    · show (p.1.val * 64 + p.2.val) % 64 = p.2.val; omega
  right_inv j := by
    funext a
    match a with
    | ⟨0, _⟩ =>
      refine Fin.ext ?_
      show (j 0).val / 64 * 64 + (j 0).val % 64 = (j 0).val
      omega

/-- The hinge of a row. -/
theorem v35_at (hind : ∀ i, (x1 i).toNat ≤ 41343) (b : Fin 8) (i : Fin 64) :
    val_main_v35 (F := Ideal) x0 x1 x3 (rowEquiv (b, i)) = Cert.Mine.hingeR (scl x3) (Cert.Mine.feat x0 x1) b i := by
  have hb := b.isLt; have hi := i.isLt
  rw [val_main_v35_apply, val_main_v34_apply, val_main_cst_5_apply, val_main_v33_apply, val_main_v32_apply,
    val_main_cst_4_apply, val_main_v31_apply]
  have e : idx_main_v31 (rowEquiv (b, i)) = ix2 b i := funext fun a => Fin.ext (by
    match a with
    | ⟨0, _⟩ => show (b.val * 64 + i.val) / 64 = b.val; omega
    | ⟨1, _⟩ => show (b.val * 64 + i.val) % 64 = i.val; omega)
  rw [e, v30_at x0 x1 x3 hind]
  rfl

/-! ## The loss -/

/-- The sum of the 512 hinges is the double sum over images and rows. -/
theorem v36_at (hind : ∀ i, (x1 i).toNat ≤ 41343) (i : S_.Idx) :
    val_main_v36 (F := Ideal) x0 x1 x3 i
      = ∑ b, ∑ k, Cert.Mine.hingeR (scl x3) (Cert.Mine.feat x0 x1) b k := by
  rw [val_main_v36_apply, val_main_cst_6_apply, Ideal.ofBits_def, Ideal.ofBits_zero_f32, zero_add,
    ← Equiv.sum_comp rowEquiv, Fintype.sum_prod_type]
  exact Finset.sum_congr rfl fun b _ => Finset.sum_congr rfl fun k _ => v35_at x0 x1 x3 hind b k

/-- THE VALUE: the reference's result is the loss, in the arrangement that divides the product by the norm and sums
    squared differences channel by channel. -/
theorem value (x0 : (⟨Cert.ReferenceIdeal.S8x128x152x272, .f32⟩ : BufTy).Contents (Elt Ideal))
    (x1 : (⟨Cert.ReferenceIdeal.S8x64, .i32⟩ : BufTy).Contents (Elt Ideal))
    (x3 : (⟨Cert.ReferenceIdeal.S_, .i32⟩ : BufTy).Contents (Elt Ideal))
    (hind : ∀ i, (x1 i).toNat ≤ 41343) :
    Cert.ReferenceIdeal.Read.val_main_v37 (F := Ideal) x0 x1 x3
      = fun _ => Cert.Mine.lossR (FloatOps.sitofp (F := Ideal) .f32 (x3 ValueIdx.ix0)) (Cert.Mine.feat x0 x1) := by
  funext i
  rw [val_main_v37_apply, v36_at x0 x1 x3 hind, val_main_cst_7_apply]
  rfl

open Idealize.ShloMosaic.TcCoe Idealize.SL.Sem Idealize.ShloMosaic.StableHlo in
/-- THE RUN: every weakly fair execution of the reference ends with its result at the loss of the picked rows, the
    arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg)
    (hind : ∀ (c : Dev Cert.ReferenceIdeal.nD) (i : Cert.ReferenceIdeal.S8x64.Idx),
      (m' ((c.tc : Thread Cert.ReferenceIdeal.nD Cert.ReferenceIdeal.τ).loc Cert.ReferenceIdeal.main_arg1) i).toNat ≤ 41343) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread _ _).loc Cert.ReferenceIdeal.main_v37)
          = (fun _ => Cert.Mine.lossR
              (FloatOps.sitofp (F := Ideal) .f32 (m' ((c.tc : Thread _ _).loc Cert.ReferenceIdeal.main_arg3) ValueIdx.ix0))
              (Cert.Mine.feat (m' ((c.tc : Thread _ _).loc Cert.ReferenceIdeal.main_arg0))
                (m' ((c.tc : Thread _ _).loc Cert.ReferenceIdeal.main_arg1))))
        ∧ r.2.mem ((c.tc : Thread _ _).loc Cert.ReferenceIdeal.main_arg0) = m' ((c.tc : Thread _ _).loc Cert.ReferenceIdeal.main_arg0)
        ∧ r.2.mem ((c.tc : Thread _ _).loc Cert.ReferenceIdeal.main_arg1) = m' ((c.tc : Thread _ _).loc Cert.ReferenceIdeal.main_arg1)
        ∧ r.2.mem ((c.tc : Thread _ _).loc Cert.ReferenceIdeal.main_arg2) = m' ((c.tc : Thread _ _).loc Cert.ReferenceIdeal.main_arg2)
        ∧ r.2.mem ((c.tc : Thread _ _).loc Cert.ReferenceIdeal.main_arg3) = m' ((c.tc : Thread _ _).loc Cert.ReferenceIdeal.main_arg3)) :=
  (θ_run _ _ _).mono (fun _ h c => ⟨(h c).1.trans ((Cert.ReferenceIdeal.Read.val_main_v37_eq m' c).trans (value _ _ _ (hind c))), (h c).2⟩)
    (Cert.ReferenceIdeal.Value.run (F := Ideal) m' ρ')

end Cert.Mine.Ref

end
-- ==== Proof.Claims.lean ====
/-
  The five claims. Each kernel program's frame is its run with the result dropped; the reference's frame is
  its generated run with the result dropped; the idealization rewrote nothing, so there is nothing to
  preserve; and at the extended reals the two programs end with one number: the kernel's run leaves the
  pipelined kernel's value of the scale and of the gathered rows, which read index by index is the loss with
  rows scaled by a quotient and distances expanded, the reference's run leaves the loss with the product
  divided and squared differences summed, and the two are equal for finite inputs.
-/
import proofs.«212862_g50483045597572_cont_8to1c4_140_39_alg».proof.Defs
import proofs.«212862_g50483045597572_cont_8to1c4_140_39_alg».proof.Proof.Gen.Kernel
import proofs.«212862_g50483045597572_cont_8to1c4_140_39_alg».proof.Proof.Gen.KernelIdeal
import proofs.«212862_g50483045597572_cont_8to1c4_140_39_alg».proof.Proof.Gen.ReferenceIdeal
import proofs.«212862_g50483045597572_cont_8to1c4_140_39_alg».proof.Proof.Gen.Pre_input_domain
import proofs.«212862_g50483045597572_cont_8to1c4_140_39_alg».proof.Proof.KernelRun
import proofs.«212862_g50483045597572_cont_8to1c4_140_39_alg».proof.Proof.KernelRunB
import proofs.«212862_g50483045597572_cont_8to1c4_140_39_alg».proof.Proof.KernelResult
import proofs.«212862_g50483045597572_cont_8to1c4_140_39_alg».proof.Proof.RefRead
import proofs.«212862_g50483045597572_cont_8to1c4_140_39_alg».proof.Proof.PreFacts

noncomputable section

namespace Cert.Mine.Claims

open Idealize.ShloMosaic Idealize.SL.Sem

/-! ## The frames -/

theorem frame_k : Cert.frame_Kernel := fun m ρ hpre =>
  (θ_run (Cert.Kernel.defs (F := Bits)) _ _).mono (fun _ h c => (h c).2)
    (Cert.Mine.KB.run_main (F := Bits) m ρ
      (Cert.Mine.KB.posOK_of_range m fun d i => Cert.Mine.Pre.range (F := Bits) _ _ _ _ (hpre d) i))

theorem frame_ki : Cert.frame_KernelIdeal := fun m ρ hpre =>
  (θ_run (Cert.KernelIdeal.defs (F := Ideal)) _ _).mono (fun _ h c => (h c).2)
    (Cert.Mine.KI.run_main (F := Ideal) m ρ
      (Cert.Mine.KI.posOK_of_range m fun d i => Cert.Mine.Pre.range (F := Ideal) _ _ _ _ (hpre d) i))

theorem frame_ri : Cert.frame_ReferenceIdeal := fun m ρ _ =>
  (θ_run Cert.ReferenceIdeal.defs _ _).mono (fun _ h c => (h c).2) (Cert.ReferenceIdeal.Value.run (F := Ideal) m ρ)

/-! ## The two results are one number -/

open Cert.KernelIdeal Cert.Mine.KI in
/-- What the kernel's run leaves in its result, under the precondition: the loss in the reference's arrangement. -/
theorem kernel_result_at (m : (ℓ : Loc Cert.KernelIdeal.nD Cert.KernelIdeal.τ Cert.KernelIdeal.sig) → Buf (Elt Ideal) ℓ)
    (c : Dev Cert.KernelIdeal.nD)
    (hpre : Cert.Pre_input_domain.fn (F := Ideal) (m (locOf c main_arg0)) (m (locOf c main_arg1)) (m (locOf c main_arg2)) (m (locOf c main_arg3)) = fun _ => 1#1) :
    shapeCast S_ (resOf m c) Facts₀.shapeCasts_S1x1_S_
      = fun _ => Cert.Mine.lossR (FloatOps.sitofp (F := Ideal) .f32 (m (locOf c main_arg3) ValueIdx.ix0))
          (Cert.Mine.feat (m (locOf c main_arg0)) (m (locOf c main_arg1))) := by
  have key := kernel_result c (m (locOf c main_arg0)) (m (locOf c main_arg1)) (m (locOf c main_arg2)) (m (locOf c main_arg3)) hpre
  refine Eq.trans ?_ key
  unfold resOf resultOf VA0 VA1 VR gathOf tblOf idxOf
  rw [V6_v5, V6_v3, V3_v1, V3_v2]
  rfl

theorem algebraic : Cert.algebraic_KernelIdeal_ReferenceIdeal := by
  intro m ρ m' ρ' hpre hagree
  have hrange : ∀ (d : Dev Cert.KernelIdeal.nD) i, ((m (Cert.Mine.KI.locOf d Cert.KernelIdeal.main_arg1)) i).toNat ≤ 41343 :=
    fun d i => Cert.Mine.Pre.range (F := Ideal) _ _ _ _ (hpre d) i
  refine ⟨fun c => shapeCast Cert.KernelIdeal.S_ (Cert.Mine.KI.resOf m c) Cert.KernelIdeal.Facts₀.shapeCasts_S1x1_S_,
    Cert.Mine.KI.run_main (F := Ideal) m ρ (Cert.Mine.KI.posOK_of_range m hrange), ?_⟩
  refine (θ_run Cert.ReferenceIdeal.defs _ _).mono (fun _ h c => ⟨(h c).1.trans ?_, (h c).2⟩)
    (Cert.Mine.Ref.run m' ρ' (fun c i => by rw [(hagree c).2.1]; exact hrange c i))
  rw [(hagree c).1, (hagree c).2.1, (hagree c).2.2.2]
  exact (kernel_result_at m c (hpre c)).symm

end Cert.Mine.Claims

end
-- ==== Proof.lean ====
/-
  The certificate's claim: the gather kernel on the vector subcores followed by the pipelined mining kernel
  on the TensorCore, against the reference that gathers, scales and mines with array operations.

  The gather: sixteen tiles each copy 32 positions of the flat list, add the offset of their image, have the
  engine gather the table rows the sums name, and copy them out; row r of the result is table row
  ind[r] + 41344 * (r / 64). The mining kernel scales each gathered row to length s (its norm floored at a
  small positive constant), takes squared distances from the expansion |a|^2 + |b|^2 - 2 a.b clamped at zero,
  and averages max 0 (10 - nearest distance) over the 512 rows. The reference divides the product s * row by
  the norm and sums squared differences channel by channel. For finite inputs the two are one number: the
  norm is a positive real, so scaling by the quotient is dividing the product, the expansion of a sum of
  squared differences is exact over the reals, and a sum of squares is never negative.

  Each kernel program's frame is its run under the launch theorem for kernels on the vector subcores; the
  reference's is its run read back; the idealization rewrote nothing.
-/
import proofs.«212862_g50483045597572_cont_8to1c4_140_39_alg».proof.Defs
import proofs.«212862_g50483045597572_cont_8to1c4_140_39_alg».proof.Proof.Gen.Kernel
import proofs.«212862_g50483045597572_cont_8to1c4_140_39_alg».proof.Proof.Gen.Kernel.Skeleton
import proofs.«212862_g50483045597572_cont_8to1c4_140_39_alg».proof.Proof.Gen.Kernel.Launch
import proofs.«212862_g50483045597572_cont_8to1c4_140_39_alg».proof.Proof.Gen.Kernel.Points
import proofs.«212862_g50483045597572_cont_8to1c4_140_39_alg».proof.Proof.Gen.KernelIdeal
import proofs.«212862_g50483045597572_cont_8to1c4_140_39_alg».proof.Proof.Gen.KernelIdeal.Skeleton
import proofs.«212862_g50483045597572_cont_8to1c4_140_39_alg».proof.Proof.Gen.KernelIdeal.Launch
import proofs.«212862_g50483045597572_cont_8to1c4_140_39_alg».proof.Proof.Gen.KernelIdeal.Points
import proofs.«212862_g50483045597572_cont_8to1c4_140_39_alg».proof.Proof.Gen.ReferenceIdeal
import proofs.«212862_g50483045597572_cont_8to1c4_140_39_alg».proof.Proof.Gen.Pre_input_domain
import proofs.«212862_g50483045597572_cont_8to1c4_140_39_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  Cert.Mine.Claims.frame_k, Cert.Mine.Claims.frame_ki, Cert.Mine.Claims.frame_ri, trivial, Cert.Mine.Claims.algebraic⟩

end Cert.Proof

end
